-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S512x2560 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2560x1 : Shape := ⟨3, ![16384, 2560, 1]⟩
abbrev S_ : Shape := ⟨0, ![]⟩

class Facts : Prop where
  bcast_S_S16384x2560x1 : S_.BroadcastsInDim S16384x2560x1 (![] : Fin 0 → Fin S16384x2560x1.rank)
  reducesTo_S16384x2560x1_S_d0_1_2 : S16384x2560x1.ReducesTo [0, 1, 2] S_
  h_S_ : 0 < S_.numel

variable [Facts]

def fn {F : FTy → Type} [FloatOps F] (main_arg0 : FVec F S16384x2560x1 .f32) : IVec S_ 1 :=
  let main_v0 : FVec F S16384x2560x1 .f32 := Host.absf main_arg0
  let main_cst : FVec F S_ .f32 := constant S_ .f32 0x7F800000#32
  let main_v1 : FVec F S16384x2560x1 .f32 := broadcastInDim S16384x2560x1 ![] bcast_S_S16384x2560x1 main_cst
  let main_v2 : IVec S16384x2560x1 1 := cmpf .olt main_v0 main_v1
  let main_c : IVec S_ 1 := constantI S_ 1 1#1
  let main_v3 : IVec S_ 1 := (fun x v => Host.reduce IntOp.andi x v reducesTo_S16384x2560x1_S_d0_1_2 h_S_) main_v2 main_c
  main_v3
-- ==== Kernel.lean ====
abbrev S16384x2560x1 : Shape := ⟨3, ![16384, 2560, 1]⟩
abbrev S16384x2560 : Shape := ⟨2, ![16384, 2560]⟩
abbrev S16384x15 : Shape := ⟨2, ![16384, 15]⟩
abbrev S512x2560 : Shape := ⟨2, ![512, 2560]⟩
abbrev S512x15 : Shape := ⟨2, ![512, 15]⟩
abbrev S512 : Shape := ⟨1, ![512]⟩
abbrev S512x1 : Shape := ⟨2, ![512, 1]⟩
abbrev S512x2559 : Shape := ⟨2, ![512, 2559]⟩
abbrev S512x2558 : Shape := ⟨2, ![512, 2558]⟩

abbrev nBuf : Space → Nat
  | .hbm => 3
  | .vmem => 4
  | .smem => 0
  | _ => 0

abbrev bufTy : (tb : Table) → Fin (tcTables nBuf tb) → BufTy
  | .hbm, ⟨0, _⟩ => ⟨S16384x2560x1, .f32⟩
  | .hbm, ⟨1, _⟩ => ⟨S16384x2560, .f32⟩
  | .hbm, ⟨2, _⟩ => ⟨S16384x15, .f32⟩
  | .local _ .vmem, ⟨0, _⟩ => ⟨S512x2560, .f32⟩
  | .local _ .vmem, ⟨1, _⟩ => ⟨S512x2560, .f32⟩
  | .local _ .vmem, ⟨2, _⟩ => ⟨S512x15, .f32⟩
  | .local _ .vmem, ⟨3, _⟩ => ⟨S512x15, .f32⟩
  | _, _ => ⟨S16384x2560x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16384x2560x1_S16384x2560 : S16384x2560x1.ShapeCasts S16384x2560
  inb_S512x2560_S512x2560_0_0 : ∀ a, (![0, 0] : Fin 2 → Nat) a + S512x2560.size a ≤ S512x2560.size a
  h_S512x2560 : 0 < S512x2560.numel
  shapeCasts_S512x2560_S512x2560 : S512x2560.ShapeCasts S512x2560
  reduces_S512x2560_S512 : S512x2560.Reduces [1] S512
  shapeCasts_S512_S512x1 : S512.ShapeCasts S512x1
  broadcasts_S512x1_S512x2560 : S512x1.Broadcasts S512x2560
  natLt_1_32 : 1 < 32
  slices_S512x2560_o0_1_S512x2559 : S512x2560.Slices ![0, 1] S512x2559
  slices_S512x2560_o0_0_S512x2559 : S512x2560.Slices ![0, 0] S512x2559
  reduces_S512x2559_S512 : S512x2559.Reduces [1] S512
  slices_S512x2560_o0_2559_S512x1 : S512x2560.Slices ![0, 2559] S512x1
  slices_S512x2560_o0_0_S512x1 : S512x2560.Slices ![0, 0] S512x1
  slices_S512x2559_o0_1_S512x2558 : S512x2559.Slices ![0, 1] S512x2558
  slices_S512x2559_o0_0_S512x2558 : S512x2559.Slices ![0, 0] S512x2558
  slices_S512x2559_o0_2558_S512x1 : S512x2559.Slices ![0, 2558] S512x1
  slices_S512x2559_o0_0_S512x1 : S512x2559.Slices ![0, 0] S512x1
  reduces_S512x2558_S512 : S512x2558.Reduces [1] S512
  concatenates_S512x1_S512x1_S512x1_S512x1_S512x1_S512x1_S512x1_S512x1_S512x1_S512x1_S512x1_S512x1_S512x1_S512x1_S512x1_S512x15_d1 : Shape.Concatenates [S512x1, S512x1, S512x1, S512x1, S512x1, S512x1, S512x1, S512x1, S512x1, S512x1, S512x1, S512x1, S512x1, S512x1, S512x1] S512x15 1
  inb_S512x15_S512x15_0_0 : ∀ a, (![0, 0] : Fin 2 → Nat) a + S512x15.size a ≤ S512x15.size a
  h_S512x15 : 0 < S512x15.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2560.size a ≤ S16384x2560.size a
  hwx0_0 : ∀ i : grid0.Coords, EltTy.bits .f32 = 32 ∨ (Rect.block (s := S16384x2560) S512x2560.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x15.size a ≤ S16384x15.size a
  hwx0_1 : ∀ i : grid0.Coords, EltTy.bits .f32 = 32 ∨ (Rect.block (s := S16384x15) S512x15.size (cc0_transform_1 i) (hinb0_1 i)).WholeWords (EltTy.packing .f32)

variable [Facts₀]

abbrev win0_0 : Pipeline.Window sig grid0 :=
  Pipeline.Window.ofSpec (Memref.whole main_v0) S512x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x15.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x2560x1 : Shape := ⟨3, ![16384, 2560, 1]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S16384x2559 : Shape := ⟨2, ![16384, 2559]⟩
abbrev S16384x2558 : Shape := ⟨2, ![16384, 2558]⟩
abbrev S16384x15 : Shape := ⟨2, ![16384, 15]⟩

abbrev nBuf : Space → Nat
  | .hbm => 175
  | .vmem => 0
  | .smem => 0
  | _ => 0

abbrev hbmTy0_0 (i : Nat) : BufTy := match i % 128 with
  | 0 => ⟨S16384x2560x1, .f32⟩
  | 1 => ⟨S16384x2560, .f32⟩
  | 2 => ⟨S_, .f32⟩
  | 3 => ⟨S16384, .f32⟩
  | 4 => ⟨S_, .f32⟩
  | 5 => ⟨S16384, .f32⟩
  | 6 => ⟨S16384, .f32⟩
  | 7 => ⟨S_, .f32⟩
  | 8 => ⟨S16384, .f32⟩
  | 9 => ⟨S_, .f32⟩
  | 10 => ⟨S16384, .f32⟩
  | 11 => ⟨S16384, .f32⟩
  | 12 => ⟨S16384x2560, .f32⟩
  | 13 => ⟨S_, .f32⟩
  | 14 => ⟨S16384, .f32⟩
  | 15 => ⟨S_, .f32⟩
  | 16 => ⟨S16384, .f32⟩
  | 17 => ⟨S16384, .f32⟩
  | 18 => ⟨S16384, .f32⟩
  | 19 => ⟨S_, .i32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x2560, .f32⟩
  | 27 => ⟨S16384x2560, .f32⟩
  | 28 => ⟨S16384x2560, .f32⟩
  | 29 => ⟨S_, .f32⟩
  | 30 => ⟨S_, .f32⟩
  | 31 => ⟨S_, .f32⟩
  | 32 => ⟨S_, .f32⟩
  | 33 => ⟨S16384, .f32⟩
  | 34 => ⟨S16384, .f32⟩
  | 35 => ⟨S16384, .f32⟩
  | 36 => ⟨S_, .f32⟩
  | 37 => ⟨S_, .i1⟩
  | 38 => ⟨S_, .f32⟩
  | 39 => ⟨S_, .f32⟩
  | 40 => ⟨S16384, .f32⟩
  | 41 => ⟨S16384, .f32⟩
  | 42 => ⟨S16384, .f32⟩
  | 43 => ⟨S16384x1, .f32⟩
  | 44 => ⟨S16384x2560, .f32⟩
  | 45 => ⟨S16384x2560, .f32⟩
  | 46 => ⟨S16384x2560, .f32⟩
  | 47 => ⟨S16384x2560, .f32⟩
  | 48 => ⟨S_, .f32⟩
  | 49 => ⟨S16384, .f32⟩
  | 50 => ⟨S_, .f32⟩
  | 51 => ⟨S16384, .f32⟩
  | 52 => ⟨S16384, .f32⟩
  | 53 => ⟨S16384, .f32⟩
  | 54 => ⟨S16384, .f32⟩
  | 55 => ⟨S16384, .f32⟩
  | 56 => ⟨S16384x2560, .f32⟩
  | 57 => ⟨S16384x2560, .f32⟩
  | 58 => ⟨S_, .f32⟩
  | 59 => ⟨S16384, .f32⟩
  | 60 => ⟨S_, .f32⟩
  | 61 => ⟨S16384, .f32⟩
  | 62 => ⟨S16384, .f32⟩
  | 63 => ⟨S16384, .f32⟩
  | 64 => ⟨S16384, .f32⟩
  | 65 => ⟨S16384, .f32⟩
  | 66 => ⟨S16384x2560, .f32⟩
  | 67 => ⟨S_, .f32⟩
  | 68 => ⟨S16384, .f32⟩
  | 69 => ⟨S_, .f32⟩
  | 70 => ⟨S16384, .f32⟩
  | 71 => ⟨S_, .f32⟩
  | 72 => ⟨S16384, .f32⟩
  | 73 => ⟨S16384, .f32⟩
  | 74 => ⟨S16384, .f32⟩
  | 75 => ⟨S_, .f32⟩
  | 76 => ⟨S16384, .f32⟩
  | 77 => ⟨S16384, .f32⟩
  | 78 => ⟨S16384, .f32⟩
  | 79 => ⟨S16384x2560, .f32⟩
  | 80 => ⟨S16384x1, .f32⟩
  | 81 => ⟨S_, .f32⟩
  | 82 => ⟨S16384x1, .f32⟩
  | 83 => ⟨S16384x1, .f32⟩
  | 84 => ⟨S16384x2560, .f32⟩
  | 85 => ⟨S16384x2560, .i1⟩
  | 86 => ⟨S16384x2560, .i32⟩
  | 87 => ⟨S_, .i32⟩
  | 88 => ⟨S16384, .i32⟩
  | 89 => ⟨S16384, .f32⟩
  | 90 => ⟨S16384x2560, .f32⟩
  | 91 => ⟨S16384x2559, .f32⟩
  | 92 => ⟨S16384x2559, .f32⟩
  | 93 => ⟨S16384x2559, .f32⟩
  | 94 => ⟨S_, .f32⟩
  | 95 => ⟨S16384x2559, .f32⟩
  | 96 => ⟨S16384x2559, .i1⟩
  | 97 => ⟨S16384x2559, .f32⟩
  | 98 => ⟨S_, .f32⟩
  | 99 => ⟨S16384, .f32⟩
  | 100 => ⟨S_, .f32⟩
  | 101 => ⟨S16384, .f32⟩
  | 102 => ⟨S16384, .f32⟩
  | 103 => ⟨S16384x2559, .f32⟩
  | 104 => ⟨S16384x2559, .f32⟩
  | 105 => ⟨S16384x2559, .f32⟩
  | 106 => ⟨S16384x2558, .f32⟩
  | 107 => ⟨S16384x2558, .f32⟩
  | 108 => ⟨S16384x2558, .f32⟩
  | 109 => ⟨S_, .i32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S16384x2559, .f32⟩
  | 117 => ⟨S16384x2559, .f32⟩
  | 118 => ⟨S16384x2559, .f32⟩
  | 119 => ⟨S_, .f32⟩
  | 120 => ⟨S_, .f32⟩
  | 121 => ⟨S_, .f32⟩
  | 122 => ⟨S_, .f32⟩
  | 123 => ⟨S16384, .f32⟩
  | 124 => ⟨S16384, .f32⟩
  | 125 => ⟨S16384, .f32⟩
  | 126 => ⟨S_, .f32⟩
  | 127 => ⟨S_, .i1⟩
  | _ => ⟨S16384x2560x1, .f32⟩

abbrev hbmTy0_1 (i : Nat) : BufTy := match i % 128 with
  | 0 => ⟨S_, .f32⟩
  | 1 => ⟨S_, .f32⟩
  | 2 => ⟨S16384, .f32⟩
  | 3 => ⟨S16384, .f32⟩
  | 4 => ⟨S_, .i32⟩
  | 5 => ⟨S_, .f32⟩
  | 6 => ⟨S16384, .f32⟩
  | 7 => ⟨S16384x1, .f32⟩
  | 8 => ⟨S_, .f32⟩
  | 9 => ⟨S16384x1, .f32⟩
  | 10 => ⟨S16384x1, .f32⟩
  | 11 => ⟨S16384x2558, .f32⟩
  | 12 => ⟨S16384x2558, .f32⟩
  | 13 => ⟨S16384x2558, .f32⟩
  | 14 => ⟨S_, .f32⟩
  | 15 => ⟨S_, .f32⟩
  | 16 => ⟨S_, .f32⟩
  | 17 => ⟨S_, .f32⟩
  | 18 => ⟨S16384, .f32⟩
  | 19 => ⟨S16384, .f32⟩
  | 20 => ⟨S16384, .f32⟩
  | 21 => ⟨S_, .f32⟩
  | 22 => ⟨S_, .i1⟩
  | 23 => ⟨S_, .f32⟩
  | 24 => ⟨S_, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384, .f32⟩
  | 31 => ⟨S16384x1, .f32⟩
  | 32 => ⟨S16384x1, .f32⟩
  | 33 => ⟨S16384x1, .f32⟩
  | 34 => ⟨S16384x1, .f32⟩
  | 35 => ⟨S16384x1, .f32⟩
  | 36 => ⟨S16384x1, .f32⟩
  | 37 => ⟨S16384x1, .f32⟩
  | 38 => ⟨S16384x1, .f32⟩
  | 39 => ⟨S16384x1, .f32⟩
  | 40 => ⟨S16384x1, .f32⟩
  | 41 => ⟨S16384x1, .f32⟩
  | 42 => ⟨S16384x1, .f32⟩
  | 43 => ⟨S16384x1, .f32⟩
  | 44 => ⟨S16384x1, .f32⟩
  | 45 => ⟨S16384x1, .f32⟩
  | 46 => ⟨S16384x15, .f32⟩
  | _ => ⟨S16384x2560x1, .f32⟩

abbrev hbmTy (i : Nat) : BufTy := match i / 128 with
  | 0 => hbmTy0_0 i
  | 1 => hbmTy0_1 i
  | _ => ⟨S16384x2560x1, .f32⟩

abbrev bufTy : (tb : Table) → Fin (tcTables nBuf tb) → BufTy
  | .hbm, ⟨i, _⟩ => hbmTy i
  | _, _ => ⟨S16384x2560x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_cst_4 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_5 : Ref sig .tc := ⟨.hbm, 48, rfl⟩
abbrev main_v19 : Ref sig .tc := ⟨.hbm, 49, rfl⟩
abbrev main_cst_6 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_7 : Ref sig .tc := ⟨.hbm, 58, rfl⟩
abbrev main_v27 : Ref sig .tc := ⟨.hbm, 59, rfl⟩
abbrev main_cst_8 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_9 : Ref sig .tc := ⟨.hbm, 67, rfl⟩
abbrev main_v34 : Ref sig .tc := ⟨.hbm, 68, rfl⟩
abbrev main_cst_10 : Ref sig .tc := ⟨.hbm, 69, rfl⟩
abbrev main_v35 : Ref sig .tc := ⟨.hbm, 70, rfl⟩
abbrev main_cst_11 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_12 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_13 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_c_14 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_call1_v0 : Ref sig .tc := ⟨.hbm, 91, rfl⟩
abbrev main_call1_v1 : Ref sig .tc := ⟨.hbm, 92, rfl⟩
abbrev main_v52 : Ref sig .tc := ⟨.hbm, 93, rfl⟩
abbrev main_cst_15 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_16 : Ref sig .tc := ⟨.hbm, 98, rfl⟩
abbrev main_v56 : Ref sig .tc := ⟨.hbm, 99, rfl⟩
abbrev main_cst_17 : Ref sig .tc := ⟨.hbm, 100, rfl⟩
abbrev main_v57 : Ref sig .tc := ⟨.hbm, 101, rfl⟩
abbrev main_v58 : Ref sig .tc := ⟨.hbm, 102, rfl⟩
abbrev main_call2_v0 : Ref sig .tc := ⟨.hbm, 103, rfl⟩
abbrev main_call2_v1 : Ref sig .tc := ⟨.hbm, 104, rfl⟩
abbrev main_v59 : Ref sig .tc := ⟨.hbm, 105, rfl⟩
abbrev main_call3_v0 : Ref sig .tc := ⟨.hbm, 106, rfl⟩
abbrev main_call3_v1 : Ref sig .tc := ⟨.hbm, 107, rfl⟩
abbrev main_v60 : Ref sig .tc := ⟨.hbm, 108, rfl⟩
abbrev main_c_18 : Ref sig .tc := ⟨.hbm, 109, rfl⟩
abbrev main_call4_cst : Ref sig .tc := ⟨.hbm, 110, rfl⟩
abbrev main_call4_v0 : Ref sig .tc := ⟨.hbm, 111, rfl⟩
abbrev main_call4_v1 : Ref sig .tc := ⟨.hbm, 112, rfl⟩
abbrev main_call4_cst_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_v6 : Ref sig .tc := ⟨.hbm, 118, rfl⟩
abbrev main_call4_v7 : Ref sig .tc := ⟨.hbm, 119, rfl⟩
abbrev main_call4_cst_1 : Ref sig .tc := ⟨.hbm, 120, rfl⟩
abbrev main_call4_v8 : Ref sig .tc := ⟨.hbm, 121, rfl⟩
abbrev main_call4_cst_2 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_cst_3 : Ref sig .tc := ⟨.hbm, 126, rfl⟩
abbrev main_call4_v12 : Ref sig .tc := ⟨.hbm, 127, rfl⟩
abbrev main_call4_cst_4 : Ref sig .tc := ⟨.hbm, 128, rfl⟩
abbrev main_call4_call0_v0 : Ref sig .tc := ⟨.hbm, 129, rfl⟩
abbrev main_call4_call0_v1 : Ref sig .tc := ⟨.hbm, 130, rfl⟩
abbrev main_v61 : Ref sig .tc := ⟨.hbm, 131, rfl⟩
abbrev main_c_19 : Ref sig .tc := ⟨.hbm, 132, rfl⟩
abbrev main_call5_cst : Ref sig .tc := ⟨.hbm, 133, rfl⟩
abbrev main_call5_v0 : Ref sig .tc := ⟨.hbm, 134, rfl⟩
abbrev main_call5_v1 : Ref sig .tc := ⟨.hbm, 135, rfl⟩
abbrev main_call5_cst_0 : Ref sig .tc := ⟨.hbm, 136, rfl⟩
abbrev main_call5_v2 : Ref sig .tc := ⟨.hbm, 137, rfl⟩
abbrev main_call5_v3 : Ref sig .tc := ⟨.hbm, 138, rfl⟩
abbrev main_call5_v4 : Ref sig .tc := ⟨.hbm, 139, rfl⟩
abbrev main_call5_v5 : Ref sig .tc := ⟨.hbm, 140, rfl⟩
abbrev main_call5_v6 : Ref sig .tc := ⟨.hbm, 141, rfl⟩
abbrev main_call5_v7 : Ref sig .tc := ⟨.hbm, 142, rfl⟩
abbrev main_call5_cst_1 : Ref sig .tc := ⟨.hbm, 143, rfl⟩
abbrev main_call5_v8 : Ref sig .tc := ⟨.hbm, 144, rfl⟩
abbrev main_call5_cst_2 : Ref sig .tc := ⟨.hbm, 145, rfl⟩
abbrev main_call5_v9 : Ref sig .tc := ⟨.hbm, 146, rfl⟩
abbrev main_call5_v10 : Ref sig .tc := ⟨.hbm, 147, rfl⟩
abbrev main_call5_v11 : Ref sig .tc := ⟨.hbm, 148, rfl⟩
abbrev main_call5_cst_3 : Ref sig .tc := ⟨.hbm, 149, rfl⟩
abbrev main_call5_v12 : Ref sig .tc := ⟨.hbm, 150, rfl⟩
abbrev main_call5_cst_4 : Ref sig .tc := ⟨.hbm, 151, rfl⟩
abbrev main_call5_call0_v0 : Ref sig .tc := ⟨.hbm, 152, rfl⟩
abbrev main_call5_call0_v1 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩

abbrev nD : Nat := 1
abbrev τ : Topo := Topo.v7x

variable {F : FTy → Type} [FloatOps F]

class Facts₀ : Prop where
  shapeCasts_S16384x2560x1_S16384x2560 : S16384x2560x1.ShapeCasts S16384x2560
  reducesTo_S16384x2560_S16384_d1 : S16384x2560.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x2560_0_1 : S16384x1.BroadcastsInDim S16384x2560 (![0, 1] : Fin 2 → Fin S16384x2560.rank)
  natLt_1_32 : 1 < 32
  slices_S16384x2560_S16384x2559_0_1 : S16384x2560.Slices ![0, 1] S16384x2559
  slices_S16384x2560_S16384x2559_0_0 : S16384x2560.Slices ![0, 0] S16384x2559
  bcast_S_S16384x2559 : S_.BroadcastsInDim S16384x2559 (![] : Fin 0 → Fin S16384x2559.rank)
  reducesTo_S16384x2559_S16384_d1 : S16384x2559.ReducesTo [1] S16384
  slices_S16384x2559_S16384x2558_0_1 : S16384x2559.Slices ![0, 1] S16384x2558
  slices_S16384x2559_S16384x2558_0_0 : S16384x2559.Slices ![0, 0] S16384x2558
  bcast_S16384x1_S16384x2559_0_1 : S16384x1.BroadcastsInDim S16384x2559 (![0, 1] : Fin 2 → Fin S16384x2559.rank)
  reducesTo_S16384x2558_S16384_d1 : S16384x2558.ReducesTo [1] S16384
  bcast_S16384x1_S16384x2558_0_1 : S16384x1.BroadcastsInDim S16384x2558 (![0, 1] : Fin 2 → Fin S16384x2558.rank)
  concatenates_S16384x1_S16384x1_S16384x1_S16384x1_S16384x1_S16384x1_S16384x1_S16384x1_S16384x1_S16384x1_S16384x1_S16384x1_S16384x1_S16384x1_S16384x1_S16384x15_d1 : Shape.Concatenates [S16384x1, S16384x1, S16384x1, S16384x1, S16384x1, S16384x1, S16384x1, S16384x1, S16384x1, S16384x1, S16384x1, S16384x1, S16384x1, S16384x1, S16384x1] S16384x15 1

variable [Facts₀]

class Facts : Prop extends Facts₀ where

variable [Facts]
-- ==== Proof.RowStats.lean ====
/-
  Row statistics of a signal of 2560 samples, written twice.

  For one row `x : Fin 2560 → EReal` the fifteen statistics (mean, maximum, minimum, peak to peak, unbiased
  variance, root mean square, skewness, kurtosis, shape factor, impulse factor, the count of samples further than
  three standard deviations from the mean, the zero-crossing rate, the activity and the Hjorth mobility and
  complexity) are written here in two arrangements of the arithmetic:

  * `K.*` computes the central moments from the raw power sums ∑x, ∑x², ∑x³, ∑x⁴, the counts by comparing a
    sample with mean ± 3·std and the signs of neighbours directly, and the means of the first and second
    differences by telescoping (last minus first);
  * `R.*` computes the central moments from the centred samples x − mean, the counts from |x − mean| > 3·std
    and from the difference of neighbouring signs being non-zero, and the variances of the differences from
    their own means.

  Nothing here mentions a program; the constants are the f32 words both arrangements carry.
-/
import Idealize.ShloMosaic.PureOps.Ideal
import Idealize.ShloMosaic.PureOps.Ideal.Laws

noncomputable section

namespace Cert.RowStats

open Idealize.ShloMosaic

/-- The extended real an f32 word denotes. -/
abbrev w32 (b : BitVec 32) : EReal := Ideal.ofBits .f32 b

abbrev c0 : EReal := w32 0x00000000#32
abbrev c2560 : EReal := w32 0x45200000#32
abbrev c2559 : EReal := w32 0x451FF000#32
abbrev c2558 : EReal := w32 0x451FE000#32
abbrev c2557 : EReal := w32 0x451FD000#32
abbrev c3 : EReal := w32 0x40400000#32
abbrev c4 : EReal := w32 0x40800000#32
abbrev c6 : EReal := w32 0x40C00000#32
abbrev c5120 : EReal := w32 0x45A00000#32
abbrev c7680 : EReal := w32 0x45F00000#32
abbrev cNegInf : EReal := w32 0xFF800000#32
abbrev cPosInf : EReal := w32 0x7F800000#32
abbrev cNaN : EReal := w32 0x7FC00000#32
abbrev cNegOne : EReal := w32 0xBF800000#32
abbrev cOne : EReal := w32 0x3F800000#32

/-- Sample `k + 1` and sample `k` of a row of `n + 1` samples, for `k < n`. -/
abbrev up {n : ℕ} (k : Fin n) : Fin (n + 1) := ⟨k.val + 1, by omega⟩
abbrev dn {n : ℕ} (k : Fin n) : Fin (n + 1) := ⟨k.val, by omega⟩

/-- The absolute value on the extended reals. -/
abbrev eabs (a : EReal) : EReal := max a (-a)

/-- First differences of a row. -/
def diff {n : ℕ} (x : Fin (n + 1) → EReal) : Fin n → EReal := fun k => x (up k) - x (dn k)

/-- A one-bit flag as the float 0 or 1, through its 32-bit zero extension read as a signed integer. -/
abbrev flagS (b : BitVec 1) : EReal := (((b.setWidth 32).toInt : ℝ) : EReal)
/-- A one-bit flag as the float 0 or 1, read as an unsigned integer. -/
abbrev flagU (b : BitVec 1) : EReal := ((b.toNat : ℝ) : EReal)

namespace K

variable (x : Fin 2560 → EReal)

def s1 : EReal := ∑ k, x k
def s2 : EReal := ∑ k, x k * x k
def s3 : EReal := ∑ k, x k * x k * x k
def s4 : EReal := ∑ k, x k * x k * (x k * x k)
def mean : EReal := Ideal.div (s1 x) c2560
def mx : EReal := (Finset.univ : Finset (Fin 2560)).fold max cNegInf x
def mn : EReal := (Finset.univ : Finset (Fin 2560)).fold min cPosInf x
def p2p : EReal := mx x - mn x
def rms : EReal := Ideal.sqrt (Ideal.div (s2 x) c2560)
def var : EReal := Ideal.div (s2 x - c2560 * mean x * mean x) c2559
def std : EReal := Ideal.sqrt (var x)
def sumC3 : EReal := s3 x - c3 * mean x * s2 x + c5120 * (mean x * mean x * mean x)
def sumC4 : EReal := s4 x - c4 * mean x * s3 x + c6 * (mean x * mean x) * s2 x - c7680 * (mean x * mean x * mean x * mean x)
def skew : EReal := Ideal.div (Ideal.div (sumC3 x) c2560) (std x * std x * std x)
def kurt : EReal := Ideal.div (Ideal.div (sumC4 x) c2560) (std x * std x * std x * std x)
def absSum : EReal := ∑ k, eabs (x k)
def absMax : EReal := (Finset.univ : Finset (Fin 2560)).fold max cNegInf (fun k => eabs (x k))
def shape : EReal := Ideal.div (rms x * c2560) (absSum x)
def impulse : EReal := Ideal.div (absMax x * c2560) (absSum x)
def upper : EReal := mean x + c3 * std x
def lower : EReal := mean x - c3 * std x
def outliers : EReal :=
  ∑ k, flagS (IntOp.ori (Ideal.cmp .ogt (x k) (upper x)) (Ideal.cmp .olt (x k) (lower x)))
/-- The sign of a sample as the kernel takes it: ±1 by the order where the sample is not zero, the sample itself at zero. -/
def sgn (a : EReal) : EReal :=
  Scalar.select (Ideal.cmp .ogt (eabs a) c0) (Scalar.select (Ideal.cmp .olt a c0) cNegOne cOne) a
def zcr : EReal :=
  Ideal.div (∑ k : Fin 2559, flagS (Ideal.cmp .one (sgn (x (up k))) (sgn (x (dn k))))) c5120
def d1 : Fin 2559 → EReal := diff x
def meanD1 : EReal := Ideal.div (x ⟨2559, by omega⟩ - x ⟨0, by omega⟩) c2559
def varD1 : EReal := Ideal.div ((∑ k, d1 x k * d1 x k) - c2559 * meanD1 x * meanD1 x) c2558
def d2 : Fin 2558 → EReal := diff (d1 x)
def meanD2 : EReal := Ideal.div (d1 x ⟨2558, by omega⟩ - d1 x ⟨0, by omega⟩) c2558
def varD2 : EReal := Ideal.div ((∑ k, d2 x k * d2 x k) - c2558 * meanD2 x * meanD2 x) c2557
def mobility : EReal := Ideal.sqrt (Ideal.div (varD1 x) (var x))
def complexity : EReal := Ideal.sqrt (Ideal.div (varD2 x) (varD1 x))

/-- The fifteen statistics, by column. -/
def col (j : Fin 15) : EReal :=
  match j with
  | ⟨0, _⟩ => mean x | ⟨1, _⟩ => mx x | ⟨2, _⟩ => mn x | ⟨3, _⟩ => p2p x | ⟨4, _⟩ => var x
  | ⟨5, _⟩ => rms x | ⟨6, _⟩ => skew x | ⟨7, _⟩ => kurt x | ⟨8, _⟩ => shape x | ⟨9, _⟩ => impulse x
  | ⟨10, _⟩ => outliers x | ⟨11, _⟩ => zcr x | ⟨12, _⟩ => var x | ⟨13, _⟩ => mobility x | ⟨14, _⟩ => complexity x

end K

namespace R

/-- The unbiased variance of `n` samples the way the reference takes it: the centred squares summed from the
    zero word, divided by `cn − 1` with the one converted from an integer, kept where `cn − 1 > 0`. -/
def varOf {n : ℕ} (cn : EReal) (y : Fin n → EReal) : EReal :=
  Scalar.select (Ideal.cmp .ogt (cn - (((1#32 : BitVec 32).toInt : ℝ) : EReal)) c0)
    (Ideal.div (c0 + ∑ k, (y k - Ideal.div (c0 + ∑ k, y k) cn) * (y k - Ideal.div (c0 + ∑ k, y k) cn))
      (cn - (((1#32 : BitVec 32).toInt : ℝ) : EReal)))
    cNaN

variable (x : Fin 2560 → EReal)

def mean : EReal := Ideal.div (c0 + ∑ k, x k) c2560
def mx : EReal := (Finset.univ : Finset (Fin 2560)).fold max cNegInf x
def mn : EReal := (Finset.univ : Finset (Fin 2560)).fold min cPosInf x
def p2p : EReal := mx x - mn x
def rms : EReal := Ideal.sqrt (Ideal.div (c0 + ∑ k, x k * x k) c2560)
def var : EReal := varOf c2560 x
def std : EReal := Ideal.sqrt (var x)
def cen (k : Fin 2560) : EReal := x k - mean x
def skew : EReal :=
  Ideal.div (Ideal.div (c0 + ∑ k, cen x k * cen x k * cen x k) c2560) (std x * std x * std x)
def kurt : EReal :=
  Ideal.div (Ideal.div (c0 + ∑ k, cen x k * cen x k * (cen x k * cen x k)) c2560) (std x * std x * (std x * std x))
def absSum : EReal := c0 + ∑ k, eabs (x k)
def absMax : EReal := (Finset.univ : Finset (Fin 2560)).fold max cNegInf (fun k => eabs (x k))
def shape : EReal := Ideal.div (rms x * c2560) (absSum x)
def impulse : EReal := Ideal.div (absMax x * c2560) (absSum x)
/-- The count as the reference takes it: the flags as 32-bit words summed as integers, the total converted. -/
def outliers : EReal :=
  ((((Finset.univ : Finset (Fin 2560)).fold IntOp.addi (0#32 : BitVec 32)
      (fun k => (Ideal.cmp .ogt (eabs (cen x k)) (c3 * std x)).setWidth 32)).toInt : ℝ) : EReal)
def zcr : EReal :=
  Ideal.div (c0 + ∑ k : Fin 2559, flagU (Ideal.cmp .une (Ideal.sign (x (up k)) - Ideal.sign (x (dn k))) c0)) c5120
def d1 : Fin 2559 → EReal := diff x
def d2 : Fin 2558 → EReal := diff (d1 x)
def varD1 : EReal := varOf c2559 (d1 x)
def varD2 : EReal := varOf c2558 (d2 x)
def mobility : EReal := Ideal.sqrt (Ideal.div (varD1 x) (var x))
def complexity : EReal := Ideal.sqrt (Ideal.div (varD2 x) (varD1 x))

def col (j : Fin 15) : EReal :=
  match j with
  | ⟨0, _⟩ => mean x | ⟨1, _⟩ => mx x | ⟨2, _⟩ => mn x | ⟨3, _⟩ => p2p x | ⟨4, _⟩ => var x
  | ⟨5, _⟩ => rms x | ⟨6, _⟩ => skew x | ⟨7, _⟩ => kurt x | ⟨8, _⟩ => shape x | ⟨9, _⟩ => impulse x
  | ⟨10, _⟩ => outliers x | ⟨11, _⟩ => zcr x | ⟨12, _⟩ => var x | ⟨13, _⟩ => mobility x | ⟨14, _⟩ => complexity x

end R

end Cert.RowStats

end
-- ==== Proof.LibKeepdims.lean ====
/-
  Two layout operations of a row-wise reduction kept as a column, read at an index.

  A sum along the rows of an a × b array is a vector of length a; kept as an a × 1 column it is the same vector
  (entry (i, 0) is entry i), and broadcast back to a × b every entry of row p is the column's entry (p, 0).
  General in the extents; nothing here mentions a program.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KernelRows.lean ====
/-
  The kernel's block of statistics read at an index.

  A block of the kernel's output is 512 rows by 15 columns; its entry (p, j) is statistic j of row p of the
  512 × 2560 input block. Each statistic is a tree of pointwise operations over row reductions kept as 512 × 1
  columns, so reading it at (p, 0) turns every lane reduction into a sum (or a fold of max / min) over the 2560
  samples of row p, every slice into a shift of the sample index, and every pointwise operation into itself.
-/
import proofs.«118352_j60224031425109_2_alg».proof.Proof.RowStats
import proofs.«118352_j60224031425109_2_alg».proof.Proof.LibKeepdims
import Idealize.ShloMosaic.Lib.Pipeline.Value
import Idealize.ShloMosaic.Lib.ValueIdx
import Idealize.ShloMosaic.PureOps.Ideal.Laws

noncomputable section

namespace Cert.KernelIdeal.KRead

open Idealize.ShloMosaic Idealize.ShloMosaic.ValueIdx Cert.RowStats Cert.Lib.Keepdims

/-- Row `p` with sample coordinate `k` inserted is the index (p, k). -/
theorem lift_row {b : ℕ} (h : (⟨2, ![512, b]⟩ : Shape).Reduces [1] ⟨1, ![512]⟩) (p : Fin 512) (k : Fin b) :
    h.lift (ix1 p) k = ix2 p k := by
  funext a
  apply Fin.ext
  match a with
  | ⟨0, _⟩ => rfl
  | ⟨1, _⟩ => rfl

/-- A lane sum kept as a column, at row `p`: the sum of the row's entries. -/
theorem rowSum_apply {b : ℕ} (f : FVec Ideal ⟨2, ![512, b]⟩ .f32) (h : (⟨2, ![512, b]⟩ : Shape).Reduces [1] ⟨1, ![512]⟩)
    (hc : (⟨1, ![512]⟩ : Shape).ShapeCasts ⟨2, ![512, 1]⟩) (hφ) (hacc) (p : Fin 512) :
    shapeCast ⟨2, ![512, 1]⟩ (multiReduction .add [1] ⟨1, ![512]⟩ f 0x00000000#32 h hφ hacc) hc (ix2 p (0 : Fin 1))
      = ∑ k : Fin b, f (ix2 p k) := by
  rw [shapeCast_a_a1_apply, Ideal.multiReduction_add_single]
  exact Finset.sum_congr rfl fun k _ => congrArg f (lift_row h p k)

/-- A lane maximum kept as a column, at row `p`: the fold of `max` from the accumulator's value over the row. -/
theorem rowMax_apply {b : ℕ} (f : FVec Ideal ⟨2, ![512, b]⟩ .f32) (acc : BitVec 32) (h : (⟨2, ![512, b]⟩ : Shape).Reduces [1] ⟨1, ![512]⟩)
    (hc : (⟨1, ![512]⟩ : Shape).ShapeCasts ⟨2, ![512, 1]⟩) (hφ) (hacc) (p : Fin 512) :
    shapeCast ⟨2, ![512, 1]⟩ (multiReduction .maximumf [1] ⟨1, ![512]⟩ f acc h hφ hacc) hc (ix2 p (0 : Fin 1))
      = (Finset.univ : Finset (Fin b)).fold max (w32 acc) (fun k => f (ix2 p k)) := by
  rw [shapeCast_a_a1_apply, Ideal.multiReduction_maximumf_single]
  show Finset.fold max (w32 acc) (fun k => f (h.lift (ix1 p) k)) Finset.univ = _
  congr 1
  funext k
  exact congrArg f (lift_row h p k)

/-- The same for a lane minimum. -/
theorem rowMin_apply {b : ℕ} (f : FVec Ideal ⟨2, ![512, b]⟩ .f32) (acc : BitVec 32) (h : (⟨2, ![512, b]⟩ : Shape).Reduces [1] ⟨1, ![512]⟩)
    (hc : (⟨1, ![512]⟩ : Shape).ShapeCasts ⟨2, ![512, 1]⟩) (hφ) (hacc) (p : Fin 512) :
    shapeCast ⟨2, ![512, 1]⟩ (multiReduction .minimumf [1] ⟨1, ![512]⟩ f acc h hφ hacc) hc (ix2 p (0 : Fin 1))
      = (Finset.univ : Finset (Fin b)).fold min (w32 acc) (fun k => f (ix2 p k)) := by
  rw [shapeCast_a_a1_apply, multiReduction_minimumf_eq_fold, h.fold_filter_drop_single]
  show Finset.fold min (w32 acc) (fun k => f (h.lift (ix1 p) k)) Finset.univ = _
  congr 1
  funext k
  exact congrArg f (lift_row h p k)

end Cert.KernelIdeal.KRead

end
-- ==== Proof.KernelRead.lean ====
/-
  The kernel's block of statistics read at an index.

  A block of the kernel's output is 512 rows by 15 columns; its entry (p, j) is statistic j of row p of the
  512 × 2560 input block. Each statistic is a tree of pointwise operations over row reductions kept as 512 × 1
  columns: read at (p, 0), every lane reduction is a sum (or a fold of max / min) over the samples of row p, every
  slice a shift of the sample index, every pointwise operation itself.
-/
import proofs.«118352_j60224031425109_2_alg».proof.Proof.Gen.KernelIdeal.Value
import proofs.«118352_j60224031425109_2_alg».proof.Proof.KernelRows

noncomputable section

namespace Cert.KernelIdeal.KRead

open Cert.KernelIdeal Cert.KernelIdeal.Gen Idealize.ShloMosaic Idealize.ShloMosaic.ValueIdx Cert.RowStats Cert.Lib.Keepdims

variable (P0 : Vec Ideal S512x2560 .f32) (p : Fin 512)

/-- The row reductions of the three widths the body uses. -/
theorem sum2560 (f : FVec Ideal S512x2560 .f32) :
    shapeCast S512x1 (multiReduction (F := Ideal) .add (@List.cons (Fin 2) (1 : Fin S512x2560.rank) (@List.nil (Fin 2))) S512 f 0x00000000#32 reduces_S512x2560_S512 (.inl rfl) rfl) shapeCasts_S512_S512x1 (ix2 p (0 : Fin 1))
      = ∑ k : Fin 2560, f (ix2 p k) := rowSum_apply f _ _ _ _ p
theorem sum2559 (f : FVec Ideal S512x2559 .f32) :
    shapeCast S512x1 (multiReduction (F := Ideal) .add (@List.cons (Fin 2) (1 : Fin S512x2559.rank) (@List.nil (Fin 2))) S512 f 0x00000000#32 reduces_S512x2559_S512 (.inl rfl) rfl) shapeCasts_S512_S512x1 (ix2 p (0 : Fin 1))
      = ∑ k : Fin 2559, f (ix2 p k) := rowSum_apply f _ _ _ _ p
theorem sum2558 (f : FVec Ideal S512x2558 .f32) :
    shapeCast S512x1 (multiReduction (F := Ideal) .add (@List.cons (Fin 2) (1 : Fin S512x2558.rank) (@List.nil (Fin 2))) S512 f 0x00000000#32 reduces_S512x2558_S512 (.inl rfl) rfl) shapeCasts_S512_S512x1 (ix2 p (0 : Fin 1))
      = ∑ k : Fin 2558, f (ix2 p k) := rowSum_apply f _ _ _ _ p
theorem max2560 (f : FVec Ideal S512x2560 .f32) :
    shapeCast S512x1 (multiReduction (F := Ideal) .maximumf (@List.cons (Fin 2) (1 : Fin S512x2560.rank) (@List.nil (Fin 2))) S512 f 0xFF800000#32 reduces_S512x2560_S512 (.inl rfl) rfl) shapeCasts_S512_S512x1 (ix2 p (0 : Fin 1))
      = (Finset.univ : Finset (Fin 2560)).fold max cNegInf (fun k => f (ix2 p k)) := rowMax_apply f _ _ _ _ _ p
theorem min2560 (f : FVec Ideal S512x2560 .f32) :
    shapeCast S512x1 (multiReduction (F := Ideal) .minimumf (@List.cons (Fin 2) (1 : Fin S512x2560.rank) (@List.nil (Fin 2))) S512 f 0x7F800000#32 reduces_S512x2560_S512 (.inl rfl) rfl) shapeCasts_S512_S512x1 (ix2 p (0 : Fin 1))
      = (Finset.univ : Finset (Fin 2560)).fold min cPosInf (fun k => f (ix2 p k)) := rowMin_apply f _ _ _ _ _ p

/-- A 512 × 1 column broadcast along the 2560 samples, at (p, k): the column's entry of row p. -/
theorem bcast2560 (v : FVec Ideal S512x1 .f32) (k : Fin 2560) :
    broadcastTo S512x2560 v broadcasts_S512x1_S512x2560 (ix2 p k) = v (ix2 p (0 : Fin 1)) := broadcastTo_a1_ab_apply v _ p k

/-- The slices of a row: samples 1 … and samples … n−1 of a row of n + 1, and its last and first sample as columns. -/
theorem slice2559_up {α : Type} (v : S512x2560.Idx → α) (k : Fin 2559) :
    extractStridedSlice S512x2559 ![0, 1] v slices_S512x2560_o0_1_S512x2559 (ix2 p k) = v (ix2 p (up k)) :=
  extractStridedSlice_apply _ v _ _ _ (fun a => by
    match a with
    | ⟨0, _⟩ => show p.val = 0 + p.val; omega
    | ⟨1, _⟩ => show k.val + 1 = 1 + k.val; omega)
theorem slice2559_dn {α : Type} (v : S512x2560.Idx → α) (k : Fin 2559) :
    extractStridedSlice S512x2559 ![0, 0] v slices_S512x2560_o0_0_S512x2559 (ix2 p k) = v (ix2 p (dn k)) :=
  extractStridedSlice_apply _ v _ _ _ (fun a => by
    match a with
    | ⟨0, _⟩ => show p.val = 0 + p.val; omega
    | ⟨1, _⟩ => show k.val = 0 + k.val; omega)
theorem slice2560_last {α : Type} (v : S512x2560.Idx → α) :
    extractStridedSlice S512x1 ![0, 2559] v slices_S512x2560_o0_2559_S512x1 (ix2 p (0 : Fin 1)) = v (ix2 p (⟨2559, by omega⟩ : Fin 2560)) :=
  extractStridedSlice_apply _ v _ _ _ (fun a => by
    match a with
    | ⟨0, _⟩ => show p.val = 0 + p.val; omega
    | ⟨1, _⟩ => show 2559 = 2559 + 0; omega)
theorem slice2560_first {α : Type} (v : S512x2560.Idx → α) :
    extractStridedSlice S512x1 ![0, 0] v slices_S512x2560_o0_0_S512x1 (ix2 p (0 : Fin 1)) = v (ix2 p (⟨0, by omega⟩ : Fin 2560)) :=
  extractStridedSlice_apply _ v _ _ _ (fun a => by
    match a with
    | ⟨0, _⟩ => show p.val = 0 + p.val; omega
    | ⟨1, _⟩ => show 0 = 0 + 0; omega)
theorem slice2558_up {α : Type} (v : S512x2559.Idx → α) (k : Fin 2558) :
    extractStridedSlice S512x2558 ![0, 1] v slices_S512x2559_o0_1_S512x2558 (ix2 p k) = v (ix2 p (up k)) :=
  extractStridedSlice_apply _ v _ _ _ (fun a => by
    match a with
    | ⟨0, _⟩ => show p.val = 0 + p.val; omega
    | ⟨1, _⟩ => show k.val + 1 = 1 + k.val; omega)
theorem slice2558_dn {α : Type} (v : S512x2559.Idx → α) (k : Fin 2558) :
    extractStridedSlice S512x2558 ![0, 0] v slices_S512x2559_o0_0_S512x2558 (ix2 p k) = v (ix2 p (dn k)) :=
  extractStridedSlice_apply _ v _ _ _ (fun a => by
    match a with
    | ⟨0, _⟩ => show p.val = 0 + p.val; omega
    | ⟨1, _⟩ => show k.val = 0 + k.val; omega)
theorem slice2559_last {α : Type} (v : S512x2559.Idx → α) :
    extractStridedSlice S512x1 ![0, 2558] v slices_S512x2559_o0_2558_S512x1 (ix2 p (0 : Fin 1)) = v (ix2 p (⟨2558, by omega⟩ : Fin 2559)) :=
  extractStridedSlice_apply _ v _ _ _ (fun a => by
    match a with
    | ⟨0, _⟩ => show p.val = 0 + p.val; omega
    | ⟨1, _⟩ => show 2558 = 2558 + 0; omega)
theorem slice2559_first {α : Type} (v : S512x2559.Idx → α) :
    extractStridedSlice S512x1 ![0, 0] v slices_S512x2559_o0_0_S512x1 (ix2 p (0 : Fin 1)) = v (ix2 p (⟨0, by omega⟩ : Fin 2559)) :=
  extractStridedSlice_apply _ v _ _ _ (fun a => by
    match a with
    | ⟨0, _⟩ => show p.val = 0 + p.val; omega
    | ⟨1, _⟩ => show 0 = 0 + 0; omega)

/-- Folding with two names of one operation gives one value. -/
theorem fold_op_congr {α β : Type*} (op₁ op₂ : β → β → β) [Std.Commutative op₁] [Std.Associative op₁]
    [Std.Commutative op₂] [Std.Associative op₂] (h : op₁ = op₂) (b : β) (g : α → β) (s : Finset α) :
    s.fold op₁ b g = s.fold op₂ b g := by
  subst h; rfl

/-- The row maximum and minimum folds, and the absolute value, in the row statistics' own names. -/
theorem kmx (g : Fin 2560 → EReal) : (Finset.univ : Finset (Fin 2560)).fold max cNegInf g = K.mx g := by
  unfold K.mx
  exact fold_op_congr _ _ (funext fun u => funext fun v => rfl) _ _ _
theorem kmn (g : Fin 2560 → EReal) : (Finset.univ : Finset (Fin 2560)).fold min cPosInf g = K.mn g := by
  unfold K.mn
  exact fold_op_congr _ _ (funext fun u => funext fun v => rfl) _ _ _
theorem absf_eabs (a : EReal) : FloatOps.absf (F := Ideal) (φ := .f32) a = eabs a := rfl

/-- The row maximum and minimum of a block, named. -/
theorem max2560' (f : FVec Ideal S512x2560 .f32) :
    shapeCast S512x1 (multiReduction (F := Ideal) .maximumf (@List.cons (Fin 2) (1 : Fin S512x2560.rank) (@List.nil (Fin 2))) S512 f 0xFF800000#32 reduces_S512x2560_S512 (.inl rfl) rfl) shapeCasts_S512_S512x1 (ix2 p (0 : Fin 1))
      = K.mx (fun k => f (ix2 p k)) := (max2560 p f).trans (kmx _)
theorem min2560' (f : FVec Ideal S512x2560 .f32) :
    shapeCast S512x1 (multiReduction (F := Ideal) .minimumf (@List.cons (Fin 2) (1 : Fin S512x2560.rank) (@List.nil (Fin 2))) S512 f 0x7F800000#32 reduces_S512x2560_S512 (.inl rfl) rfl) shapeCasts_S512_S512x1 (ix2 p (0 : Fin 1))
      = K.mn (fun k => f (ix2 p k)) := (min2560 p f).trans (kmn _)

/-- Two pointwise shapes read at an index, for any operands. -/
theorem sub_read (A B : FVec Ideal S512x1 .f32) (i : S512x1.Idx) : subf A B i = A i - B i := rfl
theorem divmul_read (A B C : FVec Ideal S512x1 .f32) (i : S512x1.Idx) : divf (mulf A B) C i = Ideal.div (A i * B i) (C i) := rfl

/-- Reads a column's tree at (p, 0): the pointwise operations unfold, each row reduction becomes its sum or fold. -/
macro "read_col" : tactic =>
  `(tactic| (simp only [divf, subf, mulf, addf, sqrt, absf, broadcast, cmpf, ori, extui, sitofp, select, constant, sum2560, sum2559, sum2558, max2560', min2560', bcast2560, slice2559_up, slice2559_dn, slice2560_last, slice2560_first, slice2558_up, slice2558_dn, slice2559_last, slice2559_first, shapeCast_self, k0_pay27, absf_eabs]))

theorem col0 : (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))) (ix2 p (0 : Fin 1)) = K.mean (fun k => P0 (ix2 p k)) := by
  read_col; rfl

theorem col1 : (shapeCast S512x1 (multiReduction (F := Ideal) .maximumf [1] S512 (shapeCast S512x2560 P0 shapeCasts_S512x2560_S512x2560) 0xFF800000#32 reduces_S512x2560_S512 (.inl rfl) rfl) shapeCasts_S512_S512x1) (ix2 p (0 : Fin 1)) = K.mx (fun k => P0 (ix2 p k)) := by
  rw [shapeCast_self]
  exact max2560' p P0

theorem col2 : (shapeCast S512x1 (multiReduction (F := Ideal) .minimumf [1] S512 (shapeCast S512x2560 P0 shapeCasts_S512x2560_S512x2560) 0x7F800000#32 reduces_S512x2560_S512 (.inl rfl) rfl) shapeCasts_S512_S512x1) (ix2 p (0 : Fin 1)) = K.mn (fun k => P0 (ix2 p k)) := by
  rw [shapeCast_self]
  exact min2560' p P0

theorem col3 : (subf (shapeCast S512x1 (multiReduction (F := Ideal) .maximumf [1] S512 (shapeCast S512x2560 P0 shapeCasts_S512x2560_S512x2560) 0xFF800000#32 reduces_S512x2560_S512 (.inl rfl) rfl) shapeCasts_S512_S512x1) (shapeCast S512x1 (multiReduction (F := Ideal) .minimumf [1] S512 (shapeCast S512x2560 P0 shapeCasts_S512x2560_S512x2560) 0x7F800000#32 reduces_S512x2560_S512 (.inl rfl) rfl) shapeCasts_S512_S512x1)) (ix2 p (0 : Fin 1)) = K.p2p (fun k => P0 (ix2 p k)) := by
  refine (sub_read _ _ _).trans ?_
  rw [shapeCast_self, max2560', min2560']
  rfl

theorem col4 : (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32))) (ix2 p (0 : Fin 1)) = K.var (fun k => P0 (ix2 p k)) := by
  read_col; rfl

theorem col5 : (sqrt (divf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (broadcast S512x1 (Scalar.ofBits (F := Ideal) .f32 0x45200000#32)))) (ix2 p (0 : Fin 1)) = K.rms (fun k => P0 (ix2 p k)) := by
  read_col; rfl

theorem col6 : (divf (divf (addf (subf (shapeCast S512x1 (multiReduction (F := Ideal) .add [1] S512 (mulf (mulf (shapeCast S512x2560 P0 shapeCasts_S512x2560_S512x2560) (shapeCast S512x2560 P0 shapeCasts_S512x2560_S512x2560)) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x40400000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1))) (mulf (broadcast S512x1 (Scalar.ofBits (F := Ideal) .f32 0x45A00000#32)) (mulf (mulf (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))))) (broadcast S512x1 (Scalar.ofBits (F := Ideal) .f32 0x45200000#32))) (mulf (mulf (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32)))) (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32))))) (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32)))))) (ix2 p (0 : Fin 1)) = K.skew (fun k => P0 (ix2 p k)) := by
  read_col; rfl

theorem col7 : (divf (divf (subf (addf (subf (shapeCast S512x1 (multiReduction (F := Ideal) .add [1] S512 (mulf (mulf (shapeCast S512x2560 P0 shapeCasts_S512x2560_S512x2560) (shapeCast S512x2560 P0 shapeCasts_S512x2560_S512x2560)) (mulf (shapeCast S512x2560 P0 shapeCasts_S512x2560_S512x2560) (shapeCast S512x2560 P0 shapeCasts_S512x2560_S512x2560))) 0x00000000#32 reduces_S512x2560_S512 (.inl rfl) rfl) shapeCasts_S512_S512x1) (mulf (mulf (broadcast S512x1 (Scalar.ofBits (F := Ideal) .f32 0x40800000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (shapeCast S512x1 (multiReduction (F := Ideal) .add [1] S512 (mulf (mulf (shapeCast S512x2560 P0 shapeCasts_S512x2560_S512x2560) (shapeCast S512x2560 P0 shapeCasts_S512x2560_S512x2560)) (shapeCast S512x2560 P0 shapeCasts_S512x2560_S512x2560)) 0x00000000#32 reduces_S512x2560_S512 (.inl rfl) rfl) shapeCasts_S512_S512x1))) (mulf (mulf (broadcast S512x1 (Scalar.ofBits (F := Ideal) .f32 0x40C00000#32)) (mulf (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1))) (mulf (broadcast S512x1 (Scalar.ofBits (F := Ideal) .f32 0x45F00000#32)) (mulf (mulf (mulf (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))))) (broadcast S512x1 (Scalar.ofBits (F := Ideal) .f32 0x45200000#32))) (mulf (mulf (mulf (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32)))) (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32))))) (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32))))) (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32)))))) (ix2 p (0 : Fin 1)) = K.kurt (fun k => P0 (ix2 p k)) := by
  read_col; rfl

theorem col8 : (divf (mulf (sqrt (divf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (broadcast S512x1 (Scalar.ofBits (F := Ideal) .f32 0x45200000#32)))) (broadcast S512x1 (Scalar.ofBits (F := Ideal) .f32 0x45200000#32))) (shapeCast S512x1 (multiReduction (F := Ideal) .add [1] S512 (absf (shapeCast S512x2560 P0 shapeCasts_S512x2560_S512x2560)) 0x00000000#32 reduces_S512x2560_S512 (.inl rfl) rfl) shapeCasts_S512_S512x1)) (ix2 p (0 : Fin 1)) = K.shape (fun k => P0 (ix2 p k)) := by
  read_col; rfl

theorem col9 : (divf (mulf (shapeCast S512x1 (multiReduction (F := Ideal) .maximumf [1] S512 (absf (shapeCast S512x2560 P0 shapeCasts_S512x2560_S512x2560)) 0xFF800000#32 reduces_S512x2560_S512 (.inl rfl) rfl) shapeCasts_S512_S512x1) (broadcast S512x1 (Scalar.ofBits (F := Ideal) .f32 0x45200000#32))) (shapeCast S512x1 (multiReduction (F := Ideal) .add [1] S512 (absf (shapeCast S512x2560 P0 shapeCasts_S512x2560_S512x2560)) 0x00000000#32 reduces_S512x2560_S512 (.inl rfl) rfl) shapeCasts_S512_S512x1)) (ix2 p (0 : Fin 1)) = K.impulse (fun k => P0 (ix2 p k)) := by
  refine (divmul_read _ _ _ _).trans ?_
  rw [shapeCast_self, max2560', sum2560]
  simp only [absf, broadcast, absf_eabs]
  rfl

theorem col10 : (shapeCast S512x1 (multiReduction (F := Ideal) .add [1] S512 (sitofp (F := Ideal) .f32 (extui 32 (ori (cmpf .ogt (shapeCast S512x2560 P0 shapeCasts_S512x2560_S512x2560) (broadcastTo S512x2560 (addf (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))) (mulf (broadcast S512x1 (Scalar.ofBits (F := Ideal) .f32 0x40400000#32)) (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32)))))) broadcasts_S512x1_S512x2560)) (cmpf .olt (shapeCast S512x2560 P0 shapeCasts_S512x2560_S512x2560) (broadcastTo S512x2560 (subf (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))) (mulf (broadcast S512x1 (Scalar.ofBits (F := Ideal) .f32 0x40400000#32)) (sqrt (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32)))))) broadcasts_S512x1_S512x2560))) natLt_1_32)) 0x00000000#32 reduces_S512x2560_S512 (.inl rfl) rfl) shapeCasts_S512_S512x1) (ix2 p (0 : Fin 1)) = K.outliers (fun k => P0 (ix2 p k)) := by
  read_col; rfl

theorem col11 : (divf (shapeCast S512x1 (multiReduction (F := Ideal) .add [1] S512 (sitofp (F := Ideal) .f32 (extui 32 (cmpf .one (extractStridedSlice S512x2559 ![0, 1] (select (cmpf .ogt (absf (shapeCast S512x2560 P0 shapeCasts_S512x2560_S512x2560)) (broadcast S512x2560 (Scalar.ofBits (F := Ideal) .f32 0x00000000#32))) (select (cmpf .olt (shapeCast S512x2560 P0 shapeCasts_S512x2560_S512x2560) (broadcast S512x2560 (Scalar.ofBits (F := Ideal) .f32 0x00000000#32))) (broadcast S512x2560 (Scalar.ofBits (F := Ideal) .f32 0xBF800000#32)) (broadcast S512x2560 (Scalar.ofBits (F := Ideal) .f32 0x3F800000#32))) (shapeCast S512x2560 P0 shapeCasts_S512x2560_S512x2560)) slices_S512x2560_o0_1_S512x2559) (extractStridedSlice S512x2559 ![0, 0] (select (cmpf .ogt (absf (shapeCast S512x2560 P0 shapeCasts_S512x2560_S512x2560)) (broadcast S512x2560 (Scalar.ofBits (F := Ideal) .f32 0x00000000#32))) (select (cmpf .olt (shapeCast S512x2560 P0 shapeCasts_S512x2560_S512x2560) (broadcast S512x2560 (Scalar.ofBits (F := Ideal) .f32 0x00000000#32))) (broadcast S512x2560 (Scalar.ofBits (F := Ideal) .f32 0xBF800000#32)) (broadcast S512x2560 (Scalar.ofBits (F := Ideal) .f32 0x3F800000#32))) (shapeCast S512x2560 P0 shapeCasts_S512x2560_S512x2560)) slices_S512x2560_o0_0_S512x2559)) natLt_1_32)) 0x00000000#32 reduces_S512x2559_S512 (.inl rfl) rfl) shapeCasts_S512_S512x1) (broadcast S512x1 (Scalar.ofBits (F := Ideal) .f32 0x45A00000#32))) (ix2 p (0 : Fin 1)) = K.zcr (fun k => P0 (ix2 p k)) := by
  read_col; rfl

theorem col12 : (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32))) (ix2 p (0 : Fin 1)) = K.var (fun k => P0 (ix2 p k)) := by
  read_col; rfl

theorem col13 : (sqrt (divf (divf (subf (shapeCast S512x1 (multiReduction (F := Ideal) .add [1] S512 (mulf (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559))) 0x00000000#32 reduces_S512x2559_S512 (.inl rfl) rfl) shapeCasts_S512_S512x1) (mulf (mulf (broadcast S512x1 (Scalar.ofBits (F := Ideal) .f32 0x451FF000#32)) (divf (subf (extractStridedSlice S512x1 ![0, 2559] (shapeCast S512x2560 P0 shapeCasts_S512x2560_S512x2560) slices_S512x2560_o0_2559_S512x1) (extractStridedSlice S512x1 ![0, 0] (shapeCast S512x2560 P0 shapeCasts_S512x2560_S512x2560) slices_S512x2560_o0_0_S512x1)) (broadcast S512x1 (Scalar.ofBits (F := Ideal) .f32 0x451FF000#32)))) (divf (subf (extractStridedSlice S512x1 ![0, 2559] (shapeCast S512x2560 P0 shapeCasts_S512x2560_S512x2560) slices_S512x2560_o0_2559_S512x1) (extractStridedSlice S512x1 ![0, 0] (shapeCast S512x2560 P0 shapeCasts_S512x2560_S512x2560) slices_S512x2560_o0_0_S512x1)) (broadcast S512x1 (Scalar.ofBits (F := Ideal) .f32 0x451FF000#32))))) (broadcast S512x1 (Scalar.ofBits (F := Ideal) .f32 0x451FE000#32))) (divf (subf (shapeCast S512x1 (multiReduction (F := Ideal) .add [1] S512 (mulf (shapeCast S512x2560 P0 shapeCasts_S512x2560_S512x2560) (shapeCast S512x2560 P0 shapeCasts_S512x2560_S512x2560)) 0x00000000#32 reduces_S512x2560_S512 (.inl rfl) rfl) shapeCasts_S512_S512x1) (mulf (mulf (broadcast S512x1 (Scalar.ofBits (F := Ideal) .f32 0x45200000#32)) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32)))) (divf (shapeCast S512x1 (multiReduction (F := Ideal) .add [1] S512 (shapeCast S512x2560 P0 shapeCasts_S512x2560_S512x2560) 0x00000000#32 reduces_S512x2560_S512 (.inl rfl) rfl) shapeCasts_S512_S512x1) (broadcast S512x1 (Scalar.ofBits (F := Ideal) .f32 0x45200000#32))))) (broadcast S512x1 (Scalar.ofBits (F := Ideal) .f32 0x451FF000#32))))) (ix2 p (0 : Fin 1)) = K.mobility (fun k => P0 (ix2 p k)) := by
  read_col; rfl

theorem col14 : (sqrt (divf (divf (subf (shapeCast S512x1 (multiReduction (F := Ideal) .add [1] S512 (mulf (subf (extractStridedSlice S512x2558 ![0, 1] (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) slices_S512x2559_o0_1_S512x2558) (extractStridedSlice S512x2558 ![0, 0] (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) slices_S512x2559_o0_0_S512x2558)) (subf (extractStridedSlice S512x2558 ![0, 1] (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) slices_S512x2559_o0_1_S512x2558) (extractStridedSlice S512x2558 ![0, 0] (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) slices_S512x2559_o0_0_S512x2558))) 0x00000000#32 reduces_S512x2558_S512 (.inl rfl) rfl) shapeCasts_S512_S512x1) (mulf (mulf (broadcast S512x1 (Scalar.ofBits (F := Ideal) .f32 0x451FE000#32)) (divf (subf (extractStridedSlice S512x1 ![0, 2558] (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) slices_S512x2559_o0_2558_S512x1) (extractStridedSlice S512x1 ![0, 0] (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) slices_S512x2559_o0_0_S512x1)) (broadcast S512x1 (Scalar.ofBits (F := Ideal) .f32 0x451FE000#32)))) (divf (subf (extractStridedSlice S512x1 ![0, 2558] (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) slices_S512x2559_o0_2558_S512x1) (extractStridedSlice S512x1 ![0, 0] (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) slices_S512x2559_o0_0_S512x1)) (broadcast S512x1 (Scalar.ofBits (F := Ideal) .f32 0x451FE000#32))))) (k0_pay27 (F := Ideal))) (divf (subf (shapeCast S512x1 (multiReduction (F := Ideal) .add [1] S512 (mulf (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559)) (subf (extractStridedSlice S512x2559 ![0, 1] (shapeCast S512x2560 P0 shapeCasts_S512x2560_S512x2560) slices_S512x2560_o0_1_S512x2559) (extractStridedSlice S512x2559 ![0, 0] (shapeCast S512x2560 P0 shapeCasts_S512x2560_S512x2560) slices_S512x2560_o0_0_S512x2559))) 0x00000000#32 reduces_S512x2559_S512 (.inl rfl) rfl) shapeCasts_S512_S512x1) (mulf (mulf (broadcast S512x1 (Scalar.ofBits (F := Ideal) .f32 0x451FF000#32)) (divf (subf (extractStridedSlice S512x1 ![0, 2559] (shapeCast S512x2560 P0 shapeCasts_S512x2560_S512x2560) slices_S512x2560_o0_2559_S512x1) (extractStridedSlice S512x1 ![0, 0] (shapeCast S512x2560 P0 shapeCasts_S512x2560_S512x2560) slices_S512x2560_o0_0_S512x1)) (broadcast S512x1 (Scalar.ofBits (F := Ideal) .f32 0x451FF000#32)))) (divf (subf (extractStridedSlice S512x1 ![0, 2559] (shapeCast S512x2560 P0 shapeCasts_S512x2560_S512x2560) slices_S512x2560_o0_2559_S512x1) (extractStridedSlice S512x1 ![0, 0] (shapeCast S512x2560 P0 shapeCasts_S512x2560_S512x2560) slices_S512x2560_o0_0_S512x1)) (broadcast S512x1 (Scalar.ofBits (F := Ideal) .f32 0x451FF000#32))))) (broadcast S512x1 (Scalar.ofBits (F := Ideal) .f32 0x451FE000#32))))) (ix2 p (0 : Fin 1)) = K.complexity (fun k => P0 (ix2 p k)) := by
  read_col; rfl

/-- Entry (p, q) of the block the body leaves: statistic q of row p of the input block. -/
theorem E1_apply (q : Fin 15) : Value.E1 P0 (ix2 p q) = K.col (fun k => P0 (ix2 p k)) q := by
  match q with
  | ⟨0, _⟩ => exact col0 P0 p
  | ⟨1, _⟩ => exact col1 P0 p
  | ⟨2, _⟩ => exact col2 P0 p
  | ⟨3, _⟩ => exact col3 P0 p
  | ⟨4, _⟩ => exact col4 P0 p
  | ⟨5, _⟩ => exact col5 P0 p
  | ⟨6, _⟩ => exact col6 P0 p
  | ⟨7, _⟩ => exact col7 P0 p
  | ⟨8, _⟩ => exact col8 P0 p
  | ⟨9, _⟩ => exact col9 P0 p
  | ⟨10, _⟩ => exact col10 P0 p
  | ⟨11, _⟩ => exact col11 P0 p
  | ⟨12, _⟩ => exact col12 P0 p
  | ⟨13, _⟩ => exact col13 P0 p
  | ⟨14, _⟩ => exact col14 P0 p

end Cert.KernelIdeal.KRead

end
-- ==== Proof.KernelArray.lean ====
/-
  The kernel's output array as one function of its argument.

  The kernel walks 32 blocks of 512 rows; each grid point writes back a 512 × 15 block whose entry (p, q) is
  statistic q of row p of the input block. The blocks tile the 16384 × 15 array, the input blocks are the
  rows of the 16384 × 2560 array with the same numbers, and that array is the 16384 × 2560 × 1 argument
  read with its last unit axis dropped. So after the run the output array holds, at (r, q), statistic q of row r
  of the argument.
-/
import proofs.«118352_j60224031425109_2_alg».proof.Proof.Gen.KernelIdeal.Value
import proofs.«118352_j60224031425109_2_alg».proof.Proof.RowStats
import proofs.«118352_j60224031425109_2_alg».proof.Proof.KernelRead
import Idealize.ShloMosaic.Lib.Pipeline.Value
import Idealize.ShloMosaic.Lib.StableHlo.Run
import Idealize.ShloMosaic.Lib.ValueIdx

noncomputable section

namespace Cert.KernelIdeal.KVal

open Cert.KernelIdeal Cert.KernelIdeal.Gen Idealize.ShloMosaic Idealize.ShloMosaic.TcCoe Idealize.SL.Sem
open Idealize.ShloMosaic.ValueIdx Cert.RowStats
open Idealize.ShloMosaic.Pipeline (Dat)

variable (m : (ℓ : Loc nD τ sig) → Buf (Elt Ideal) ℓ) (ρ : Dev nD → PrngReg)

/-- The output array as a function of the 16384 × 2560 array: entry (r, q) is statistic q of row r. -/
def G (X : S16384x2560.Idx → EReal) : S16384x15.Idx → EReal :=
  fun i => K.col (fun k => X (ix2 (⟨(i 0).val, idx2_lt0 i⟩ : Fin 16384) k)) ⟨(i 1).val, idx2_lt1 i⟩

theorem hz : (![0, 0] : Fin 2 → Nat) = fun _ => 0 := funext fun a => by fin_cases a <;> rfl

/-- The block the body leaves, read at an index: the statistic of that column of that row of the input block. -/
theorem out_row (x0 : Vec Ideal S512x2560 .f32) (y : S512x15.Idx) :
    out0_1 x0 y = K.col (fun k => x0 (ix2 (⟨(y 0).val, idx2_lt0 y⟩ : Fin 512) k)) ⟨(y 1).val, idx2_lt1 y⟩ := by
  unfold out0_1
  refine (Value.canon1_eq (View.ld x0 r0_0) y).trans ?_
  rw [View.ld_unit_zero (S := S512x2560) hz]
  obtain ⟨p, q, rfl⟩ : ∃ p q, y = ix2 p q := ⟨y 0, y 1, eq_ix2 y⟩
  exact KRead.E1_apply x0 p q

/-- The printed index maps, decided over the grid: point `t` takes block `t` of the rows and block 0 of the
    columns, of the input and of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Two rows with the same samples have the same statistics. -/
theorem row_congr (A : S512x2560.Idx → EReal) (B : S16384x2560.Idx → EReal) (r : Fin 512) (R : Fin 16384)
    (q q' : Fin 15) (hq : q = q') (h : ∀ k : Fin 2560, A (ix2 r k) = B (ix2 R k)) :
    K.col (fun k => A (ix2 r k)) q = K.col (fun k => B (ix2 R k)) q' := by
  subst hq
  exact congrArg (fun f => K.col f q) (funext h)

/-- What point `t` writes back is block `t` of `G` of the 16384 × 2560 array as the region finds it. -/
theorem flushed_eq (c : Dev nD) (t : Fin cfg0.N) :
    (dats m 0 c).flushed 1 t = ((cfg0.win 1).blk t).view.read (Elt Ideal) (G (V m c main_v0)) := by
  rw [Value.flushed1]
  obtain ⟨e0, e1, e2, e3⟩ := idx_facts t
  funext j
  show out0_1 (iblk m c 0 t) j = G (V m c main_v0) (((cfg0.win 1).blk t).view.emb j)
  refine (out_row _ _).trans ?_
  refine row_congr _ _ _ _ _ _ (Fin.ext ?_) (fun k => ?_)
  · show (j 1).val = win0_1.index t (1 : Fin 2) * 15 + 1 * (j 1).val
    omega
  · show V m c main_v0 (((cfg0.win 0).blk t).view.emb (ix2 (⟨(j 0).val, idx2_lt0 j⟩ : Fin 512) k)) = _
    refine congrArg (V m c main_v0) (funext fun a => Fin.ext ?_)
    match a with
    | ⟨0, _⟩ =>
      show win0_0.index t (0 : Fin 2) * 512 + 1 * (j 0).val = win0_1.index t (0 : Fin 2) * 512 + 1 * (j 0).val
      omega
    | ⟨1, _⟩ =>
      show win0_0.index t (1 : Fin 2) * 2560 + 1 * k.val = k.val
      omega

/-- An index of the array is in point `t`'s block iff each coordinate is in the block's range on its axis. -/
theorem mem_blk (t : Fin cfg0.N) (i : S16384x15.Idx) :
    i ∈ ((cfg0.win 1).blk t).view.set ↔ ∀ a : Fin 2, win0_1.index t a * S512x15.size a ≤ (i a).val
      ∧ (i a).val < win0_1.index t a * S512x15.size a + S512x15.size a := by
  show i ∈ ((View.whole main_v1).slice (win0_1.rect t)).set ↔ _
  rw [View.set_slice_whole, Rect.mem_set_unit]
  exact Iff.rfl

/-- The blocks tile the array: row `r` is in the block of point `r / 512`. -/
theorem cover (i : S16384x15.Idx) :
    ∃ t : Fin cfg0.N, (cfg0.win 1).flush t = true ∧ i ∈ ((cfg0.win 1).blk t).view.set := by
  have hi0 : (i 0).val < 16384 := (i 0).isLt
  have hi1 : (i 1).val < 15 := (i 1).isLt
  obtain ⟨t, ht⟩ : ∃ t : Fin cfg0.N, t.val = (i 0).val / 512 :=
    ⟨⟨(i 0).val / 512, by rw [show cfg0.N = 32 from N_0]; omega⟩, rfl⟩
  obtain ⟨-, -, e2, e3⟩ := idx_facts t
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 15 ≤ (i 1).val ∧ (i 1).val < win0_1.index t (1 : Fin 2) * 15 + 15
    omega

/-- The output array after the run is `G` of the 16384 × 2560 array as the region finds it. -/
theorem final (c : Dev nD) : (dats m 0 c).arrAt 1 cfg0.N = G (V m c main_v0) :=
  (dats m 0 c).arrAt_eq_of_cover 1 _ (fun t _ => flushed_eq m c t) cover

/-- The 16384 × 2560 array the region finds is the argument with its unit axis dropped. -/
theorem V_v0 (c : Dev nD) :
    (V m c main_v0 : S16384x2560.Idx → EReal)
      = shapeCast S16384x2560 (m ((c : Thread nD τ).loc main_arg0)) shapeCasts_S16384x2560x1_S16384x2560 := by
  dsimp only [Gen.V, Gen.hostOps0]
  after_results
  rfl

/-- Dropping the unit axis keeps entry (r, k) at (r, k, 0). -/
theorem reshape_apply (a : S16384x2560x1.Idx → EReal) (r : Fin 16384) (k : Fin 2560) :
    shapeCast S16384x2560 a shapeCasts_S16384x2560x1_S16384x2560 (ix2 r k) = a (ix3 r k (0 : Fin 1)) := by
  refine shapeCast_apply a _ (ix2 r k) (ix3 r k (0 : Fin 1)) ?_
  rw [Shape.rowMajor_val_three, Shape.rowMajor_val_two]
  show (r.val * 2560 + k.val) * 1 + 0 = r.val * 2560 + k.val
  omega

/-- The run, read: the output array at `G` of the argument with its unit axis dropped, the argument unchanged. -/
theorem run : θ_run defs (onTc (τ := τ) (main (F := Ideal))) ⟨m, fun _ => 0, ρ⟩ fun r => ∀ c : Dev nD,
      r.2.mem ((c : Thread nD τ).loc main_v1)
        = G (shapeCast S16384x2560 (m ((c : Thread nD τ).loc main_arg0)) shapeCasts_S16384x2560x1_S16384x2560)
      ∧ r.2.mem ((c : Thread nD τ).loc main_arg0) = m ((c : Thread nD τ).loc main_arg0) :=
  (θ_run defs _ _).mono
    (fun r h c => ⟨(h c).1.trans ((final m c).trans (congrArg G (V_v0 m c))), (h c).2⟩)
    (Value.run_blocks m ρ)

end Cert.KernelIdeal.KVal

end
-- ==== Proof.RefOps.lean ====
/- The reference program's @main as the list of its 174 host operations, the calls of its module-local
   functions unfolded at their call sites (each call's operations over that call's own buffers), cut into eight
   consecutive segments; @main is the sequence of that list, every operation touches TensorCore buffers only,
   and every weakly fair run ends with each buffer at the fold of the operations over the launch contents. -/
import proofs.«118352_j60224031425109_2_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 19 of 174, in order. -/
abbrev seg0 : List (HloOp τ sig (Elt F)) :=
  [ reshape main_arg0 main_v0 rfl shapeCasts_S16384x2560x1_S16384x2560,
    nullary main_cst (constant S_ .f32 0x00000000#32),
    binary main_v0 main_cst main_v1 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    nullary main_cst_0 (constant S_ .f32 0x45200000#32),
    unary main_cst_0 main_v2 (broadcastInDim S16384 ![] bcast_S_S16384 : (⟨S_, .f32⟩ : BufTy).Contents (Elt F) → (⟨S16384, .f32⟩ : BufTy).Contents (Elt F)),
    binary main_v1 main_v2 main_v3 (Host.divf : (⟨S16384, .f32⟩ : BufTy).Contents (Elt F) → (⟨S16384, .f32⟩ : BufTy).Contents (Elt F) → (⟨S16384, .f32⟩ : BufTy).Contents (Elt F)),
    nullary main_cst_1 (constant S_ .f32 0xFF800000#32),
    binary main_v0 main_cst_1 main_v4 ((fun x v => Host.reduce FloatOps.maximumf x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    nullary main_cst_2 (constant S_ .f32 0x7F800000#32),
    binary main_v0 main_cst_2 main_v5 ((fun x v => Host.reduce FloatOps.minimumf x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    binary main_v4 main_v5 main_v6 (subf : (⟨S16384, .f32⟩ : BufTy).Contents (Elt F) → (⟨S16384, .f32⟩ : BufTy).Contents (Elt F) → (⟨S16384, .f32⟩ : BufTy).Contents (Elt F)),
    binary main_v0 main_v0 main_v7 (mulf : (⟨S16384x2560, .f32⟩ : BufTy).Contents (Elt F) → (⟨S16384x2560, .f32⟩ : BufTy).Contents (Elt F) → (⟨S16384x2560, .f32⟩ : BufTy).Contents (Elt F)),
    nullary main_cst_3 (constant S_ .f32 0x00000000#32),
    binary main_v7 main_cst_3 main_v8 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    nullary main_cst_4 (constant S_ .f32 0x45200000#32),
    unary main_cst_4 main_v9 (broadcastInDim S16384 ![] bcast_S_S16384 : (⟨S_, .f32⟩ : BufTy).Contents (Elt F) → (⟨S16384, .f32⟩ : BufTy).Contents (Elt F)),
    binary main_v8 main_v9 main_v10 (Host.divf : (⟨S16384, .f32⟩ : BufTy).Contents (Elt F) → (⟨S16384, .f32⟩ : BufTy).Contents (Elt F) → (⟨S16384, .f32⟩ : BufTy).Contents (Elt F)),
    unary main_v10 main_v11 (Host.sqrt : (⟨S16384, .f32⟩ : BufTy).Contents (Elt F) → (⟨S16384, .f32⟩ : BufTy).Contents (Elt F)),
    nullary main_c (constantI S_ 32 1#32) ]

/-- Operations 20 … 41 of 174, in order. -/
abbrev seg1 : List (HloOp τ sig (Elt F)) :=
  [ TRef.nullary main_call0.cst (constant S_ .f32 0x00000000#32),
    TRef.binary (.of main_v0 : TRef sig ⟨S16384x2560, .f32⟩) main_call0.cst main_call0.v0 (fun x v => Host.reduceAdd x v reducesTo_S16384x2560_S16384_d1 h_S_),
    TRef.unary main_call0.v0 main_call0.v1 (broadcastInDim S16384x1 ![0] bcast_S16384_S16384x1_0),
    TRef.nullary main_call0.cst_0 (constant S_ .f32 0x45200000#32),
    TRef.unary main_call0.cst_0 main_call0.v2 (broadcastInDim S16384x1 ![] bcast_S_S16384x1),
    TRef.binary main_call0.v1 main_call0.v2 main_call0.v3 Host.divf,
    TRef.unary main_call0.v3 main_call0.v4 (broadcastInDim S16384x2560 ![0, 1] bcast_S16384x1_S16384x2560_0_1),
    TRef.binary (.of main_v0 : TRef sig ⟨S16384x2560, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x45200000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x2560_S16384_d1 h_S_),
    TRef.unary main_call0.v8 main_call0.v10 (broadcastInDim S16384 ![] bcast_S_S16384),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S16384 ![] bcast_S_S16384),
    TRef.ternary main_call0.v12 main_call0.v11 main_call0.call0.v1 main_call0.call0.v2 (fun p a b => select (broadcastInDim S16384 ![] bcast_S_S16384 p) a b) ]

/-- Operations 42 … 81 of 174, in order. -/
abbrev seg2 : List (HloOp τ sig (Elt F)) :=
  [ unary main_v12 main_v13 (Host.sqrt : (⟨S16384, .f32⟩ : BufTy).Contents (Elt F) → (⟨S16384, .f32⟩ : BufTy).Contents (Elt F)),
    unary main_v3 main_v14 (broadcastInDim S16384x1 ![0] bcast_S16384_S16384x1_0 : (⟨S16384, .f32⟩ : BufTy).Contents (Elt F) → (⟨S16384x1, .f32⟩ : BufTy).Contents (Elt F)),
    unary main_v14 main_v15 (broadcastInDim S16384x2560 ![0, 1] bcast_S16384x1_S16384x2560_0_1 : (⟨S16384x1, .f32⟩ : BufTy).Contents (Elt F) → (⟨S16384x2560, .f32⟩ : BufTy).Contents (Elt F)),
    binary main_v0 main_v15 main_v16 (subf : (⟨S16384x2560, .f32⟩ : BufTy).Contents (Elt F) → (⟨S16384x2560, .f32⟩ : BufTy).Contents (Elt F) → (⟨S16384x2560, .f32⟩ : BufTy).Contents (Elt F)),
    binary main_v16 main_v16 main_v17 (mulf : (⟨S16384x2560, .f32⟩ : BufTy).Contents (Elt F) → (⟨S16384x2560, .f32⟩ : BufTy).Contents (Elt F) → (⟨S16384x2560, .f32⟩ : BufTy).Contents (Elt F)),
    binary main_v17 main_v16 main_v18 (mulf : (⟨S16384x2560, .f32⟩ : BufTy).Contents (Elt F) → (⟨S16384x2560, .f32⟩ : BufTy).Contents (Elt F) → (⟨S16384x2560, .f32⟩ : BufTy).Contents (Elt F)),
    nullary main_cst_5 (constant S_ .f32 0x00000000#32),
    binary main_v18 main_cst_5 main_v19 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    nullary main_cst_6 (constant S_ .f32 0x45200000#32),
    unary main_cst_6 main_v20 (broadcastInDim S16384 ![] bcast_S_S16384 : (⟨S_, .f32⟩ : BufTy).Contents (Elt F) → (⟨S16384, .f32⟩ : BufTy).Contents (Elt F)),
    binary main_v19 main_v20 main_v21 (Host.divf : (⟨S16384, .f32⟩ : BufTy).Contents (Elt F) → (⟨S16384, .f32⟩ : BufTy).Contents (Elt F) → (⟨S16384, .f32⟩ : BufTy).Contents (Elt F)),
    binary main_v13 main_v13 main_v22 (mulf : (⟨S16384, .f32⟩ : BufTy).Contents (Elt F) → (⟨S16384, .f32⟩ : BufTy).Contents (Elt F) → (⟨S16384, .f32⟩ : BufTy).Contents (Elt F)),
    binary main_v22 main_v13 main_v23 (mulf : (⟨S16384, .f32⟩ : BufTy).Contents (Elt F) → (⟨S16384, .f32⟩ : BufTy).Contents (Elt F) → (⟨S16384, .f32⟩ : BufTy).Contents (Elt F)),
    binary main_v21 main_v23 main_v24 (Host.divf : (⟨S16384, .f32⟩ : BufTy).Contents (Elt F) → (⟨S16384, .f32⟩ : BufTy).Contents (Elt F) → (⟨S16384, .f32⟩ : BufTy).Contents (Elt F)),
    binary main_v16 main_v16 main_v25 (mulf : (⟨S16384x2560, .f32⟩ : BufTy).Contents (Elt F) → (⟨S16384x2560, .f32⟩ : BufTy).Contents (Elt F) → (⟨S16384x2560, .f32⟩ : BufTy).Contents (Elt F)),
    binary main_v25 main_v25 main_v26 (mulf : (⟨S16384x2560, .f32⟩ : BufTy).Contents (Elt F) → (⟨S16384x2560, .f32⟩ : BufTy).Contents (Elt F) → (⟨S16384x2560, .f32⟩ : BufTy).Contents (Elt F)),
    nullary main_cst_7 (constant S_ .f32 0x00000000#32),
    binary main_v26 main_cst_7 main_v27 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    nullary main_cst_8 (constant S_ .f32 0x45200000#32),
    unary main_cst_8 main_v28 (broadcastInDim S16384 ![] bcast_S_S16384 : (⟨S_, .f32⟩ : BufTy).Contents (Elt F) → (⟨S16384, .f32⟩ : BufTy).Contents (Elt F)),
    binary main_v27 main_v28 main_v29 (Host.divf : (⟨S16384, .f32⟩ : BufTy).Contents (Elt F) → (⟨S16384, .f32⟩ : BufTy).Contents (Elt F) → (⟨S16384, .f32⟩ : BufTy).Contents (Elt F)),
    binary main_v13 main_v13 main_v30 (mulf : (⟨S16384, .f32⟩ : BufTy).Contents (Elt F) → (⟨S16384, .f32⟩ : BufTy).Contents (Elt F) → (⟨S16384, .f32⟩ : BufTy).Contents (Elt F)),
    binary main_v30 main_v30 main_v31 (mulf : (⟨S16384, .f32⟩ : BufTy).Contents (Elt F) → (⟨S16384, .f32⟩ : BufTy).Contents (Elt F) → (⟨S16384, .f32⟩ : BufTy).Contents (Elt F)),
    binary main_v29 main_v31 main_v32 (Host.divf : (⟨S16384, .f32⟩ : BufTy).Contents (Elt F) → (⟨S16384, .f32⟩ : BufTy).Contents (Elt F) → (⟨S16384, .f32⟩ : BufTy).Contents (Elt F)),
    unary main_v0 main_v33 (Host.absf : (⟨S16384x2560, .f32⟩ : BufTy).Contents (Elt F) → (⟨S16384x2560, .f32⟩ : BufTy).Contents (Elt F)),
    nullary main_cst_9 (constant S_ .f32 0x00000000#32),
    binary main_v33 main_cst_9 main_v34 ((fun x v => Host.reduceAdd x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    nullary main_cst_10 (constant S_ .f32 0xFF800000#32),
    binary main_v33 main_cst_10 main_v35 ((fun x v => Host.reduce FloatOps.maximumf x v reducesTo_S16384x2560_S16384_d1 h_S_) : (⟨S16384x2560, .f32⟩ : BufTy).Contents (Elt F) → (⟨S_, .f32⟩ : BufTy).Contents (Elt F) → (⟨S16384, .f32⟩ : BufTy).Contents (Elt F)),
    nullary main_cst_11 (constant S_ .f32 0x45200000#32),
    unary main_cst_11 main_v36 (broadcastInDim S16384 ![] bcast_S_S16384 : (⟨S_, .f32⟩ : BufTy).Contents (Elt F) → (⟨S16384, .f32⟩ : BufTy).Contents (Elt F)),
    binary main_v11 main_v36 main_v37 (mulf : (⟨S16384, .f32⟩ : BufTy).Contents (Elt F) → (⟨S16384, .f32⟩ : BufTy).Contents (Elt F) → (⟨S16384, .f32⟩ : BufTy).Contents (Elt F)),
    binary main_v37 main_v34 main_v38 (Host.divf : (⟨S16384, .f32⟩ : BufTy).Contents (Elt F) → (⟨S16384, .f32⟩ : BufTy).Contents (Elt F) → (⟨S16384, .f32⟩ : BufTy).Contents (Elt F)),
    nullary main_cst_12 (constant S_ .f32 0x45200000#32),
    unary main_cst_12 main_v39 (broadcastInDim S16384 ![] bcast_S_S16384 : (⟨S_, .f32⟩ : BufTy).Contents (Elt F) → (⟨S16384, .f32⟩ : BufTy).Contents (Elt F)),
    binary main_v35 main_v39 main_v40 (mulf : (⟨S16384, .f32⟩ : BufTy).Contents (Elt F) → (⟨S16384, .f32⟩ : BufTy).Contents (Elt F) → (⟨S16384, .f32⟩ : BufTy).Contents (Elt F)),
    binary main_v40 main_v34 main_v41 (Host.divf : (⟨S16384, .f32⟩ : BufTy).Contents (Elt F) → (⟨S16384, .f32⟩ : BufTy).Contents (Elt F) → (⟨S16384, .f32⟩ : BufTy).Contents (Elt F)),
    unary main_v16 main_v42 (Host.absf : (⟨S16384x2560, .f32⟩ : BufTy).Contents (Elt F) → (⟨S16384x2560, .f32⟩ : BufTy).Contents (Elt F)),
    unary main_v13 main_v43 (broadcastInDim S16384x1 ![0] bcast_S16384_S16384x1_0 : (⟨S16384, .f32⟩ : BufTy).Contents (Elt F) → (⟨S16384x1, .f32⟩ : BufTy).Contents (Elt F)),
    nullary main_cst_13 (constant S_ .f32 0x40400000#32) ]

/-- Operations 82 … 102 of 174, in order. -/
abbrev seg3 : List (HloOp τ sig (Elt F)) :=
  [ unary main_cst_13 main_v44 (broadcastInDim S16384x1 ![] bcast_S_S16384x1 : (⟨S_, .f32⟩ : BufTy).Contents (Elt F) → (⟨S16384x1, .f32⟩ : BufTy).Contents (Elt F)),
    binary main_v44 main_v43 main_v45 (mulf : (⟨S16384x1, .f32⟩ : BufTy).Contents (Elt F) → (⟨S16384x1, .f32⟩ : BufTy).Contents (Elt F) → (⟨S16384x1, .f32⟩ : BufTy).Contents (Elt F)),
    unary main_v45 main_v46 (broadcastInDim S16384x2560 ![0, 1] bcast_S16384x1_S16384x2560_0_1 : (⟨S16384x1, .f32⟩ : BufTy).Contents (Elt F) → (⟨S16384x2560, .f32⟩ : BufTy).Contents (Elt F)),
    binary main_v42 main_v46 main_v47 (cmpf .ogt : (⟨S16384x2560, .f32⟩ : BufTy).Contents (Elt F) → (⟨S16384x2560, .f32⟩ : BufTy).Contents (Elt F) → (⟨S16384x2560, .i1⟩ : BufTy).Contents (Elt F)),
    unary main_v47 main_v48 ((extui 32 · natLt_1_32) : (⟨S16384x2560, .i1⟩ : BufTy).Contents (Elt F) → (⟨S16384x2560, .i32⟩ : BufTy).Contents (Elt F)),
    nullary main_c_14 (constantI S_ 32 0#32),
    binary main_v48 main_c_14 main_v49 ((fun x v => Host.reduce IntOp.addi x v reducesTo_S16384x2560_S16384_d1 h_S_) : (⟨S16384x2560, .i32⟩ : BufTy).Contents (Elt F) → (⟨S_, .i32⟩ : BufTy).Contents (Elt F) → (⟨S16384, .i32⟩ : BufTy).Contents (Elt F)),
    unary main_v49 main_v50 (sitofp .f32 : (⟨S16384, .i32⟩ : BufTy).Contents (Elt F) → (⟨S16384, .f32⟩ : BufTy).Contents (Elt F)),
    unary main_v0 main_v51 (Host.sign : (⟨S16384x2560, .f32⟩ : BufTy).Contents (Elt F) → (⟨S16384x2560, .f32⟩ : BufTy).Contents (Elt F)),
    TRef.unary (.of main_v51 : TRef sig ⟨S16384x2560, .f32⟩) main_call1.v0 (extractStridedSlice S16384x2559 ![0, 1] · slices_S16384x2560_S16384x2559_0_1),
    TRef.unary (.of main_v51 : TRef sig ⟨S16384x2560, .f32⟩) main_call1.v1 (extractStridedSlice S16384x2559 ![0, 0] · slices_S16384x2560_S16384x2559_0_0),
    TRef.binary main_call1.v0 main_call1.v1 main_call1.v2 subf,
    nullary main_cst_15 (constant S_ .f32 0x00000000#32),
    unary main_cst_15 main_v53 (broadcastInDim S16384x2559 ![] bcast_S_S16384x2559 : (⟨S_, .f32⟩ : BufTy).Contents (Elt F) → (⟨S16384x2559, .f32⟩ : BufTy).Contents (Elt F)),
    binary main_v52 main_v53 main_v54 (cmpf .une : (⟨S16384x2559, .f32⟩ : BufTy).Contents (Elt F) → (⟨S16384x2559, .f32⟩ : BufTy).Contents (Elt F) → (⟨S16384x2559, .i1⟩ : BufTy).Contents (Elt F)),
    unary main_v54 main_v55 (uitofp .f32 : (⟨S16384x2559, .i1⟩ : BufTy).Contents (Elt F) → (⟨S16384x2559, .f32⟩ : BufTy).Contents (Elt F)),
    nullary main_cst_16 (constant S_ .f32 0x00000000#32),
    binary main_v55 main_cst_16 main_v56 ((fun x v => Host.reduceAdd x v reducesTo_S16384x2559_S16384_d1 h_S_) : (⟨S16384x2559, .f32⟩ : BufTy).Contents (Elt F) → (⟨S_, .f32⟩ : BufTy).Contents (Elt F) → (⟨S16384, .f32⟩ : BufTy).Contents (Elt F)),
    nullary main_cst_17 (constant S_ .f32 0x45A00000#32),
    unary main_cst_17 main_v57 (broadcastInDim S16384 ![] bcast_S_S16384 : (⟨S_, .f32⟩ : BufTy).Contents (Elt F) → (⟨S16384, .f32⟩ : BufTy).Contents (Elt F)),
    binary main_v56 main_v57 main_v58 (Host.divf : (⟨S16384, .f32⟩ : BufTy).Contents (Elt F) → (⟨S16384, .f32⟩ : BufTy).Contents (Elt F) → (⟨S16384, .f32⟩ : BufTy).Contents (Elt F)) ]

/-- Operations 103 … 131 of 174, in order. -/
abbrev seg4 : List (HloOp τ sig (Elt F)) :=
  [ TRef.unary (.of main_v0 : TRef sig ⟨S16384x2560, .f32⟩) main_call2.v0 (extractStridedSlice S16384x2559 ![0, 1] · slices_S16384x2560_S16384x2559_0_1),
    TRef.unary (.of main_v0 : TRef sig ⟨S16384x2560, .f32⟩) main_call2.v1 (extractStridedSlice S16384x2559 ![0, 0] · slices_S16384x2560_S16384x2559_0_0),
    TRef.binary main_call2.v0 main_call2.v1 main_call2.v2 subf,
    TRef.unary (.of main_v59 : TRef sig ⟨S16384x2559, .f32⟩) main_call3.v0 (extractStridedSlice S16384x2558 ![0, 1] · slices_S16384x2559_S16384x2558_0_1),
    TRef.unary (.of main_v59 : TRef sig ⟨S16384x2559, .f32⟩) main_call3.v1 (extractStridedSlice S16384x2558 ![0, 0] · slices_S16384x2559_S16384x2558_0_0),
    TRef.binary main_call3.v0 main_call3.v1 main_call3.v2 subf,
    nullary main_c_18 (constantI S_ 32 1#32),
    TRef.nullary main_call4.cst (constant S_ .f32 0x00000000#32),
    TRef.binary (.of main_v59 : TRef sig ⟨S16384x2559, .f32⟩) main_call4.cst main_call4.v0 (fun x v => Host.reduceAdd x v reducesTo_S16384x2559_S16384_d1 h_S_),
    TRef.unary main_call4.v0 main_call4.v1 (broadcastInDim S16384x1 ![0] bcast_S16384_S16384x1_0),
    TRef.nullary main_call4.cst_0 (constant S_ .f32 0x451FF000#32),
    TRef.unary main_call4.cst_0 main_call4.v2 (broadcastInDim S16384x1 ![] bcast_S_S16384x1),
    TRef.binary main_call4.v1 main_call4.v2 main_call4.v3 Host.divf,
    TRef.unary main_call4.v3 main_call4.v4 (broadcastInDim S16384x2559 ![0, 1] bcast_S16384x1_S16384x2559_0_1),
    TRef.binary (.of main_v59 : TRef sig ⟨S16384x2559, .f32⟩) main_call4.v4 main_call4.v5 subf,
    TRef.binary main_call4.v5 main_call4.v5 main_call4.v6 mulf,
    TRef.unary (.of main_c_18 : TRef sig ⟨S_, .i32⟩) main_call4.v7 (sitofp .f32),
    TRef.nullary main_call4.cst_1 (constant S_ .f32 0x451FF000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S16384x2559_S16384_d1 h_S_),
    TRef.unary main_call4.v8 main_call4.v10 (broadcastInDim S16384 ![] bcast_S_S16384),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S16384 ![] bcast_S_S16384),
    TRef.ternary main_call4.v12 main_call4.v11 main_call4.call0.v1 main_call4.call0.v2 (fun p a b => select (broadcastInDim S16384 ![] bcast_S_S16384 p) a b) ]

/-- Operations 132 … 154 of 174, in order. -/
abbrev seg5 : List (HloOp τ sig (Elt F)) :=
  [ nullary main_c_19 (constantI S_ 32 1#32),
    TRef.nullary main_call5.cst (constant S_ .f32 0x00000000#32),
    TRef.binary (.of main_v60 : TRef sig ⟨S16384x2558, .f32⟩) main_call5.cst main_call5.v0 (fun x v => Host.reduceAdd x v reducesTo_S16384x2558_S16384_d1 h_S_),
    TRef.unary main_call5.v0 main_call5.v1 (broadcastInDim S16384x1 ![0] bcast_S16384_S16384x1_0),
    TRef.nullary main_call5.cst_0 (constant S_ .f32 0x451FE000#32),
    TRef.unary main_call5.cst_0 main_call5.v2 (broadcastInDim S16384x1 ![] bcast_S_S16384x1),
    TRef.binary main_call5.v1 main_call5.v2 main_call5.v3 Host.divf,
    TRef.unary main_call5.v3 main_call5.v4 (broadcastInDim S16384x2558 ![0, 1] bcast_S16384x1_S16384x2558_0_1),
    TRef.binary (.of main_v60 : TRef sig ⟨S16384x2558, .f32⟩) main_call5.v4 main_call5.v5 subf,
    TRef.binary main_call5.v5 main_call5.v5 main_call5.v6 mulf,
    TRef.unary (.of main_c_19 : TRef sig ⟨S_, .i32⟩) main_call5.v7 (sitofp .f32),
    TRef.nullary main_call5.cst_1 (constant S_ .f32 0x451FE000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S16384x2558_S16384_d1 h_S_),
    TRef.unary main_call5.v8 main_call5.v10 (broadcastInDim S16384 ![] bcast_S_S16384),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S16384 ![] bcast_S_S16384),
    TRef.ternary main_call5.v12 main_call5.v11 main_call5.call0.v1 main_call5.call0.v2 (fun p a b => select (broadcastInDim S16384 ![] bcast_S_S16384 p) a b) ]

/-- Operations 155 … 173 of 174, in order. -/
abbrev seg6 : List (HloOp τ sig (Elt F)) :=
  [ binary main_v61 main_v12 main_v63 (Host.divf : (⟨S16384, .f32⟩ : BufTy).Contents (Elt F) → (⟨S16384, .f32⟩ : BufTy).Contents (Elt F) → (⟨S16384, .f32⟩ : BufTy).Contents (Elt F)),
    unary main_v63 main_v64 (Host.sqrt : (⟨S16384, .f32⟩ : BufTy).Contents (Elt F) → (⟨S16384, .f32⟩ : BufTy).Contents (Elt F)),
    binary main_v62 main_v61 main_v65 (Host.divf : (⟨S16384, .f32⟩ : BufTy).Contents (Elt F) → (⟨S16384, .f32⟩ : BufTy).Contents (Elt F) → (⟨S16384, .f32⟩ : BufTy).Contents (Elt F)),
    unary main_v65 main_v66 (Host.sqrt : (⟨S16384, .f32⟩ : BufTy).Contents (Elt F) → (⟨S16384, .f32⟩ : BufTy).Contents (Elt F)),
    unary main_v3 main_v67 (broadcastInDim S16384x1 ![0] bcast_S16384_S16384x1_0 : (⟨S16384, .f32⟩ : BufTy).Contents (Elt F) → (⟨S16384x1, .f32⟩ : BufTy).Contents (Elt F)),
    unary main_v4 main_v68 (broadcastInDim S16384x1 ![0] bcast_S16384_S16384x1_0 : (⟨S16384, .f32⟩ : BufTy).Contents (Elt F) → (⟨S16384x1, .f32⟩ : BufTy).Contents (Elt F)),
    unary main_v5 main_v69 (broadcastInDim S16384x1 ![0] bcast_S16384_S16384x1_0 : (⟨S16384, .f32⟩ : BufTy).Contents (Elt F) → (⟨S16384x1, .f32⟩ : BufTy).Contents (Elt F)),
    unary main_v6 main_v70 (broadcastInDim S16384x1 ![0] bcast_S16384_S16384x1_0 : (⟨S16384, .f32⟩ : BufTy).Contents (Elt F) → (⟨S16384x1, .f32⟩ : BufTy).Contents (Elt F)),
    unary main_v12 main_v71 (broadcastInDim S16384x1 ![0] bcast_S16384_S16384x1_0 : (⟨S16384, .f32⟩ : BufTy).Contents (Elt F) → (⟨S16384x1, .f32⟩ : BufTy).Contents (Elt F)),
    unary main_v11 main_v72 (broadcastInDim S16384x1 ![0] bcast_S16384_S16384x1_0 : (⟨S16384, .f32⟩ : BufTy).Contents (Elt F) → (⟨S16384x1, .f32⟩ : BufTy).Contents (Elt F)),
    unary main_v24 main_v73 (broadcastInDim S16384x1 ![0] bcast_S16384_S16384x1_0 : (⟨S16384, .f32⟩ : BufTy).Contents (Elt F) → (⟨S16384x1, .f32⟩ : BufTy).Contents (Elt F)),
    unary main_v32 main_v74 (broadcastInDim S16384x1 ![0] bcast_S16384_S16384x1_0 : (⟨S16384, .f32⟩ : BufTy).Contents (Elt F) → (⟨S16384x1, .f32⟩ : BufTy).Contents (Elt F)),
    unary main_v38 main_v75 (broadcastInDim S16384x1 ![0] bcast_S16384_S16384x1_0 : (⟨S16384, .f32⟩ : BufTy).Contents (Elt F) → (⟨S16384x1, .f32⟩ : BufTy).Contents (Elt F)),
    unary main_v41 main_v76 (broadcastInDim S16384x1 ![0] bcast_S16384_S16384x1_0 : (⟨S16384, .f32⟩ : BufTy).Contents (Elt F) → (⟨S16384x1, .f32⟩ : BufTy).Contents (Elt F)),
    unary main_v50 main_v77 (broadcastInDim S16384x1 ![0] bcast_S16384_S16384x1_0 : (⟨S16384, .f32⟩ : BufTy).Contents (Elt F) → (⟨S16384x1, .f32⟩ : BufTy).Contents (Elt F)),
    unary main_v58 main_v78 (broadcastInDim S16384x1 ![0] bcast_S16384_S16384x1_0 : (⟨S16384, .f32⟩ : BufTy).Contents (Elt F) → (⟨S16384x1, .f32⟩ : BufTy).Contents (Elt F)),
    unary main_v12 main_v79 (broadcastInDim S16384x1 ![0] bcast_S16384_S16384x1_0 : (⟨S16384, .f32⟩ : BufTy).Contents (Elt F) → (⟨S16384x1, .f32⟩ : BufTy).Contents (Elt F)),
    unary main_v64 main_v80 (broadcastInDim S16384x1 ![0] bcast_S16384_S16384x1_0 : (⟨S16384, .f32⟩ : BufTy).Contents (Elt F) → (⟨S16384x1, .f32⟩ : BufTy).Contents (Elt F)),
    unary main_v66 main_v81 (broadcastInDim S16384x1 ![0] bcast_S16384_S16384x1_0 : (⟨S16384, .f32⟩ : BufTy).Contents (Elt F) → (⟨S16384x1, .f32⟩ : BufTy).Contents (Elt F)) ]

/-- Operations 174 … 174 of 174, in order. -/
abbrev seg7 : List (HloOp τ sig (Elt F)) :=
  [ nary ![main_v67, main_v68, main_v69, main_v70, main_v71, main_v72, main_v73, main_v74, main_v75, main_v76, main_v77, main_v78, main_v79, main_v80, main_v81] main_v82 (fun u => concatenate S16384x15 1 [⟨S16384x1, u 0⟩, ⟨S16384x1, u 1⟩, ⟨S16384x1, u 2⟩, ⟨S16384x1, u 3⟩, ⟨S16384x1, u 4⟩, ⟨S16384x1, u 5⟩, ⟨S16384x1, u 6⟩, ⟨S16384x1, u 7⟩, ⟨S16384x1, u 8⟩, ⟨S16384x1, u 9⟩, ⟨S16384x1, u 10⟩, ⟨S16384x1, u 11⟩, ⟨S16384x1, u 12⟩, ⟨S16384x1, u 13⟩, ⟨S16384x1, u 14⟩] concatenates_S16384x1_S16384x1_S16384x1_S16384x1_S16384x1_S16384x1_S16384x1_S16384x1_S16384x1_S16384x1_S16384x1_S16384x1_S16384x1_S16384x1_S16384x1_S16384x15_d1) ]

/-- The operations of @main's first sixty statements (81 operations). -/
abbrev opsP0 : List (HloOp τ sig (Elt F)) := seg0 ++ (seg1 ++ seg2)
/-- The operations of @main's last forty-six statements (93 operations). -/
abbrev opsP1 : List (HloOp τ sig (Elt F)) := seg3 ++ (seg4 ++ (seg5 ++ (seg6 ++ seg7)))
/-- @main's 174 operations, in order, the calls unfolded. -/
abbrev ops : List (HloOp τ sig (Elt F)) := seg0 ++ (seg1 ++ (seg2 ++ (seg3 ++ (seg4 ++ (seg5 ++ (seg6 ++ seg7))))))

set_option maxRecDepth 16384 in
set_option maxHeartbeats 4000000 in
/-- The first sixty statements are that straight line: the functions unfolded at their calls, sequencing reassociated. -/
theorem main_part0_eq (c : Dev nD) : main_part0 (F := F) c = seq opsP0 := by
  simp only [main_part0, fn_var.body, fn_where.body, opsP0, seg0, seg1, seg2, List.cons_append, List.nil_append, seq, bind_assoc, pure_bind]
  rfl

set_option maxRecDepth 16384 in
set_option maxHeartbeats 4000000 in
/-- The last forty-six statements likewise. -/
theorem main_part1_eq (c : Dev nD) : main_part1 (F := F) c = seq opsP1 := by
  simp only [main_part1, fn_diff.body, fn_diff_0.body, fn_var_1.body, fn_var_2.body, fn_where.body, opsP1, seg3, seg4, seg5, seg6, seg7, List.cons_append, List.nil_append, seq, bind_assoc, pure_bind]

theorem main_eq (c : Dev nD) : main (F := F) c = seq ops := by
  show (main_part0 (F := F) c >>= fun _ => main_part1 (F := F) c) = _
  rw [main_part0_eq c, main_part1_eq c]
  simp only [ops, opsP0, opsP1, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem seg0_sub : (seg0 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub .., binary_bufs_sub .., nullary_bufs_sub .., binary_bufs_sub .., binary_bufs_sub .., binary_bufs_sub .., nullary_bufs_sub .., binary_bufs_sub .., nullary_bufs_sub .., unary_bufs_sub .., binary_bufs_sub .., unary_bufs_sub .., nullary_bufs_sub ..⟩
set_option maxRecDepth 8192 in
theorem seg0_fresh : (seg0 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem seg1_sub : (seg1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem seg1_fresh : (seg1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem seg2_sub : (seg2 : List (HloOp τ sig (Elt F))).Forall fun op => op.bufs ⊆ tcRefs τ sig :=
  ⟨unary_bufs_sub .., unary_bufs_sub .., unary_bufs_sub .., binary_bufs_sub .., binary_bufs_sub .., binary_bufs_sub .., nullary_bufs_sub .., binary_bufs_sub .., nullary_bufs_sub .., unary_bufs_sub .., binary_bufs_sub .., binary_bufs_sub .., binary_bufs_sub .., binary_bufs_sub .., binary_bufs_sub .., binary_bufs_sub .., nullary_bufs_sub .., binary_bufs_sub .., nullary_bufs_sub .., unary_bufs_sub .., binary_bufs_sub .., binary_bufs_sub .., binary_bufs_sub .., binary_bufs_sub .., unary_bufs_sub .., nullary_bufs_sub .., binary_bufs_sub .., nullary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., nullary_bufs_sub ..⟩
set_option maxRecDepth 8192 in
theorem seg2_fresh : (seg2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem seg3_sub : (seg3 : List (HloOp τ sig (Elt F))).Forall fun op => op.bufs ⊆ tcRefs τ sig :=
  ⟨unary_bufs_sub .., binary_bufs_sub .., unary_bufs_sub .., binary_bufs_sub .., unary_bufs_sub .., nullary_bufs_sub .., binary_bufs_sub .., unary_bufs_sub .., unary_bufs_sub .., unary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub ..⟩
set_option maxRecDepth 8192 in
theorem seg3_fresh : (seg3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxRecDepth 8192 in
theorem seg4_sub : (seg4 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem seg4_fresh : (seg4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem seg5_sub : (seg5 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
set_option maxRecDepth 8192 in
theorem seg5_fresh : (seg5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem seg6_sub : (seg6 : List (HloOp τ sig (Elt F))).Forall fun op => op.bufs ⊆ tcRefs τ sig :=
  ⟨binary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem seg6_fresh : (seg6 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem seg7_sub : (seg7 : List (HloOp τ sig (Elt F))).Forall fun op => op.bufs ⊆ tcRefs τ sig :=
  nary_bufs_sub ..
set_option maxRecDepth 8192 in
theorem seg7_fresh : (seg7 : List (HloOp τ sig (Elt F))).Forall fun op => op.fresh = ∅ :=
  rfl

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp seg0_sub op h, List.forall_iff_forall_mem.mp seg1_sub op h, List.forall_iff_forall_mem.mp seg2_sub op h, List.forall_iff_forall_mem.mp seg3_sub op h, List.forall_iff_forall_mem.mp seg4_sub op h, List.forall_iff_forall_mem.mp seg5_sub op h, List.forall_iff_forall_mem.mp seg6_sub op h, List.forall_iff_forall_mem.mp seg7_sub op h]

theorem ops_fresh : ∀ op ∈ (ops : List (HloOp τ sig (Elt F))), op.fresh = ∅ := fun op h => by
    simp only [ops, List.mem_append] at h
    rcases h with h | h | h | h | h | h | h | h
    exacts [List.forall_iff_forall_mem.mp seg0_fresh op h, List.forall_iff_forall_mem.mp seg1_fresh op h, List.forall_iff_forall_mem.mp seg2_fresh op h, List.forall_iff_forall_mem.mp seg3_fresh op h, List.forall_iff_forall_mem.mp seg4_fresh op h, List.forall_iff_forall_mem.mp seg5_fresh op h, List.forall_iff_forall_mem.mp seg6_fresh op h, List.forall_iff_forall_mem.mp seg7_fresh op h]

/-- At the compiled mesh, for any float values, from any memory with zero counters: every weakly fair execution of @main
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRun.lean ====
/- The reference program's result as named stages over the reshaped input, each the printed operations composed,
   and the run read back: after the 174 operations the result buffer holds `out` of the argument's contents and the
   argument is unchanged. The fold is read segment by segment: after each segment, every buffer still read later
   holds its stage of the argument. -/
import proofs.«118352_j60224031425109_2_alg».proof.Proof.RefOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The argument as a 16384 × 2560 matrix (%0). -/
def x0 (a : (⟨S16384x2560x1, .f32⟩ : BufTy).Contents (Elt F)) : (⟨S16384x2560, .f32⟩ : BufTy).Contents (Elt F) :=
  fun i => shapeCast S16384x2560 a shapeCasts_S16384x2560x1_S16384x2560 i

/-- Per row: row mean (%3). -/
def rMean (x : (⟨S16384x2560, .f32⟩ : BufTy).Contents (Elt F)) : (⟨S16384, .f32⟩ : BufTy).Contents (Elt F) :=
  Host.divf (Host.reduceAdd x (constant S_ .f32 0x00000000#32 : (⟨S_, .f32⟩ : BufTy).Contents (Elt F)) reducesTo_S16384x2560_S16384_d1 h_S_ : (⟨S16384, .f32⟩ : BufTy).Contents (Elt F)) (broadcastInDim S16384 ![] bcast_S_S16384 (constant S_ .f32 0x45200000#32 : (⟨S_, .f32⟩ : BufTy).Contents (Elt F)) : (⟨S16384, .f32⟩ : BufTy).Contents (Elt F))

/-- Per row: row maximum (%4). -/
def rMax (x : (⟨S16384x2560, .f32⟩ : BufTy).Contents (Elt F)) : (⟨S16384, .f32⟩ : BufTy).Contents (Elt F) :=
  Host.reduce FloatOps.maximumf x (constant S_ .f32 0xFF800000#32 : (⟨S_, .f32⟩ : BufTy).Contents (Elt F)) reducesTo_S16384x2560_S16384_d1 h_S_

/-- Per row: row minimum (%5). -/
def rMin (x : (⟨S16384x2560, .f32⟩ : BufTy).Contents (Elt F)) : (⟨S16384, .f32⟩ : BufTy).Contents (Elt F) :=
  Host.reduce FloatOps.minimumf x (constant S_ .f32 0x7F800000#32 : (⟨S_, .f32⟩ : BufTy).Contents (Elt F)) reducesTo_S16384x2560_S16384_d1 h_S_

/-- Per row: peak to peak (%6). -/
def rP2p (x : (⟨S16384x2560, .f32⟩ : BufTy).Contents (Elt F)) : (⟨S16384, .f32⟩ : BufTy).Contents (Elt F) :=
  subf (rMax x) (rMin x)

/-- Per row: root mean square (%11). -/
def rRms (x : (⟨S16384x2560, .f32⟩ : BufTy).Contents (Elt F)) : (⟨S16384, .f32⟩ : BufTy).Contents (Elt F) :=
  Host.sqrt (Host.divf (Host.reduceAdd (mulf x x : (⟨S16384x2560, .f32⟩ : BufTy).Contents (Elt F)) (constant S_ .f32 0x00000000#32 : (⟨S_, .f32⟩ : BufTy).Contents (Elt F)) reducesTo_S16384x2560_S16384_d1 h_S_ : (⟨S16384, .f32⟩ : BufTy).Contents (Elt F)) (broadcastInDim S16384 ![] bcast_S_S16384 (constant S_ .f32 0x45200000#32 : (⟨S_, .f32⟩ : BufTy).Contents (Elt F)) : (⟨S16384, .f32⟩ : BufTy).Contents (Elt F)) : (⟨S16384, .f32⟩ : BufTy).Contents (Elt F))

/-- Per row: variance with one degree of freedom removed, the guarded division included (%12). -/
def rVar (x : (⟨S16384x2560, .f32⟩ : BufTy).Contents (Elt F)) : (⟨S16384, .f32⟩ : BufTy).Contents (Elt F) :=
  select (broadcastInDim S16384 ![] bcast_S_S16384 (cmpf .ogt (subf (constant S_ .f32 0x45200000#32 : (⟨S_, .f32⟩ : BufTy).Contents (Elt F)) (sitofp .f32 (constantI S_ 32 1#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf x (broadcastInDim S16384x2560 ![0, 1] bcast_S16384x1_S16384x2560_0_1 (Host.divf (broadcastInDim S16384x1 ![0] bcast_S16384_S16384x1_0 (Host.reduceAdd x (constant S_ .f32 0x00000000#32 : (⟨S_, .f32⟩ : BufTy).Contents (Elt F)) reducesTo_S16384x2560_S16384_d1 h_S_ : (⟨S16384, .f32⟩ : BufTy).Contents (Elt F)) : (⟨S16384x1, .f32⟩ : BufTy).Contents (Elt F)) (broadcastInDim S16384x1 ![] bcast_S_S16384x1 (constant S_ .f32 0x45200000#32 : (⟨S_, .f32⟩ : BufTy).Contents (Elt F)) : (⟨S16384x1, .f32⟩ : BufTy).Contents (Elt F)) : (⟨S16384x1, .f32⟩ : BufTy).Contents (Elt F)) : (⟨S16384x2560, .f32⟩ : BufTy).Contents (Elt F)) : (⟨S16384x2560, .f32⟩ : BufTy).Contents (Elt F)) (subf x (broadcastInDim S16384x2560 ![0, 1] bcast_S16384x1_S16384x2560_0_1 (Host.divf (broadcastInDim S16384x1 ![0] bcast_S16384_S16384x1_0 (Host.reduceAdd x (constant S_ .f32 0x00000000#32 : (⟨S_, .f32⟩ : BufTy).Contents (Elt F)) reducesTo_S16384x2560_S16384_d1 h_S_ : (⟨S16384, .f32⟩ : BufTy).Contents (Elt F)) : (⟨S16384x1, .f32⟩ : BufTy).Contents (Elt F)) (broadcastInDim S16384x1 ![] bcast_S_S16384x1 (constant S_ .f32 0x45200000#32 : (⟨S_, .f32⟩ : BufTy).Contents (Elt F)) : (⟨S16384x1, .f32⟩ : BufTy).Contents (Elt F)) : (⟨S16384x1, .f32⟩ : BufTy).Contents (Elt F)) : (⟨S16384x2560, .f32⟩ : BufTy).Contents (Elt F)) : (⟨S16384x2560, .f32⟩ : BufTy).Contents (Elt F)) : (⟨S16384x2560, .f32⟩ : BufTy).Contents (Elt F)) (constant S_ .f32 0x00000000#32 : (⟨S_, .f32⟩ : BufTy).Contents (Elt F)) reducesTo_S16384x2560_S16384_d1 h_S_ : (⟨S16384, .f32⟩ : BufTy).Contents (Elt F)) (broadcastInDim S16384 ![] bcast_S_S16384 (subf (constant S_ .f32 0x45200000#32 : (⟨S_, .f32⟩ : BufTy).Contents (Elt F)) (sitofp .f32 (constantI S_ 32 1#32 : (⟨S_, .i32⟩ : BufTy).Contents (Elt F)) : (⟨S_, .f32⟩ : BufTy).Contents (Elt F)) : (⟨S_, .f32⟩ : BufTy).Contents (Elt F)) : (⟨S16384, .f32⟩ : BufTy).Contents (Elt F)) : (⟨S16384, .f32⟩ : BufTy).Contents (Elt F)) (broadcastInDim S16384 ![] bcast_S_S16384 (id (constant S_ .f32 0x7FC00000#32 : (⟨S_, .f32⟩ : BufTy).Contents (Elt F)) : (⟨S_, .f32⟩ : BufTy).Contents (Elt F)) : (⟨S16384, .f32⟩ : BufTy).Contents (Elt F))

/-- Per row: standard deviation (%13). -/
def rStd (x : (⟨S16384x2560, .f32⟩ : BufTy).Contents (Elt F)) : (⟨S16384, .f32⟩ : BufTy).Contents (Elt F) :=
  Host.sqrt (rVar x)

/-- Per row: the rows less their means (%16). -/
def rCentered (x : (⟨S16384x2560, .f32⟩ : BufTy).Contents (Elt F)) : (⟨S16384x2560, .f32⟩ : BufTy).Contents (Elt F) :=
  subf x (broadcastInDim S16384x2560 ![0, 1] bcast_S16384x1_S16384x2560_0_1 (broadcastInDim S16384x1 ![0] bcast_S16384_S16384x1_0 (rMean x) : (⟨S16384x1, .f32⟩ : BufTy).Contents (Elt F)) : (⟨S16384x2560, .f32⟩ : BufTy).Contents (Elt F))

/-- Per row: skewness (%24). -/
def rSkew (x : (⟨S16384x2560, .f32⟩ : BufTy).Contents (Elt F)) : (⟨S16384, .f32⟩ : BufTy).Contents (Elt F) :=
  Host.divf (Host.divf (Host.reduceAdd (mulf (mulf (rCentered x) (rCentered x) : (⟨S16384x2560, .f32⟩ : BufTy).Contents (Elt F)) (rCentered x) : (⟨S16384x2560, .f32⟩ : BufTy).Contents (Elt F)) (constant S_ .f32 0x00000000#32 : (⟨S_, .f32⟩ : BufTy).Contents (Elt F)) reducesTo_S16384x2560_S16384_d1 h_S_ : (⟨S16384, .f32⟩ : BufTy).Contents (Elt F)) (broadcastInDim S16384 ![] bcast_S_S16384 (constant S_ .f32 0x45200000#32 : (⟨S_, .f32⟩ : BufTy).Contents (Elt F)) : (⟨S16384, .f32⟩ : BufTy).Contents (Elt F)) : (⟨S16384, .f32⟩ : BufTy).Contents (Elt F)) (mulf (mulf (rStd x) (rStd x) : (⟨S16384, .f32⟩ : BufTy).Contents (Elt F)) (rStd x) : (⟨S16384, .f32⟩ : BufTy).Contents (Elt F))

/-- Per row: kurtosis (%32). -/
def rKurt (x : (⟨S16384x2560, .f32⟩ : BufTy).Contents (Elt F)) : (⟨S16384, .f32⟩ : BufTy).Contents (Elt F) :=
  Host.divf (Host.divf (Host.reduceAdd (mulf (mulf (rCentered x) (rCentered x) : (⟨S16384x2560, .f32⟩ : BufTy).Contents (Elt F)) (mulf (rCentered x) (rCentered x) : (⟨S16384x2560, .f32⟩ : BufTy).Contents (Elt F)) : (⟨S16384x2560, .f32⟩ : BufTy).Contents (Elt F)) (constant S_ .f32 0x00000000#32 : (⟨S_, .f32⟩ : BufTy).Contents (Elt F)) reducesTo_S16384x2560_S16384_d1 h_S_ : (⟨S16384, .f32⟩ : BufTy).Contents (Elt F)) (broadcastInDim S16384 ![] bcast_S_S16384 (constant S_ .f32 0x45200000#32 : (⟨S_, .f32⟩ : BufTy).Contents (Elt F)) : (⟨S16384, .f32⟩ : BufTy).Contents (Elt F)) : (⟨S16384, .f32⟩ : BufTy).Contents (Elt F)) (mulf (mulf (rStd x) (rStd x) : (⟨S16384, .f32⟩ : BufTy).Contents (Elt F)) (mulf (rStd x) (rStd x) : (⟨S16384, .f32⟩ : BufTy).Contents (Elt F)) : (⟨S16384, .f32⟩ : BufTy).Contents (Elt F))

/-- Per row: row sum of absolute values (%34). -/
def rAbsSum (x : (⟨S16384x2560, .f32⟩ : BufTy).Contents (Elt F)) : (⟨S16384, .f32⟩ : BufTy).Contents (Elt F) :=
  Host.reduceAdd (Host.absf x : (⟨S16384x2560, .f32⟩ : BufTy).Contents (Elt F)) (constant S_ .f32 0x00000000#32 : (⟨S_, .f32⟩ : BufTy).Contents (Elt F)) reducesTo_S16384x2560_S16384_d1 h_S_

/-- Per row: row maximum of absolute values (%35). -/
def rAbsMax (x : (⟨S16384x2560, .f32⟩ : BufTy).Contents (Elt F)) : (⟨S16384, .f32⟩ : BufTy).Contents (Elt F) :=
  Host.reduce FloatOps.maximumf (Host.absf x : (⟨S16384x2560, .f32⟩ : BufTy).Contents (Elt F)) (constant S_ .f32 0xFF800000#32 : (⟨S_, .f32⟩ : BufTy).Contents (Elt F)) reducesTo_S16384x2560_S16384_d1 h_S_

/-- Per row: shape factor (%38). -/
def rShape (x : (⟨S16384x2560, .f32⟩ : BufTy).Contents (Elt F)) : (⟨S16384, .f32⟩ : BufTy).Contents (Elt F) :=
  Host.divf (mulf (rRms x) (broadcastInDim S16384 ![] bcast_S_S16384 (constant S_ .f32 0x45200000#32 : (⟨S_, .f32⟩ : BufTy).Contents (Elt F)) : (⟨S16384, .f32⟩ : BufTy).Contents (Elt F)) : (⟨S16384, .f32⟩ : BufTy).Contents (Elt F)) (rAbsSum x)

/-- Per row: impulse factor (%41). -/
def rImpulse (x : (⟨S16384x2560, .f32⟩ : BufTy).Contents (Elt F)) : (⟨S16384, .f32⟩ : BufTy).Contents (Elt F) :=
  Host.divf (mulf (rAbsMax x) (broadcastInDim S16384 ![] bcast_S_S16384 (constant S_ .f32 0x45200000#32 : (⟨S_, .f32⟩ : BufTy).Contents (Elt F)) : (⟨S16384, .f32⟩ : BufTy).Contents (Elt F)) : (⟨S16384, .f32⟩ : BufTy).Contents (Elt F)) (rAbsSum x)

/-- Per row: count of entries farther than three standard deviations from the mean (%50). -/
def rOutliers (x : (⟨S16384x2560, .f32⟩ : BufTy).Contents (Elt F)) : (⟨S16384, .f32⟩ : BufTy).Contents (Elt F) :=
  sitofp .f32 (Host.reduce IntOp.addi (extui 32 (cmpf .ogt (Host.absf (rCentered x) : (⟨S16384x2560, .f32⟩ : BufTy).Contents (Elt F)) (broadcastInDim S16384x2560 ![0, 1] bcast_S16384x1_S16384x2560_0_1 (mulf (broadcastInDim S16384x1 ![] bcast_S_S16384x1 (constant S_ .f32 0x40400000#32 : (⟨S_, .f32⟩ : BufTy).Contents (Elt F)) : (⟨S16384x1, .f32⟩ : BufTy).Contents (Elt F)) (broadcastInDim S16384x1 ![0] bcast_S16384_S16384x1_0 (rStd x) : (⟨S16384x1, .f32⟩ : BufTy).Contents (Elt F)) : (⟨S16384x1, .f32⟩ : BufTy).Contents (Elt F)) : (⟨S16384x2560, .f32⟩ : BufTy).Contents (Elt F)) : (⟨S16384x2560, .i1⟩ : BufTy).Contents (Elt F)) natLt_1_32 : (⟨S16384x2560, .i32⟩ : BufTy).Contents (Elt F)) (constantI S_ 32 0#32 : (⟨S_, .i32⟩ : BufTy).Contents (Elt F)) reducesTo_S16384x2560_S16384_d1 h_S_ : (⟨S16384, .i32⟩ : BufTy).Contents (Elt F))

/-- Per row: zero-crossing rate (%58). -/
def rZcr (x : (⟨S16384x2560, .f32⟩ : BufTy).Contents (Elt F)) : (⟨S16384, .f32⟩ : BufTy).Contents (Elt F) :=
  Host.divf (Host.reduceAdd (uitofp .f32 (cmpf .une (subf (extractStridedSlice S16384x2559 ![0, 1] (Host.sign x : (⟨S16384x2560, .f32⟩ : BufTy).Contents (Elt F)) slices_S16384x2560_S16384x2559_0_1 : (⟨S16384x2559, .f32⟩ : BufTy).Contents (Elt F)) (extractStridedSlice S16384x2559 ![0, 0] (Host.sign x : (⟨S16384x2560, .f32⟩ : BufTy).Contents (Elt F)) slices_S16384x2560_S16384x2559_0_0 : (⟨S16384x2559, .f32⟩ : BufTy).Contents (Elt F)) : (⟨S16384x2559, .f32⟩ : BufTy).Contents (Elt F)) (broadcastInDim S16384x2559 ![] bcast_S_S16384x2559 (constant S_ .f32 0x00000000#32 : (⟨S_, .f32⟩ : BufTy).Contents (Elt F)) : (⟨S16384x2559, .f32⟩ : BufTy).Contents (Elt F)) : (⟨S16384x2559, .i1⟩ : BufTy).Contents (Elt F)) : (⟨S16384x2559, .f32⟩ : BufTy).Contents (Elt F)) (constant S_ .f32 0x00000000#32 : (⟨S_, .f32⟩ : BufTy).Contents (Elt F)) reducesTo_S16384x2559_S16384_d1 h_S_ : (⟨S16384, .f32⟩ : BufTy).Contents (Elt F)) (broadcastInDim S16384 ![] bcast_S_S16384 (constant S_ .f32 0x45A00000#32 : (⟨S_, .f32⟩ : BufTy).Contents (Elt F)) : (⟨S16384, .f32⟩ : BufTy).Contents (Elt F))

/-- Per row: first difference along the row (%59). -/
def rD1 (x : (⟨S16384x2560, .f32⟩ : BufTy).Contents (Elt F)) : (⟨S16384x2559, .f32⟩ : BufTy).Contents (Elt F) :=
  subf (extractStridedSlice S16384x2559 ![0, 1] x slices_S16384x2560_S16384x2559_0_1 : (⟨S16384x2559, .f32⟩ : BufTy).Contents (Elt F)) (extractStridedSlice S16384x2559 ![0, 0] x slices_S16384x2560_S16384x2559_0_0 : (⟨S16384x2559, .f32⟩ : BufTy).Contents (Elt F))

/-- Per row: second difference along the row (%60). -/
def rD2 (x : (⟨S16384x2560, .f32⟩ : BufTy).Contents (Elt F)) : (⟨S16384x2558, .f32⟩ : BufTy).Contents (Elt F) :=
  subf (extractStridedSlice S16384x2558 ![0, 1] (rD1 x) slices_S16384x2559_S16384x2558_0_1 : (⟨S16384x2558, .f32⟩ : BufTy).Contents (Elt F)) (extractStridedSlice S16384x2558 ![0, 0] (rD1 x) slices_S16384x2559_S16384x2558_0_0 : (⟨S16384x2558, .f32⟩ : BufTy).Contents (Elt F))

/-- Per row: variance of the first difference (%61). -/
def rVarD1 (x : (⟨S16384x2560, .f32⟩ : BufTy).Contents (Elt F)) : (⟨S16384, .f32⟩ : BufTy).Contents (Elt F) :=
  select (broadcastInDim S16384 ![] bcast_S_S16384 (cmpf .ogt (subf (constant S_ .f32 0x451FF000#32 : (⟨S_, .f32⟩ : BufTy).Contents (Elt F)) (sitofp .f32 (constantI S_ 32 1#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf (rD1 x) (broadcastInDim S16384x2559 ![0, 1] bcast_S16384x1_S16384x2559_0_1 (Host.divf (broadcastInDim S16384x1 ![0] bcast_S16384_S16384x1_0 (Host.reduceAdd (rD1 x) (constant S_ .f32 0x00000000#32 : (⟨S_, .f32⟩ : BufTy).Contents (Elt F)) reducesTo_S16384x2559_S16384_d1 h_S_ : (⟨S16384, .f32⟩ : BufTy).Contents (Elt F)) : (⟨S16384x1, .f32⟩ : BufTy).Contents (Elt F)) (broadcastInDim S16384x1 ![] bcast_S_S16384x1 (constant S_ .f32 0x451FF000#32 : (⟨S_, .f32⟩ : BufTy).Contents (Elt F)) : (⟨S16384x1, .f32⟩ : BufTy).Contents (Elt F)) : (⟨S16384x1, .f32⟩ : BufTy).Contents (Elt F)) : (⟨S16384x2559, .f32⟩ : BufTy).Contents (Elt F)) : (⟨S16384x2559, .f32⟩ : BufTy).Contents (Elt F)) (subf (rD1 x) (broadcastInDim S16384x2559 ![0, 1] bcast_S16384x1_S16384x2559_0_1 (Host.divf (broadcastInDim S16384x1 ![0] bcast_S16384_S16384x1_0 (Host.reduceAdd (rD1 x) (constant S_ .f32 0x00000000#32 : (⟨S_, .f32⟩ : BufTy).Contents (Elt F)) reducesTo_S16384x2559_S16384_d1 h_S_ : (⟨S16384, .f32⟩ : BufTy).Contents (Elt F)) : (⟨S16384x1, .f32⟩ : BufTy).Contents (Elt F)) (broadcastInDim S16384x1 ![] bcast_S_S16384x1 (constant S_ .f32 0x451FF000#32 : (⟨S_, .f32⟩ : BufTy).Contents (Elt F)) : (⟨S16384x1, .f32⟩ : BufTy).Contents (Elt F)) : (⟨S16384x1, .f32⟩ : BufTy).Contents (Elt F)) : (⟨S16384x2559, .f32⟩ : BufTy).Contents (Elt F)) : (⟨S16384x2559, .f32⟩ : BufTy).Contents (Elt F)) : (⟨S16384x2559, .f32⟩ : BufTy).Contents (Elt F)) (constant S_ .f32 0x00000000#32 : (⟨S_, .f32⟩ : BufTy).Contents (Elt F)) reducesTo_S16384x2559_S16384_d1 h_S_ : (⟨S16384, .f32⟩ : BufTy).Contents (Elt F)) (broadcastInDim S16384 ![] bcast_S_S16384 (subf (constant S_ .f32 0x451FF000#32 : (⟨S_, .f32⟩ : BufTy).Contents (Elt F)) (sitofp .f32 (constantI S_ 32 1#32 : (⟨S_, .i32⟩ : BufTy).Contents (Elt F)) : (⟨S_, .f32⟩ : BufTy).Contents (Elt F)) : (⟨S_, .f32⟩ : BufTy).Contents (Elt F)) : (⟨S16384, .f32⟩ : BufTy).Contents (Elt F)) : (⟨S16384, .f32⟩ : BufTy).Contents (Elt F)) (broadcastInDim S16384 ![] bcast_S_S16384 (id (constant S_ .f32 0x7FC00000#32 : (⟨S_, .f32⟩ : BufTy).Contents (Elt F)) : (⟨S_, .f32⟩ : BufTy).Contents (Elt F)) : (⟨S16384, .f32⟩ : BufTy).Contents (Elt F))

/-- Per row: variance of the second difference (%62). -/
def rVarD2 (x : (⟨S16384x2560, .f32⟩ : BufTy).Contents (Elt F)) : (⟨S16384, .f32⟩ : BufTy).Contents (Elt F) :=
  select (broadcastInDim S16384 ![] bcast_S_S16384 (cmpf .ogt (subf (constant S_ .f32 0x451FE000#32 : (⟨S_, .f32⟩ : BufTy).Contents (Elt F)) (sitofp .f32 (constantI S_ 32 1#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf (rD2 x) (broadcastInDim S16384x2558 ![0, 1] bcast_S16384x1_S16384x2558_0_1 (Host.divf (broadcastInDim S16384x1 ![0] bcast_S16384_S16384x1_0 (Host.reduceAdd (rD2 x) (constant S_ .f32 0x00000000#32 : (⟨S_, .f32⟩ : BufTy).Contents (Elt F)) reducesTo_S16384x2558_S16384_d1 h_S_ : (⟨S16384, .f32⟩ : BufTy).Contents (Elt F)) : (⟨S16384x1, .f32⟩ : BufTy).Contents (Elt F)) (broadcastInDim S16384x1 ![] bcast_S_S16384x1 (constant S_ .f32 0x451FE000#32 : (⟨S_, .f32⟩ : BufTy).Contents (Elt F)) : (⟨S16384x1, .f32⟩ : BufTy).Contents (Elt F)) : (⟨S16384x1, .f32⟩ : BufTy).Contents (Elt F)) : (⟨S16384x2558, .f32⟩ : BufTy).Contents (Elt F)) : (⟨S16384x2558, .f32⟩ : BufTy).Contents (Elt F)) (subf (rD2 x) (broadcastInDim S16384x2558 ![0, 1] bcast_S16384x1_S16384x2558_0_1 (Host.divf (broadcastInDim S16384x1 ![0] bcast_S16384_S16384x1_0 (Host.reduceAdd (rD2 x) (constant S_ .f32 0x00000000#32 : (⟨S_, .f32⟩ : BufTy).Contents (Elt F)) reducesTo_S16384x2558_S16384_d1 h_S_ : (⟨S16384, .f32⟩ : BufTy).Contents (Elt F)) : (⟨S16384x1, .f32⟩ : BufTy).Contents (Elt F)) (broadcastInDim S16384x1 ![] bcast_S_S16384x1 (constant S_ .f32 0x451FE000#32 : (⟨S_, .f32⟩ : BufTy).Contents (Elt F)) : (⟨S16384x1, .f32⟩ : BufTy).Contents (Elt F)) : (⟨S16384x1, .f32⟩ : BufTy).Contents (Elt F)) : (⟨S16384x2558, .f32⟩ : BufTy).Contents (Elt F)) : (⟨S16384x2558, .f32⟩ : BufTy).Contents (Elt F)) : (⟨S16384x2558, .f32⟩ : BufTy).Contents (Elt F)) (constant S_ .f32 0x00000000#32 : (⟨S_, .f32⟩ : BufTy).Contents (Elt F)) reducesTo_S16384x2558_S16384_d1 h_S_ : (⟨S16384, .f32⟩ : BufTy).Contents (Elt F)) (broadcastInDim S16384 ![] bcast_S_S16384 (subf (constant S_ .f32 0x451FE000#32 : (⟨S_, .f32⟩ : BufTy).Contents (Elt F)) (sitofp .f32 (constantI S_ 32 1#32 : (⟨S_, .i32⟩ : BufTy).Contents (Elt F)) : (⟨S_, .f32⟩ : BufTy).Contents (Elt F)) : (⟨S_, .f32⟩ : BufTy).Contents (Elt F)) : (⟨S16384, .f32⟩ : BufTy).Contents (Elt F)) : (⟨S16384, .f32⟩ : BufTy).Contents (Elt F)) (broadcastInDim S16384 ![] bcast_S_S16384 (id (constant S_ .f32 0x7FC00000#32 : (⟨S_, .f32⟩ : BufTy).Contents (Elt F)) : (⟨S_, .f32⟩ : BufTy).Contents (Elt F)) : (⟨S16384, .f32⟩ : BufTy).Contents (Elt F))

/-- Per row: mobility (%64). -/
def rMob (x : (⟨S16384x2560, .f32⟩ : BufTy).Contents (Elt F)) : (⟨S16384, .f32⟩ : BufTy).Contents (Elt F) :=
  Host.sqrt (Host.divf (rVarD1 x) (rVar x) : (⟨S16384, .f32⟩ : BufTy).Contents (Elt F))

/-- Per row: complexity (%66). -/
def rCompl (x : (⟨S16384x2560, .f32⟩ : BufTy).Contents (Elt F)) : (⟨S16384, .f32⟩ : BufTy).Contents (Elt F) :=
  Host.sqrt (Host.divf (rVarD2 x) (rVarD1 x) : (⟨S16384, .f32⟩ : BufTy).Contents (Elt F))

/-- The result (%82): the fifteen statistics side by side, one column each. -/
def out (a : (⟨S16384x2560x1, .f32⟩ : BufTy).Contents (Elt F)) : (⟨S16384x15, .f32⟩ : BufTy).Contents (Elt F) :=
  concatenate S16384x15 1 [⟨S16384x1, (broadcastInDim S16384x1 ![0] bcast_S16384_S16384x1_0 (rMean (x0 a)) : (⟨S16384x1, .f32⟩ : BufTy).Contents (Elt F))⟩, ⟨S16384x1, (broadcastInDim S16384x1 ![0] bcast_S16384_S16384x1_0 (rMax (x0 a)) : (⟨S16384x1, .f32⟩ : BufTy).Contents (Elt F))⟩, ⟨S16384x1, (broadcastInDim S16384x1 ![0] bcast_S16384_S16384x1_0 (rMin (x0 a)) : (⟨S16384x1, .f32⟩ : BufTy).Contents (Elt F))⟩, ⟨S16384x1, (broadcastInDim S16384x1 ![0] bcast_S16384_S16384x1_0 (rP2p (x0 a)) : (⟨S16384x1, .f32⟩ : BufTy).Contents (Elt F))⟩, ⟨S16384x1, (broadcastInDim S16384x1 ![0] bcast_S16384_S16384x1_0 (rVar (x0 a)) : (⟨S16384x1, .f32⟩ : BufTy).Contents (Elt F))⟩, ⟨S16384x1, (broadcastInDim S16384x1 ![0] bcast_S16384_S16384x1_0 (rRms (x0 a)) : (⟨S16384x1, .f32⟩ : BufTy).Contents (Elt F))⟩, ⟨S16384x1, (broadcastInDim S16384x1 ![0] bcast_S16384_S16384x1_0 (rSkew (x0 a)) : (⟨S16384x1, .f32⟩ : BufTy).Contents (Elt F))⟩, ⟨S16384x1, (broadcastInDim S16384x1 ![0] bcast_S16384_S16384x1_0 (rKurt (x0 a)) : (⟨S16384x1, .f32⟩ : BufTy).Contents (Elt F))⟩, ⟨S16384x1, (broadcastInDim S16384x1 ![0] bcast_S16384_S16384x1_0 (rShape (x0 a)) : (⟨S16384x1, .f32⟩ : BufTy).Contents (Elt F))⟩, ⟨S16384x1, (broadcastInDim S16384x1 ![0] bcast_S16384_S16384x1_0 (rImpulse (x0 a)) : (⟨S16384x1, .f32⟩ : BufTy).Contents (Elt F))⟩, ⟨S16384x1, (broadcastInDim S16384x1 ![0] bcast_S16384_S16384x1_0 (rOutliers (x0 a)) : (⟨S16384x1, .f32⟩ : BufTy).Contents (Elt F))⟩, ⟨S16384x1, (broadcastInDim S16384x1 ![0] bcast_S16384_S16384x1_0 (rZcr (x0 a)) : (⟨S16384x1, .f32⟩ : BufTy).Contents (Elt F))⟩, ⟨S16384x1, (broadcastInDim S16384x1 ![0] bcast_S16384_S16384x1_0 (rVar (x0 a)) : (⟨S16384x1, .f32⟩ : BufTy).Contents (Elt F))⟩, ⟨S16384x1, (broadcastInDim S16384x1 ![0] bcast_S16384_S16384x1_0 (rMob (x0 a)) : (⟨S16384x1, .f32⟩ : BufTy).Contents (Elt F))⟩, ⟨S16384x1, (broadcastInDim S16384x1 ![0] bcast_S16384_S16384x1_0 (rCompl (x0 a)) : (⟨S16384x1, .f32⟩ : BufTy).Contents (Elt F))⟩] concatenates_S16384x1_S16384x1_S16384x1_S16384x1_S16384x1_S16384x1_S16384x1_S16384x1_S16384x1_S16384x1_S16384x1_S16384x1_S16384x1_S16384x1_S16384x1_S16384x15_d1

/-- Fifteen columns side by side (%82's operation over plain operands: each column then stands as an argument of its own). -/
def cat15 (u0 u1 u2 u3 u4 u5 u6 u7 u8 u9 u10 u11 u12 u13 u14 : (⟨S16384x1, .f32⟩ : BufTy).Contents (Elt F)) : (⟨S16384x15, .f32⟩ : BufTy).Contents (Elt F) :=
  concatenate S16384x15 1 [⟨S16384x1, u0⟩, ⟨S16384x1, u1⟩, ⟨S16384x1, u2⟩, ⟨S16384x1, u3⟩, ⟨S16384x1, u4⟩, ⟨S16384x1, u5⟩, ⟨S16384x1, u6⟩, ⟨S16384x1, u7⟩, ⟨S16384x1, u8⟩, ⟨S16384x1, u9⟩, ⟨S16384x1, u10⟩, ⟨S16384x1, u11⟩, ⟨S16384x1, u12⟩, ⟨S16384x1, u13⟩, ⟨S16384x1, u14⟩] concatenates_S16384x1_S16384x1_S16384x1_S16384x1_S16384x1_S16384x1_S16384x1_S16384x1_S16384x1_S16384x1_S16384x1_S16384x1_S16384x1_S16384x1_S16384x1_S16384x15_d1

/-! ## The contents segment by segment -/

/-- The contents before the first segment. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The contents after the first 1 segment. -/
def val1 (V0 : Valuation τ sig (Elt F)) : Valuation τ sig (Elt F) := after seg0 (val0 V0)
/-- The buffers segment 0 writes. -/
abbrev seg0_W : List (Ref sig .tc) := [main_v0, main_cst, main_v1, main_cst_0, main_v2, main_v3, main_cst_1, main_v4, main_cst_2, main_v5, main_v6, main_v7, main_cst_3, main_v8, main_cst_4, main_v9, main_v10, main_v11, main_c]
set_option maxRecDepth 8192 in
set_option maxHeartbeats 2000000 in
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer segment 0 does not write keeps its contents through it. -/
theorem val1_keep (V0 : Valuation τ sig (Elt F)) (r : Ref sig .tc) (h : r ∉ seg0_W) :
    val1 V0 (Proc.devRef .tc r) = val0 V0 (Proc.devRef .tc r) :=
  after_of_writes_sub seg0 _ seg0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
set_option maxRecDepth 8192 in
set_option maxHeartbeats 1900000 in
theorem val1_main_v0 (V0 : Valuation τ sig (Elt F)) : val1 V0 (no_index (Proc.devRef .tc main_v0)) = x0 (V0 (Proc.devRef .tc main_arg0)) := by
  unfold val1
  simp only [seg0]
  after_results_simp
  simp only [val0_main_arg0] <;> rfl
set_option maxRecDepth 8192 in
set_option maxHeartbeats 1900000 in
theorem val1_main_v3 (V0 : Valuation τ sig (Elt F)) : val1 V0 (no_index (Proc.devRef .tc main_v3)) = rMean (x0 (V0 (Proc.devRef .tc main_arg0))) := by
  unfold val1
  simp only [seg0]
  after_results_simp
  simp only [val0_main_arg0] <;> rfl
set_option maxRecDepth 8192 in
set_option maxHeartbeats 1900000 in
theorem val1_main_v4 (V0 : Valuation τ sig (Elt F)) : val1 V0 (no_index (Proc.devRef .tc main_v4)) = rMax (x0 (V0 (Proc.devRef .tc main_arg0))) := by
  unfold val1
  simp only [seg0]
  after_results_simp
  simp only [val0_main_arg0] <;> rfl
set_option maxRecDepth 8192 in
set_option maxHeartbeats 1900000 in
theorem val1_main_v5 (V0 : Valuation τ sig (Elt F)) : val1 V0 (no_index (Proc.devRef .tc main_v5)) = rMin (x0 (V0 (Proc.devRef .tc main_arg0))) := by
  unfold val1
  simp only [seg0]
  after_results_simp
  simp only [val0_main_arg0] <;> rfl
set_option maxRecDepth 8192 in
set_option maxHeartbeats 1900000 in
theorem val1_main_v6 (V0 : Valuation τ sig (Elt F)) : val1 V0 (no_index (Proc.devRef .tc main_v6)) = rP2p (x0 (V0 (Proc.devRef .tc main_arg0))) := by
  unfold val1
  simp only [seg0]
  after_results_simp
  simp only [val0_main_arg0] <;> rfl
set_option maxRecDepth 8192 in
set_option maxHeartbeats 1900000 in
theorem val1_main_v11 (V0 : Valuation τ sig (Elt F)) : val1 V0 (no_index (Proc.devRef .tc main_v11)) = rRms (x0 (V0 (Proc.devRef .tc main_arg0))) := by
  unfold val1
  simp only [seg0]
  after_results_simp
  simp only [val0_main_arg0] <;> rfl
set_option maxRecDepth 8192 in
set_option maxHeartbeats 1900000 in
theorem val1_main_c (V0 : Valuation τ sig (Elt F)) : val1 V0 (no_index (Proc.devRef .tc main_c)) = constantI S_ 32 1#32 := by
  unfold val1
  simp only [seg0]
  after_results_simp
  all_goals rfl

/-- The contents after the first 2 segments. -/
def val2 (V0 : Valuation τ sig (Elt F)) : Valuation τ sig (Elt F) := after seg1 (val1 V0)
/-- The buffers segment 1 writes. -/
abbrev seg1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v12]
set_option maxRecDepth 8192 in
set_option maxHeartbeats 2000000 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer segment 1 does not write keeps its contents through it. -/
theorem val2_keep (V0 : Valuation τ sig (Elt F)) (r : Ref sig .tc) (h : r ∉ seg1_W) :
    val2 V0 (Proc.devRef .tc r) = val1 V0 (Proc.devRef .tc r) :=
  after_of_writes_sub seg1 _ seg1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_v0 (V0 : Valuation τ sig (Elt F)) : val2 V0 (no_index (Proc.devRef .tc main_v0)) = x0 (V0 (Proc.devRef .tc main_arg0)) :=
  (val2_keep V0 main_v0 (by decide)).trans (val1_main_v0 V0)
theorem val2_main_v3 (V0 : Valuation τ sig (Elt F)) : val2 V0 (no_index (Proc.devRef .tc main_v3)) = rMean (x0 (V0 (Proc.devRef .tc main_arg0))) :=
  (val2_keep V0 main_v3 (by decide)).trans (val1_main_v3 V0)
theorem val2_main_v4 (V0 : Valuation τ sig (Elt F)) : val2 V0 (no_index (Proc.devRef .tc main_v4)) = rMax (x0 (V0 (Proc.devRef .tc main_arg0))) :=
  (val2_keep V0 main_v4 (by decide)).trans (val1_main_v4 V0)
theorem val2_main_v5 (V0 : Valuation τ sig (Elt F)) : val2 V0 (no_index (Proc.devRef .tc main_v5)) = rMin (x0 (V0 (Proc.devRef .tc main_arg0))) :=
  (val2_keep V0 main_v5 (by decide)).trans (val1_main_v5 V0)
theorem val2_main_v6 (V0 : Valuation τ sig (Elt F)) : val2 V0 (no_index (Proc.devRef .tc main_v6)) = rP2p (x0 (V0 (Proc.devRef .tc main_arg0))) :=
  (val2_keep V0 main_v6 (by decide)).trans (val1_main_v6 V0)
theorem val2_main_v11 (V0 : Valuation τ sig (Elt F)) : val2 V0 (no_index (Proc.devRef .tc main_v11)) = rRms (x0 (V0 (Proc.devRef .tc main_arg0))) :=
  (val2_keep V0 main_v11 (by decide)).trans (val1_main_v11 V0)
set_option maxRecDepth 8192 in
set_option maxHeartbeats 2200000 in
theorem val2_main_v12 (V0 : Valuation τ sig (Elt F)) : val2 V0 (no_index (Proc.devRef .tc main_v12)) = rVar (x0 (V0 (Proc.devRef .tc main_arg0))) := by
  unfold val2
  simp only [seg1]
  after_results_simp
  simp only [val1_main_c, val1_main_v0] <;> rfl

/-- The contents after the first 3 segments. -/
def val3 (V0 : Valuation τ sig (Elt F)) : Valuation τ sig (Elt F) := after seg2 (val2 V0)
/-- The buffers segment 2 writes. -/
abbrev seg2_W : List (Ref sig .tc) := [main_v13, main_v14, main_v15, main_v16, main_v17, main_v18, main_cst_5, main_v19, main_cst_6, main_v20, main_v21, main_v22, main_v23, main_v24, main_v25, main_v26, main_cst_7, main_v27, main_cst_8, main_v28, main_v29, main_v30, main_v31, main_v32, main_v33, main_cst_9, main_v34, main_cst_10, main_v35, main_cst_11, main_v36, main_v37, main_v38, main_cst_12, main_v39, main_v40, main_v41, main_v42, main_v43, main_cst_13]
set_option maxRecDepth 8192 in
set_option maxHeartbeats 2000000 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer segment 2 does not write keeps its contents through it. -/
theorem val3_keep (V0 : Valuation τ sig (Elt F)) (r : Ref sig .tc) (h : r ∉ seg2_W) :
    val3 V0 (Proc.devRef .tc r) = val2 V0 (Proc.devRef .tc r) :=
  after_of_writes_sub seg2 _ seg2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_v0 (V0 : Valuation τ sig (Elt F)) : val3 V0 (no_index (Proc.devRef .tc main_v0)) = x0 (V0 (Proc.devRef .tc main_arg0)) :=
  (val3_keep V0 main_v0 (by decide)).trans (val2_main_v0 V0)
theorem val3_main_v3 (V0 : Valuation τ sig (Elt F)) : val3 V0 (no_index (Proc.devRef .tc main_v3)) = rMean (x0 (V0 (Proc.devRef .tc main_arg0))) :=
  (val3_keep V0 main_v3 (by decide)).trans (val2_main_v3 V0)
theorem val3_main_v4 (V0 : Valuation τ sig (Elt F)) : val3 V0 (no_index (Proc.devRef .tc main_v4)) = rMax (x0 (V0 (Proc.devRef .tc main_arg0))) :=
  (val3_keep V0 main_v4 (by decide)).trans (val2_main_v4 V0)
theorem val3_main_v5 (V0 : Valuation τ sig (Elt F)) : val3 V0 (no_index (Proc.devRef .tc main_v5)) = rMin (x0 (V0 (Proc.devRef .tc main_arg0))) :=
  (val3_keep V0 main_v5 (by decide)).trans (val2_main_v5 V0)
theorem val3_main_v6 (V0 : Valuation τ sig (Elt F)) : val3 V0 (no_index (Proc.devRef .tc main_v6)) = rP2p (x0 (V0 (Proc.devRef .tc main_arg0))) :=
  (val3_keep V0 main_v6 (by decide)).trans (val2_main_v6 V0)
theorem val3_main_v11 (V0 : Valuation τ sig (Elt F)) : val3 V0 (no_index (Proc.devRef .tc main_v11)) = rRms (x0 (V0 (Proc.devRef .tc main_arg0))) :=
  (val3_keep V0 main_v11 (by decide)).trans (val2_main_v11 V0)
theorem val3_main_v12 (V0 : Valuation τ sig (Elt F)) : val3 V0 (no_index (Proc.devRef .tc main_v12)) = rVar (x0 (V0 (Proc.devRef .tc main_arg0))) :=
  (val3_keep V0 main_v12 (by decide)).trans (val2_main_v12 V0)
set_option maxRecDepth 8192 in
set_option maxHeartbeats 4000000 in
theorem val3_main_v24 (V0 : Valuation τ sig (Elt F)) : val3 V0 (no_index (Proc.devRef .tc main_v24)) = rSkew (x0 (V0 (Proc.devRef .tc main_arg0))) := by
  unfold val3
  simp only [seg2]
  after_results_simp
  simp only [val2_main_v12, val2_main_v3, val2_main_v0] <;> rfl
set_option maxRecDepth 8192 in
set_option maxHeartbeats 4000000 in
theorem val3_main_v32 (V0 : Valuation τ sig (Elt F)) : val3 V0 (no_index (Proc.devRef .tc main_v32)) = rKurt (x0 (V0 (Proc.devRef .tc main_arg0))) := by
  unfold val3
  simp only [seg2]
  after_results_simp
  simp only [val2_main_v12, val2_main_v3, val2_main_v0] <;> rfl
set_option maxRecDepth 8192 in
set_option maxHeartbeats 4000000 in
theorem val3_main_v38 (V0 : Valuation τ sig (Elt F)) : val3 V0 (no_index (Proc.devRef .tc main_v38)) = rShape (x0 (V0 (Proc.devRef .tc main_arg0))) := by
  unfold val3
  simp only [seg2]
  after_results_simp
  simp only [val2_main_v0, val2_main_v11] <;> rfl
set_option maxRecDepth 8192 in
set_option maxHeartbeats 4000000 in
theorem val3_main_v41 (V0 : Valuation τ sig (Elt F)) : val3 V0 (no_index (Proc.devRef .tc main_v41)) = rImpulse (x0 (V0 (Proc.devRef .tc main_arg0))) := by
  unfold val3
  simp only [seg2]
  after_results_simp
  simp only [val2_main_v0] <;> rfl
set_option maxRecDepth 8192 in
set_option maxHeartbeats 4000000 in
theorem val3_main_v42 (V0 : Valuation τ sig (Elt F)) : val3 V0 (no_index (Proc.devRef .tc main_v42)) = Host.absf (rCentered (x0 (V0 (Proc.devRef .tc main_arg0)))) := by
  unfold val3
  simp only [seg2]
  after_results_simp
  simp only [val2_main_v3, val2_main_v0] <;> rfl
set_option maxRecDepth 8192 in
set_option maxHeartbeats 4000000 in
theorem val3_main_v43 (V0 : Valuation τ sig (Elt F)) : val3 V0 (no_index (Proc.devRef .tc main_v43)) = broadcastInDim S16384x1 ![0] bcast_S16384_S16384x1_0 (rStd (x0 (V0 (Proc.devRef .tc main_arg0)))) := by
  unfold val3
  simp only [seg2]
  after_results_simp
  simp only [val2_main_v12] <;> rfl
set_option maxRecDepth 8192 in
set_option maxHeartbeats 4000000 in
theorem val3_main_cst_13 (V0 : Valuation τ sig (Elt F)) : val3 V0 (no_index (Proc.devRef .tc main_cst_13)) = constant S_ .f32 0x40400000#32 := by
  unfold val3
  simp only [seg2]
  after_results_simp
  all_goals rfl

/-- The contents after the first 4 segments. -/
def val4 (V0 : Valuation τ sig (Elt F)) : Valuation τ sig (Elt F) := after seg3 (val3 V0)
/-- The buffers segment 3 writes. -/
abbrev seg3_W : List (Ref sig .tc) := [main_v44, main_v45, main_v46, main_v47, main_v48, main_c_14, main_v49, main_v50, main_v51, main_call1_v0, main_call1_v1, main_v52, main_cst_15, main_v53, main_v54, main_v55, main_cst_16, main_v56, main_cst_17, main_v57, main_v58]
set_option maxRecDepth 8192 in
set_option maxHeartbeats 2000000 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer segment 3 does not write keeps its contents through it. -/
theorem val4_keep (V0 : Valuation τ sig (Elt F)) (r : Ref sig .tc) (h : r ∉ seg3_W) :
    val4 V0 (Proc.devRef .tc r) = val3 V0 (Proc.devRef .tc r) :=
  after_of_writes_sub seg3 _ seg3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_v0 (V0 : Valuation τ sig (Elt F)) : val4 V0 (no_index (Proc.devRef .tc main_v0)) = x0 (V0 (Proc.devRef .tc main_arg0)) :=
  (val4_keep V0 main_v0 (by decide)).trans (val3_main_v0 V0)
theorem val4_main_v3 (V0 : Valuation τ sig (Elt F)) : val4 V0 (no_index (Proc.devRef .tc main_v3)) = rMean (x0 (V0 (Proc.devRef .tc main_arg0))) :=
  (val4_keep V0 main_v3 (by decide)).trans (val3_main_v3 V0)
theorem val4_main_v4 (V0 : Valuation τ sig (Elt F)) : val4 V0 (no_index (Proc.devRef .tc main_v4)) = rMax (x0 (V0 (Proc.devRef .tc main_arg0))) :=
  (val4_keep V0 main_v4 (by decide)).trans (val3_main_v4 V0)
theorem val4_main_v5 (V0 : Valuation τ sig (Elt F)) : val4 V0 (no_index (Proc.devRef .tc main_v5)) = rMin (x0 (V0 (Proc.devRef .tc main_arg0))) :=
  (val4_keep V0 main_v5 (by decide)).trans (val3_main_v5 V0)
theorem val4_main_v6 (V0 : Valuation τ sig (Elt F)) : val4 V0 (no_index (Proc.devRef .tc main_v6)) = rP2p (x0 (V0 (Proc.devRef .tc main_arg0))) :=
  (val4_keep V0 main_v6 (by decide)).trans (val3_main_v6 V0)
theorem val4_main_v11 (V0 : Valuation τ sig (Elt F)) : val4 V0 (no_index (Proc.devRef .tc main_v11)) = rRms (x0 (V0 (Proc.devRef .tc main_arg0))) :=
  (val4_keep V0 main_v11 (by decide)).trans (val3_main_v11 V0)
theorem val4_main_v12 (V0 : Valuation τ sig (Elt F)) : val4 V0 (no_index (Proc.devRef .tc main_v12)) = rVar (x0 (V0 (Proc.devRef .tc main_arg0))) :=
  (val4_keep V0 main_v12 (by decide)).trans (val3_main_v12 V0)
theorem val4_main_v24 (V0 : Valuation τ sig (Elt F)) : val4 V0 (no_index (Proc.devRef .tc main_v24)) = rSkew (x0 (V0 (Proc.devRef .tc main_arg0))) :=
  (val4_keep V0 main_v24 (by decide)).trans (val3_main_v24 V0)
theorem val4_main_v32 (V0 : Valuation τ sig (Elt F)) : val4 V0 (no_index (Proc.devRef .tc main_v32)) = rKurt (x0 (V0 (Proc.devRef .tc main_arg0))) :=
  (val4_keep V0 main_v32 (by decide)).trans (val3_main_v32 V0)
theorem val4_main_v38 (V0 : Valuation τ sig (Elt F)) : val4 V0 (no_index (Proc.devRef .tc main_v38)) = rShape (x0 (V0 (Proc.devRef .tc main_arg0))) :=
  (val4_keep V0 main_v38 (by decide)).trans (val3_main_v38 V0)
theorem val4_main_v41 (V0 : Valuation τ sig (Elt F)) : val4 V0 (no_index (Proc.devRef .tc main_v41)) = rImpulse (x0 (V0 (Proc.devRef .tc main_arg0))) :=
  (val4_keep V0 main_v41 (by decide)).trans (val3_main_v41 V0)
set_option maxRecDepth 8192 in
set_option maxHeartbeats 2100000 in
theorem val4_main_v50 (V0 : Valuation τ sig (Elt F)) : val4 V0 (no_index (Proc.devRef .tc main_v50)) = rOutliers (x0 (V0 (Proc.devRef .tc main_arg0))) := by
  unfold val4
  simp only [seg3]
  after_results_simp
  simp only [val3_main_v43, val3_main_cst_13, val3_main_v42] <;> rfl
set_option maxRecDepth 8192 in
set_option maxHeartbeats 2100000 in
theorem val4_main_v58 (V0 : Valuation τ sig (Elt F)) : val4 V0 (no_index (Proc.devRef .tc main_v58)) = rZcr (x0 (V0 (Proc.devRef .tc main_arg0))) := by
  unfold val4
  simp only [seg3]
  after_results_simp
  simp only [val3_main_v0] <;> rfl

/-- The contents after the first 5 segments. -/
def val5 (V0 : Valuation τ sig (Elt F)) : Valuation τ sig (Elt F) := after seg4 (val4 V0)
/-- The buffers segment 4 writes. -/
abbrev seg4_W : List (Ref sig .tc) := [main_call2_v0, main_call2_v1, main_v59, main_call3_v0, main_call3_v1, main_v60, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v61]
set_option maxRecDepth 8192 in
set_option maxHeartbeats 2000000 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer segment 4 does not write keeps its contents through it. -/
theorem val5_keep (V0 : Valuation τ sig (Elt F)) (r : Ref sig .tc) (h : r ∉ seg4_W) :
    val5 V0 (Proc.devRef .tc r) = val4 V0 (Proc.devRef .tc r) :=
  after_of_writes_sub seg4 _ seg4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_v3 (V0 : Valuation τ sig (Elt F)) : val5 V0 (no_index (Proc.devRef .tc main_v3)) = rMean (x0 (V0 (Proc.devRef .tc main_arg0))) :=
  (val5_keep V0 main_v3 (by decide)).trans (val4_main_v3 V0)
theorem val5_main_v4 (V0 : Valuation τ sig (Elt F)) : val5 V0 (no_index (Proc.devRef .tc main_v4)) = rMax (x0 (V0 (Proc.devRef .tc main_arg0))) :=
  (val5_keep V0 main_v4 (by decide)).trans (val4_main_v4 V0)
theorem val5_main_v5 (V0 : Valuation τ sig (Elt F)) : val5 V0 (no_index (Proc.devRef .tc main_v5)) = rMin (x0 (V0 (Proc.devRef .tc main_arg0))) :=
  (val5_keep V0 main_v5 (by decide)).trans (val4_main_v5 V0)
theorem val5_main_v6 (V0 : Valuation τ sig (Elt F)) : val5 V0 (no_index (Proc.devRef .tc main_v6)) = rP2p (x0 (V0 (Proc.devRef .tc main_arg0))) :=
  (val5_keep V0 main_v6 (by decide)).trans (val4_main_v6 V0)
theorem val5_main_v11 (V0 : Valuation τ sig (Elt F)) : val5 V0 (no_index (Proc.devRef .tc main_v11)) = rRms (x0 (V0 (Proc.devRef .tc main_arg0))) :=
  (val5_keep V0 main_v11 (by decide)).trans (val4_main_v11 V0)
theorem val5_main_v12 (V0 : Valuation τ sig (Elt F)) : val5 V0 (no_index (Proc.devRef .tc main_v12)) = rVar (x0 (V0 (Proc.devRef .tc main_arg0))) :=
  (val5_keep V0 main_v12 (by decide)).trans (val4_main_v12 V0)
theorem val5_main_v24 (V0 : Valuation τ sig (Elt F)) : val5 V0 (no_index (Proc.devRef .tc main_v24)) = rSkew (x0 (V0 (Proc.devRef .tc main_arg0))) :=
  (val5_keep V0 main_v24 (by decide)).trans (val4_main_v24 V0)
theorem val5_main_v32 (V0 : Valuation τ sig (Elt F)) : val5 V0 (no_index (Proc.devRef .tc main_v32)) = rKurt (x0 (V0 (Proc.devRef .tc main_arg0))) :=
  (val5_keep V0 main_v32 (by decide)).trans (val4_main_v32 V0)
theorem val5_main_v38 (V0 : Valuation τ sig (Elt F)) : val5 V0 (no_index (Proc.devRef .tc main_v38)) = rShape (x0 (V0 (Proc.devRef .tc main_arg0))) :=
  (val5_keep V0 main_v38 (by decide)).trans (val4_main_v38 V0)
theorem val5_main_v41 (V0 : Valuation τ sig (Elt F)) : val5 V0 (no_index (Proc.devRef .tc main_v41)) = rImpulse (x0 (V0 (Proc.devRef .tc main_arg0))) :=
  (val5_keep V0 main_v41 (by decide)).trans (val4_main_v41 V0)
theorem val5_main_v50 (V0 : Valuation τ sig (Elt F)) : val5 V0 (no_index (Proc.devRef .tc main_v50)) = rOutliers (x0 (V0 (Proc.devRef .tc main_arg0))) :=
  (val5_keep V0 main_v50 (by decide)).trans (val4_main_v50 V0)
theorem val5_main_v58 (V0 : Valuation τ sig (Elt F)) : val5 V0 (no_index (Proc.devRef .tc main_v58)) = rZcr (x0 (V0 (Proc.devRef .tc main_arg0))) :=
  (val5_keep V0 main_v58 (by decide)).trans (val4_main_v58 V0)
set_option maxRecDepth 8192 in
set_option maxHeartbeats 2900000 in
theorem val5_main_v60 (V0 : Valuation τ sig (Elt F)) : val5 V0 (no_index (Proc.devRef .tc main_v60)) = rD2 (x0 (V0 (Proc.devRef .tc main_arg0))) := by
  unfold val5
  simp only [seg4]
  after_results_simp
  simp only [val4_main_v0] <;> rfl
set_option maxRecDepth 8192 in
set_option maxHeartbeats 2900000 in
theorem val5_main_v61 (V0 : Valuation τ sig (Elt F)) : val5 V0 (no_index (Proc.devRef .tc main_v61)) = rVarD1 (x0 (V0 (Proc.devRef .tc main_arg0))) := by
  unfold val5
  simp only [seg4]
  after_results_simp
  simp only [val4_main_v0] <;> rfl

/-- The contents after the first 6 segments. -/
def val6 (V0 : Valuation τ sig (Elt F)) : Valuation τ sig (Elt F) := after seg5 (val5 V0)
/-- The buffers segment 5 writes. -/
abbrev seg5_W : List (Ref sig .tc) := [main_c_19, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v62]
set_option maxRecDepth 8192 in
set_option maxHeartbeats 2000000 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer segment 5 does not write keeps its contents through it. -/
theorem val6_keep (V0 : Valuation τ sig (Elt F)) (r : Ref sig .tc) (h : r ∉ seg5_W) :
    val6 V0 (Proc.devRef .tc r) = val5 V0 (Proc.devRef .tc r) :=
  after_of_writes_sub seg5 _ seg5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_v3 (V0 : Valuation τ sig (Elt F)) : val6 V0 (no_index (Proc.devRef .tc main_v3)) = rMean (x0 (V0 (Proc.devRef .tc main_arg0))) :=
  (val6_keep V0 main_v3 (by decide)).trans (val5_main_v3 V0)
theorem val6_main_v4 (V0 : Valuation τ sig (Elt F)) : val6 V0 (no_index (Proc.devRef .tc main_v4)) = rMax (x0 (V0 (Proc.devRef .tc main_arg0))) :=
  (val6_keep V0 main_v4 (by decide)).trans (val5_main_v4 V0)
theorem val6_main_v5 (V0 : Valuation τ sig (Elt F)) : val6 V0 (no_index (Proc.devRef .tc main_v5)) = rMin (x0 (V0 (Proc.devRef .tc main_arg0))) :=
  (val6_keep V0 main_v5 (by decide)).trans (val5_main_v5 V0)
theorem val6_main_v6 (V0 : Valuation τ sig (Elt F)) : val6 V0 (no_index (Proc.devRef .tc main_v6)) = rP2p (x0 (V0 (Proc.devRef .tc main_arg0))) :=
  (val6_keep V0 main_v6 (by decide)).trans (val5_main_v6 V0)
theorem val6_main_v11 (V0 : Valuation τ sig (Elt F)) : val6 V0 (no_index (Proc.devRef .tc main_v11)) = rRms (x0 (V0 (Proc.devRef .tc main_arg0))) :=
  (val6_keep V0 main_v11 (by decide)).trans (val5_main_v11 V0)
theorem val6_main_v12 (V0 : Valuation τ sig (Elt F)) : val6 V0 (no_index (Proc.devRef .tc main_v12)) = rVar (x0 (V0 (Proc.devRef .tc main_arg0))) :=
  (val6_keep V0 main_v12 (by decide)).trans (val5_main_v12 V0)
theorem val6_main_v24 (V0 : Valuation τ sig (Elt F)) : val6 V0 (no_index (Proc.devRef .tc main_v24)) = rSkew (x0 (V0 (Proc.devRef .tc main_arg0))) :=
  (val6_keep V0 main_v24 (by decide)).trans (val5_main_v24 V0)
theorem val6_main_v32 (V0 : Valuation τ sig (Elt F)) : val6 V0 (no_index (Proc.devRef .tc main_v32)) = rKurt (x0 (V0 (Proc.devRef .tc main_arg0))) :=
  (val6_keep V0 main_v32 (by decide)).trans (val5_main_v32 V0)
theorem val6_main_v38 (V0 : Valuation τ sig (Elt F)) : val6 V0 (no_index (Proc.devRef .tc main_v38)) = rShape (x0 (V0 (Proc.devRef .tc main_arg0))) :=
  (val6_keep V0 main_v38 (by decide)).trans (val5_main_v38 V0)
theorem val6_main_v41 (V0 : Valuation τ sig (Elt F)) : val6 V0 (no_index (Proc.devRef .tc main_v41)) = rImpulse (x0 (V0 (Proc.devRef .tc main_arg0))) :=
  (val6_keep V0 main_v41 (by decide)).trans (val5_main_v41 V0)
theorem val6_main_v50 (V0 : Valuation τ sig (Elt F)) : val6 V0 (no_index (Proc.devRef .tc main_v50)) = rOutliers (x0 (V0 (Proc.devRef .tc main_arg0))) :=
  (val6_keep V0 main_v50 (by decide)).trans (val5_main_v50 V0)
theorem val6_main_v58 (V0 : Valuation τ sig (Elt F)) : val6 V0 (no_index (Proc.devRef .tc main_v58)) = rZcr (x0 (V0 (Proc.devRef .tc main_arg0))) :=
  (val6_keep V0 main_v58 (by decide)).trans (val5_main_v58 V0)
theorem val6_main_v61 (V0 : Valuation τ sig (Elt F)) : val6 V0 (no_index (Proc.devRef .tc main_v61)) = rVarD1 (x0 (V0 (Proc.devRef .tc main_arg0))) :=
  (val6_keep V0 main_v61 (by decide)).trans (val5_main_v61 V0)
set_option maxRecDepth 8192 in
set_option maxHeartbeats 2300000 in
theorem val6_main_v62 (V0 : Valuation τ sig (Elt F)) : val6 V0 (no_index (Proc.devRef .tc main_v62)) = rVarD2 (x0 (V0 (Proc.devRef .tc main_arg0))) := by
  unfold val6
  simp only [seg5]
  after_results_simp
  simp only [val5_main_v60] <;> rfl

/-- The contents after the first 7 segments. -/
def val7 (V0 : Valuation τ sig (Elt F)) : Valuation τ sig (Elt F) := after seg6 (val6 V0)
/-- The buffers segment 6 writes. -/
abbrev seg6_W : List (Ref sig .tc) := [main_v63, main_v64, main_v65, main_v66, main_v67, main_v68, main_v69, main_v70, main_v71, main_v72, main_v73, main_v74, main_v75, main_v76, main_v77, main_v78, main_v79, main_v80, main_v81]
set_option maxRecDepth 8192 in
set_option maxHeartbeats 2000000 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer segment 6 does not write keeps its contents through it. -/
theorem val7_keep (V0 : Valuation τ sig (Elt F)) (r : Ref sig .tc) (h : r ∉ seg6_W) :
    val7 V0 (Proc.devRef .tc r) = val6 V0 (Proc.devRef .tc r) :=
  after_of_writes_sub seg6 _ seg6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
set_option maxRecDepth 8192 in
set_option maxHeartbeats 1900000 in
theorem val7_main_v67 (V0 : Valuation τ sig (Elt F)) : val7 V0 (no_index (Proc.devRef .tc main_v67)) = broadcastInDim S16384x1 ![0] bcast_S16384_S16384x1_0 (rMean (x0 (V0 (Proc.devRef .tc main_arg0)))) := by
  unfold val7
  simp only [seg6]
  after_results_simp
  simp only [val6_main_v3] <;> rfl
set_option maxRecDepth 8192 in
set_option maxHeartbeats 1900000 in
theorem val7_main_v68 (V0 : Valuation τ sig (Elt F)) : val7 V0 (no_index (Proc.devRef .tc main_v68)) = broadcastInDim S16384x1 ![0] bcast_S16384_S16384x1_0 (rMax (x0 (V0 (Proc.devRef .tc main_arg0)))) := by
  unfold val7
  simp only [seg6]
  after_results_simp
  simp only [val6_main_v4] <;> rfl
set_option maxRecDepth 8192 in
set_option maxHeartbeats 1900000 in
theorem val7_main_v69 (V0 : Valuation τ sig (Elt F)) : val7 V0 (no_index (Proc.devRef .tc main_v69)) = broadcastInDim S16384x1 ![0] bcast_S16384_S16384x1_0 (rMin (x0 (V0 (Proc.devRef .tc main_arg0)))) := by
  unfold val7
  simp only [seg6]
  after_results_simp
  simp only [val6_main_v5] <;> rfl
set_option maxRecDepth 8192 in
set_option maxHeartbeats 1900000 in
theorem val7_main_v70 (V0 : Valuation τ sig (Elt F)) : val7 V0 (no_index (Proc.devRef .tc main_v70)) = broadcastInDim S16384x1 ![0] bcast_S16384_S16384x1_0 (rP2p (x0 (V0 (Proc.devRef .tc main_arg0)))) := by
  unfold val7
  simp only [seg6]
  after_results_simp
  simp only [val6_main_v6] <;> rfl
set_option maxRecDepth 8192 in
set_option maxHeartbeats 1900000 in
theorem val7_main_v71 (V0 : Valuation τ sig (Elt F)) : val7 V0 (no_index (Proc.devRef .tc main_v71)) = broadcastInDim S16384x1 ![0] bcast_S16384_S16384x1_0 (rVar (x0 (V0 (Proc.devRef .tc main_arg0)))) := by
  unfold val7
  simp only [seg6]
  after_results_simp
  simp only [val6_main_v12] <;> rfl
set_option maxRecDepth 8192 in
set_option maxHeartbeats 1900000 in
theorem val7_main_v72 (V0 : Valuation τ sig (Elt F)) : val7 V0 (no_index (Proc.devRef .tc main_v72)) = broadcastInDim S16384x1 ![0] bcast_S16384_S16384x1_0 (rRms (x0 (V0 (Proc.devRef .tc main_arg0)))) := by
  unfold val7
  simp only [seg6]
  after_results_simp
  simp only [val6_main_v11] <;> rfl
set_option maxRecDepth 8192 in
set_option maxHeartbeats 1900000 in
theorem val7_main_v73 (V0 : Valuation τ sig (Elt F)) : val7 V0 (no_index (Proc.devRef .tc main_v73)) = broadcastInDim S16384x1 ![0] bcast_S16384_S16384x1_0 (rSkew (x0 (V0 (Proc.devRef .tc main_arg0)))) := by
  unfold val7
  simp only [seg6]
  after_results_simp
  simp only [val6_main_v24] <;> rfl
set_option maxRecDepth 8192 in
set_option maxHeartbeats 1900000 in
theorem val7_main_v74 (V0 : Valuation τ sig (Elt F)) : val7 V0 (no_index (Proc.devRef .tc main_v74)) = broadcastInDim S16384x1 ![0] bcast_S16384_S16384x1_0 (rKurt (x0 (V0 (Proc.devRef .tc main_arg0)))) := by
  unfold val7
  simp only [seg6]
  after_results_simp
  simp only [val6_main_v32] <;> rfl
set_option maxRecDepth 8192 in
set_option maxHeartbeats 1900000 in
theorem val7_main_v75 (V0 : Valuation τ sig (Elt F)) : val7 V0 (no_index (Proc.devRef .tc main_v75)) = broadcastInDim S16384x1 ![0] bcast_S16384_S16384x1_0 (rShape (x0 (V0 (Proc.devRef .tc main_arg0)))) := by
  unfold val7
  simp only [seg6]
  after_results_simp
  simp only [val6_main_v38] <;> rfl
set_option maxRecDepth 8192 in
set_option maxHeartbeats 1900000 in
theorem val7_main_v76 (V0 : Valuation τ sig (Elt F)) : val7 V0 (no_index (Proc.devRef .tc main_v76)) = broadcastInDim S16384x1 ![0] bcast_S16384_S16384x1_0 (rImpulse (x0 (V0 (Proc.devRef .tc main_arg0)))) := by
  unfold val7
  simp only [seg6]
  after_results_simp
  simp only [val6_main_v41] <;> rfl
set_option maxRecDepth 8192 in
set_option maxHeartbeats 1900000 in
theorem val7_main_v77 (V0 : Valuation τ sig (Elt F)) : val7 V0 (no_index (Proc.devRef .tc main_v77)) = broadcastInDim S16384x1 ![0] bcast_S16384_S16384x1_0 (rOutliers (x0 (V0 (Proc.devRef .tc main_arg0)))) := by
  unfold val7
  simp only [seg6]
  after_results_simp
  simp only [val6_main_v50] <;> rfl
set_option maxRecDepth 8192 in
set_option maxHeartbeats 1900000 in
theorem val7_main_v78 (V0 : Valuation τ sig (Elt F)) : val7 V0 (no_index (Proc.devRef .tc main_v78)) = broadcastInDim S16384x1 ![0] bcast_S16384_S16384x1_0 (rZcr (x0 (V0 (Proc.devRef .tc main_arg0)))) := by
  unfold val7
  simp only [seg6]
  after_results_simp
  simp only [val6_main_v58] <;> rfl
set_option maxRecDepth 8192 in
set_option maxHeartbeats 1900000 in
theorem val7_main_v79 (V0 : Valuation τ sig (Elt F)) : val7 V0 (no_index (Proc.devRef .tc main_v79)) = broadcastInDim S16384x1 ![0] bcast_S16384_S16384x1_0 (rVar (x0 (V0 (Proc.devRef .tc main_arg0)))) := by
  unfold val7
  simp only [seg6]
  after_results_simp
  simp only [val6_main_v12] <;> rfl
set_option maxRecDepth 8192 in
set_option maxHeartbeats 1900000 in
theorem val7_main_v80 (V0 : Valuation τ sig (Elt F)) : val7 V0 (no_index (Proc.devRef .tc main_v80)) = broadcastInDim S16384x1 ![0] bcast_S16384_S16384x1_0 (rMob (x0 (V0 (Proc.devRef .tc main_arg0)))) := by
  unfold val7
  simp only [seg6]
  after_results_simp
  simp only [val6_main_v12, val6_main_v61] <;> rfl
set_option maxRecDepth 8192 in
set_option maxHeartbeats 1900000 in
theorem val7_main_v81 (V0 : Valuation τ sig (Elt F)) : val7 V0 (no_index (Proc.devRef .tc main_v81)) = broadcastInDim S16384x1 ![0] bcast_S16384_S16384x1_0 (rCompl (x0 (V0 (Proc.devRef .tc main_arg0)))) := by
  unfold val7
  simp only [seg6]
  after_results_simp
  simp only [val6_main_v61, val6_main_v62] <;> rfl

/-- The contents after the first 8 segments. -/
def val8 (V0 : Valuation τ sig (Elt F)) : Valuation τ sig (Elt F) := after seg7 (val7 V0)
/-- The buffers segment 7 writes. -/
abbrev seg7_W : List (Ref sig .tc) := [main_v82]
set_option maxRecDepth 8192 in
set_option maxHeartbeats 2000000 in
theorem seg7_writes : (seg7 : List (HloOp τ sig (Elt F))).Forall fun op => op.writes ⊆ (seg7_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer segment 7 does not write keeps its contents through it. -/
theorem val8_keep (V0 : Valuation τ sig (Elt F)) (r : Ref sig .tc) (h : r ∉ seg7_W) :
    val8 V0 (Proc.devRef .tc r) = val7 V0 (Proc.devRef .tc r) :=
  after_of_writes_sub seg7 _ seg7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
set_option maxRecDepth 8192 in
set_option maxHeartbeats 100000 in
theorem val8_main_v82 (V0 : Valuation τ sig (Elt F)) : val8 V0 (no_index (Proc.devRef .tc main_v82)) = out (V0 (Proc.devRef .tc main_arg0)) := by
  unfold val8
  simp only [seg7, after_cons, after_nil, nary_result']
  show cat15 (val7 V0 (Proc.devRef .tc main_v67)) (val7 V0 (Proc.devRef .tc main_v68)) (val7 V0 (Proc.devRef .tc main_v69)) (val7 V0 (Proc.devRef .tc main_v70)) (val7 V0 (Proc.devRef .tc main_v71)) (val7 V0 (Proc.devRef .tc main_v72)) (val7 V0 (Proc.devRef .tc main_v73)) (val7 V0 (Proc.devRef .tc main_v74)) (val7 V0 (Proc.devRef .tc main_v75)) (val7 V0 (Proc.devRef .tc main_v76)) (val7 V0 (Proc.devRef .tc main_v77)) (val7 V0 (Proc.devRef .tc main_v78)) (val7 V0 (Proc.devRef .tc main_v79)) (val7 V0 (Proc.devRef .tc main_v80)) (val7 V0 (Proc.devRef .tc main_v81)) = _
  simp only [val7_main_v67, val7_main_v68, val7_main_v69, val7_main_v70, val7_main_v71, val7_main_v72, val7_main_v73, val7_main_v74, val7_main_v75, val7_main_v76, val7_main_v77, val7_main_v78, val7_main_v79, val7_main_v80, val7_main_v81]
  rfl

/-- The fold over the whole list is the fold segment by segment. -/
theorem after_ops (V0 : Valuation τ sig (Elt F)) : after ops V0 = val8 V0 := by
  simp only [ops, after_append]
  rfl

/-- After the operations the result buffer holds `out` of the argument's contents. -/
theorem out_eq (V : Valuation τ sig (Elt F)) :
    after ops V (main_v82 : DevRef τ sig) = out (V (main_arg0 : DevRef τ sig)) := by
  rw [after_ops]; exact val8_main_v82 V

/-- No operation writes the argument. -/
theorem arg0_eq (V : Valuation τ sig (Elt F)) :
    after ops V (main_arg0 : DevRef τ sig) = V (main_arg0 : DevRef τ sig) := by
  rw [after_ops]; exact val8_main_arg0 V

/-- On every device, for any float values, from any memory with zero counters: every weakly fair execution of @main
    terminates with the result at `out` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v82) = out (m ((c.tc : Thread nD τ).loc main_arg0))
      ∧ r.2.mem ((c.tc : Thread nD τ).loc main_arg0) = m ((c.tc : Thread nD τ).loc main_arg0) :=
  (θ_run defs _ _).mono (fun _ h c => ⟨(h c main_v82).trans (out_eq (launchContents m c)),
      (h c main_arg0).trans (arg0_eq (launchContents m c))⟩)
    (run_main m ρ)

end Cert.ReferenceIdeal.RefRun

end
-- ==== Proof.RefRows.lean ====
/-
  The reference's array operations read at a row.

  The reference works on whole 16384-row arrays: a reduction along the samples gives one value per row, a
  broadcast repeats a row's value along the samples, a slice shifts the sample index, and the result is the
  fifteen one-column arrays laid side by side. Read at row `r`, a row reduction is the sum (or the fold of max,
  min, or the 32-bit sum) of that row's entries from the initial value, a broadcast is its operand's entry of row
  `r`, a slice is its operand at the shifted sample, and column `j` of the result is piece `j`.
  The statements hold for any proofs of the shape facts.
-/
import proofs.«118352_j60224031425109_2_alg».proof.Proof.Gen.ReferenceIdeal
import proofs.«118352_j60224031425109_2_alg».proof.Proof.RowStats
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

namespace Cert.ReferenceIdeal.RRead

open Cert.ReferenceIdeal Cert.ReferenceIdeal.Gen Idealize.ShloMosaic Idealize.ShloMosaic.ValueIdx Cert.RowStats

variable {α : Type}

/-! ### Row reductions -/

/-- Row `r` with sample coordinate `k` inserted is the index (r, k). -/
theorem lift_row {b : ℕ} (h : (⟨2, ![16384, b]⟩ : Shape).Reduces [1] ⟨1, ![16384]⟩) (r : Fin 16384) (k : Fin b) :
    h.lift (ix1 r) k = ix2 r k := by
  funext a
  apply Fin.ext
  match a with
  | ⟨0, _⟩ => rfl
  | ⟨1, _⟩ => rfl

/-- A sum along the samples from a constant initial value, at row `r`: that value plus the sum of the row. -/
theorem hsum_row {b : ℕ} (x : FVec Ideal ⟨2, ![16384, b]⟩ .f32) (w : BitVec 32)
    (h' : (⟨2, ![16384, b]⟩ : Shape).ReducesTo [1] ⟨1, ![16384]⟩)
    (hR : (⟨2, ![16384, b]⟩ : Shape).Reduces [1] ⟨1, ![16384]⟩) (hu : 0 < S_.numel) (r : Fin 16384) :
    Host.reduceAdd (F := Ideal) x (constant (F := Ideal) S_ .f32 w) h' hu (ix1 r)
      = w32 w + ∑ k : Fin b, x (ix2 r k) := by
  rw [hostReduceAdd_apply, Ideal.hostReduceAdd_single h' hR]
  exact congrArg (fun s => w32 w + s) (Finset.sum_congr rfl fun k _ => congrArg x (lift_row hR r k))

/-- A fold of a commutative and associative operation along the samples from a constant initial value, at row
    `r`: the fold over the row from that value. -/
theorem hfold_row {b : ℕ} (f : α → α → α) [Std.Commutative f] [Std.Associative f]
    (x : (⟨2, ![16384, b]⟩ : Shape).Idx → α) (init : S_.Idx → α)
    (h' : (⟨2, ![16384, b]⟩ : Shape).ReducesTo [1] ⟨1, ![16384]⟩)
    (hR : (⟨2, ![16384, b]⟩ : Shape).Reduces [1] ⟨1, ![16384]⟩) (hu : 0 < S_.numel) (r : Fin 16384) :
    Host.reduce f x init h' hu (ix1 r)
      = (Finset.univ : Finset (Fin b)).fold f (init (Shape.Idx.first hu)) (fun k => x (ix2 r k)) := by
  rw [Host.reduce_eq_fold_single f x init h' hR hu (ix1 r)]
  exact congrArg (fun g => Finset.fold f (init (Shape.Idx.first hu)) g Finset.univ)
    (funext fun k => congrArg x (lift_row hR r k))

variable (r : Fin 16384)

theorem hsum2560 (x : FVec Ideal S16384x2560 .f32) (h' : S16384x2560.ReducesTo [1] S16384) (hu : 0 < S_.numel) :
    Host.reduceAdd (F := Ideal) x (constant (F := Ideal) S_ .f32 0x00000000#32) h' hu (ix1 r)
      = c0 + ∑ k : Fin 2560, x (ix2 r k) :=
  hsum_row x _ h' (by decide) hu r

theorem hsum2559 (x : FVec Ideal S16384x2559 .f32) (h' : S16384x2559.ReducesTo [1] S16384) (hu : 0 < S_.numel) :
    Host.reduceAdd (F := Ideal) x (constant (F := Ideal) S_ .f32 0x00000000#32) h' hu (ix1 r)
      = c0 + ∑ k : Fin 2559, x (ix2 r k) :=
  hsum_row x _ h' (by decide) hu r

theorem hsum2558 (x : FVec Ideal S16384x2558 .f32) (h' : S16384x2558.ReducesTo [1] S16384) (hu : 0 < S_.numel) :
    Host.reduceAdd (F := Ideal) x (constant (F := Ideal) S_ .f32 0x00000000#32) h' hu (ix1 r)
      = c0 + ∑ k : Fin 2558, x (ix2 r k) :=
  hsum_row x _ h' (by decide) hu r

theorem hmax2560 (x : FVec Ideal S16384x2560 .f32) (h' : S16384x2560.ReducesTo [1] S16384) (hu : 0 < S_.numel) :
    Host.reduce (FloatOps.maximumf (F := Ideal) (φ := .f32)) x (constant (F := Ideal) S_ .f32 0xFF800000#32) h' hu (ix1 r)
      = (Finset.univ : Finset (Fin 2560)).fold max cNegInf (fun k => x (ix2 r k)) :=
  hfold_row (FloatOps.maximumf (F := Ideal) (φ := .f32)) x _ h' (by decide) hu r

theorem hmin2560 (x : FVec Ideal S16384x2560 .f32) (h' : S16384x2560.ReducesTo [1] S16384) (hu : 0 < S_.numel) :
    Host.reduce (FloatOps.minimumf (F := Ideal) (φ := .f32)) x (constant (F := Ideal) S_ .f32 0x7F800000#32) h' hu (ix1 r)
      = (Finset.univ : Finset (Fin 2560)).fold min cPosInf (fun k => x (ix2 r k)) :=
  hfold_row (FloatOps.minimumf (F := Ideal) (φ := .f32)) x _ h' (by decide) hu r

theorem haddi2560 (w : IVec S16384x2560 32) (h' : S16384x2560.ReducesTo [1] S16384) (hu : 0 < S_.numel) :
    Host.reduce IntOp.addi w (constantI S_ 32 0#32) h' hu (ix1 r)
      = (Finset.univ : Finset (Fin 2560)).fold IntOp.addi (0#32) (fun k => w (ix2 r k)) :=
  hfold_row IntOp.addi w _ h' (by decide) hu r

/-! ### Broadcasts

The index maps are written over `Fin 0`, `Fin 1`, `Fin 2` (the ranks as numerals), the form a term takes once its
arguments have been simplified. -/

/-- A scalar broadcast to any shape, along any (empty) index map, reads the scalar. -/
theorem bcast_S_apply {T : Shape} (dims : Fin S_.rank → Fin T.rank) (h : S_.BroadcastsInDim T dims)
    (v : S_.Idx → α) (j : T.Idx) : broadcastInDim T dims h v j = v ix0 := by
  unfold broadcastInDim
  exact congrArg v (funext fun a => a.elim0)

/-- A scalar broadcast to the rows reads the scalar. -/
theorem bcast_S_S16384_apply (h : S_.BroadcastsInDim S16384 (![] : Fin 0 → Fin 1)) (v : S_.Idx → α) :
    broadcastInDim S16384 (![] : Fin 0 → Fin 1) h v (ix1 r) = v ix0 :=
  bcast_S_apply _ h v _

/-- A scalar broadcast to a one-column array reads the scalar. -/
theorem bcast_S_S16384x1_apply (h : S_.BroadcastsInDim S16384x1 (![] : Fin 0 → Fin 2)) (v : S_.Idx → α)
    (u : Fin 1) : broadcastInDim S16384x1 (![] : Fin 0 → Fin 2) h v (ix2 r u) = v ix0 :=
  bcast_S_apply _ h v _

/-- A scalar broadcast to the 2559-sample array reads the scalar. -/
theorem bcast_S_S16384x2559_apply (h : S_.BroadcastsInDim S16384x2559 (![] : Fin 0 → Fin 2))
    (v : S_.Idx → α) (k : Fin 2559) : broadcastInDim S16384x2559 (![] : Fin 0 → Fin 2) h v (ix2 r k) = v ix0 :=
  bcast_S_apply _ h v _

/-- One value per row kept as a one-column array: entry (r, 0) is the value of row `r`. -/
theorem bcast_S16384_S16384x1_apply (h : S16384.BroadcastsInDim S16384x1 (![0] : Fin 1 → Fin 2))
    (v : S16384.Idx → α) (u : Fin 1) :
    broadcastInDim S16384x1 (![0] : Fin 1 → Fin 2) h v (ix2 r u) = v (ix1 r) := by
  refine broadcastInDim_apply _ h v (ix2 r u) (ix1 r) fun a => ?_
  match a with
  | ⟨0, _⟩ => rfl

/-- A one-column array broadcast along `b` samples: entry (r, k) is the column's entry of row `r`. -/
theorem bcast_col_apply {b : ℕ}
    (h : (⟨2, ![16384, 1]⟩ : Shape).BroadcastsInDim ⟨2, ![16384, b]⟩ (![0, 1] : Fin 2 → Fin 2))
    (v : (⟨2, ![16384, 1]⟩ : Shape).Idx → α) (r : Fin 16384) (k : Fin b) :
    broadcastInDim ⟨2, ![16384, b]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ => rfl
  | ⟨1, _⟩ => rfl

theorem bcast_S16384x1_S16384x2560_apply
    (h : S16384x1.BroadcastsInDim S16384x2560 (![0, 1] : Fin 2 → Fin 2)) (v : S16384x1.Idx → α) (k : Fin 2560) :
    broadcastInDim S16384x2560 (![0, 1] : Fin 2 → Fin 2) h v (ix2 r k) = v (ix2 r (0 : Fin 1)) :=
  bcast_col_apply h v r k

theorem bcast_S16384x1_S16384x2559_apply
    (h : S16384x1.BroadcastsInDim S16384x2559 (![0, 1] : Fin 2 → Fin 2)) (v : S16384x1.Idx → α) (k : Fin 2559) :
    broadcastInDim S16384x2559 (![0, 1] : Fin 2 → Fin 2) h v (ix2 r k) = v (ix2 r (0 : Fin 1)) :=
  bcast_col_apply h v r k

theorem bcast_S16384x1_S16384x2558_apply
    (h : S16384x1.BroadcastsInDim S16384x2558 (![0, 1] : Fin 2 → Fin 2)) (v : S16384x1.Idx → α) (k : Fin 2558) :
    broadcastInDim S16384x2558 (![0, 1] : Fin 2 → Fin 2) h v (ix2 r k) = v (ix2 r (0 : Fin 1)) :=
  bcast_col_apply h v r k

/-! ### Slices of a row: samples 1 … and samples … n − 1 of a row of n + 1 -/

theorem slice2559_up (v : S16384x2560.Idx → α) (h : S16384x2560.Slices ![0, 1] S16384x2559) (k : Fin 2559) :
    extractStridedSlice S16384x2559 ![0, 1] v h (ix2 r k) = v (ix2 r (up k)) :=
  extractStridedSlice_apply _ v _ _ _ (fun a => by
    match a with
    | ⟨0, _⟩ => show r.val = 0 + r.val; omega
    | ⟨1, _⟩ => show k.val + 1 = 1 + k.val; omega)

theorem slice2559_dn (v : S16384x2560.Idx → α) (h : S16384x2560.Slices ![0, 0] S16384x2559) (k : Fin 2559) :
    extractStridedSlice S16384x2559 ![0, 0] v h (ix2 r k) = v (ix2 r (dn k)) :=
  extractStridedSlice_apply _ v _ _ _ (fun a => by
    match a with
    | ⟨0, _⟩ => show r.val = 0 + r.val; omega
    | ⟨1, _⟩ => show k.val = 0 + k.val; omega)

theorem slice2558_up (v : S16384x2559.Idx → α) (h : S16384x2559.Slices ![0, 1] S16384x2558) (k : Fin 2558) :
    extractStridedSlice S16384x2558 ![0, 1] v h (ix2 r k) = v (ix2 r (up k)) :=
  extractStridedSlice_apply _ v _ _ _ (fun a => by
    match a with
    | ⟨0, _⟩ => show r.val = 0 + r.val; omega
    | ⟨1, _⟩ => show k.val + 1 = 1 + k.val; omega)

theorem slice2558_dn (v : S16384x2559.Idx → α) (h : S16384x2559.Slices ![0, 0] S16384x2558) (k : Fin 2558) :
    extractStridedSlice S16384x2558 ![0, 0] v h (ix2 r k) = v (ix2 r (dn k)) :=
  extractStridedSlice_apply _ v _ _ _ (fun a => by
    match a with
    | ⟨0, _⟩ => show r.val = 0 + r.val; omega
    | ⟨1, _⟩ => show k.val = 0 + k.val; omega)

/-! ### The argument with its unit axis dropped -/

theorem reshape_apply (a : S16384x2560x1.Idx → α) (h : S16384x2560x1.ShapeCasts S16384x2560) (k : Fin 2560) :
    shapeCast S16384x2560 a h (ix2 r k) = a (ix3 r k (0 : Fin 1)) := by
  refine shapeCast_apply a h (ix2 r k) (ix3 r k (0 : Fin 1)) ?_
  rw [Shape.rowMajor_val_three, Shape.rowMajor_val_two]
  show (r.val * 2560 + k.val) * 1 + 0 = r.val * 2560 + k.val
  omega

/-! ### The fifteen one-column pieces laid side by side -/

/-- Piece `n` of fifteen. -/
abbrev pick15 (u0 u1 u2 u3 u4 u5 u6 u7 u8 u9 u10 u11 u12 u13 u14 : S16384x1.Idx → α) :
    Fin 15 → (S16384x1.Idx → α) := fun n => match n with
  | ⟨0, _⟩ => u0 | ⟨1, _⟩ => u1 | ⟨2, _⟩ => u2 | ⟨3, _⟩ => u3 | ⟨4, _⟩ => u4 | ⟨5, _⟩ => u5 | ⟨6, _⟩ => u6
  | ⟨7, _⟩ => u7 | ⟨8, _⟩ => u8 | ⟨9, _⟩ => u9 | ⟨10, _⟩ => u10 | ⟨11, _⟩ => u11 | ⟨12, _⟩ => u12
  | ⟨13, _⟩ => u13 | ⟨14, _⟩ => u14

/-- Column `j` of the fifteen pieces laid side by side, at row `r`: piece `j` at (r, 0). -/
theorem concat15_apply (u0 u1 u2 u3 u4 u5 u6 u7 u8 u9 u10 u11 u12 u13 u14 : S16384x1.Idx → α)
    (h : Shape.Concatenates [S16384x1, S16384x1, S16384x1, S16384x1, S16384x1, S16384x1, S16384x1, S16384x1,
      S16384x1, S16384x1, S16384x1, S16384x1, S16384x1, S16384x1, S16384x1] S16384x15 1) (j : Fin 15) :
    concatenate S16384x15 1 [⟨S16384x1, u0⟩, ⟨S16384x1, u1⟩, ⟨S16384x1, u2⟩, ⟨S16384x1, u3⟩, ⟨S16384x1, u4⟩,
        ⟨S16384x1, u5⟩, ⟨S16384x1, u6⟩, ⟨S16384x1, u7⟩, ⟨S16384x1, u8⟩, ⟨S16384x1, u9⟩, ⟨S16384x1, u10⟩,
        ⟨S16384x1, u11⟩, ⟨S16384x1, u12⟩, ⟨S16384x1, u13⟩, ⟨S16384x1, u14⟩] h (ix2 r j)
      = pick15 u0 u1 u2 u3 u4 u5 u6 u7 u8 u9 u10 u11 u12 u13 u14 j (ix2 r (0 : Fin 1)) := by
  show concatenate S16384x15 1 (List.ofFn fun n : Fin 15 =>
    (⟨S16384x1, pick15 u0 u1 u2 u3 u4 u5 u6 u7 u8 u9 u10 u11 u12 u13 u14 n⟩ : (s : Shape) × (s.Idx → α))) _ (ix2 r j) = _
  exact concatenate_ofFn_unit_apply (t := S16384x15) (s₁ := S16384x1) (1 : Fin 2)
    (pick15 u0 u1 u2 u3 u4 u5 u6 u7 u8 u9 u10 u11 u12 u13 u14) _ rfl rfl (ix2 r j) j rfl (ix2 r (0 : Fin 1))
    (fun b hb => by
      match b with
      | ⟨0, _⟩ => rfl
      | ⟨1, _⟩ => exact absurd rfl hb)

/-! ### Scalars -/

/-- A constant scalar's one entry is the value of its word. -/
theorem const_S_apply (w : BitVec 32) (i : S_.Idx) : constant (F := Ideal) S_ .f32 w i = w32 w := rfl

/-- A constant 32-bit scalar's one entry is its word. -/
theorem constI_S_apply (w : BitVec 32) (i : S_.Idx) : constantI S_ 32 w i = w := rfl

/-- The integer scalar one converted to a float. -/
theorem sitofp_one_apply (i : S_.Idx) :
    sitofp (F := Ideal) .f32 (constantI S_ 32 1#32) i = (((1#32 : BitVec 32).toInt : ℝ) : EReal) := rfl

end Cert.ReferenceIdeal.RRead

end
-- ==== Proof.RefReadVar.lean ====
/-
  The reference's variance-type stages and its zero-crossing rate, read at a row.

  At row `r` the guarded variance of a 16384 × n array is the row statistic `R.varOf` of that row: the guard
  compares the same scalar, the row's own mean is the row sum over the count, the centred squares are summed
  from the zero word, and the other branch is the same word. The first and second differences of the array are the
  differences of the row, so their variances are the row's. The zero-crossing rate sums, over neighbouring samples
  of the row, the flag of the signs' difference being non-zero.
-/
import proofs.«118352_j60224031425109_2_alg».proof.Proof.RefRun
import proofs.«118352_j60224031425109_2_alg».proof.Proof.RefRows

noncomputable section

namespace Cert.ReferenceIdeal.RRead

open Cert.ReferenceIdeal Cert.ReferenceIdeal.Gen Cert.ReferenceIdeal.RefRun Idealize.ShloMosaic Idealize.ShloMosaic.ValueIdx
open Cert.RowStats

/-! Pointwise operations read at an index. -/
private theorem select_at {s : Shape} {β : Type} (c : IVec s 1) (a b : s.Idx → β) (i : s.Idx) :
    select c a b i = Scalar.select (c i) (a i) (b i) := rfl
private theorem cmpf_at {s : Shape} (p : CmpFPredicate) (a b : FVec Ideal s .f32) (i : s.Idx) :
    cmpf p a b i = Ideal.cmp p (a i) (b i) := rfl
private theorem subf_at {s : Shape} (a b : FVec Ideal s .f32) (i : s.Idx) : subf a b i = a i - b i := rfl
private theorem mulf_at {s : Shape} (a b : FVec Ideal s .f32) (i : s.Idx) : mulf a b i = a i * b i := rfl
private theorem hostDivf_at {s : Shape} (a b : FVec Ideal s .f32) (i : s.Idx) :
    Host.divf a b i = Ideal.div (a i) (b i) := rfl
private theorem hostSign_at {s : Shape} (a : FVec Ideal s .f32) (i : s.Idx) : Host.sign a i = Ideal.sign (a i) := rfl
private theorem uitofp_at {s : Shape} (v : IVec s 1) (i : s.Idx) :
    (uitofp (F := Ideal) .f32 v) i = (((v i).toNat : ℝ) : EReal) := rfl
private theorem const_at (w : BitVec 32) (i : S_.Idx) : constant (F := Ideal) S_ .f32 w i = Ideal.ofBits .f32 w := rfl

variable (r : Fin 16384) (x : FVec Ideal S16384x2560 .f32)

/-- The first difference of the array at (r, k) is the first difference of row `r` at `k`. -/
theorem rD1_apply (k : Fin 2559) : rD1 (F := Ideal) x (ix2 r k) = R.d1 (fun k => x (ix2 r k)) k := by
  simp only [rD1, R.d1, diff, subf_at, slice2559_up, slice2559_dn]

/-- The second difference of the array at (r, k) is the second difference of row `r` at `k`. -/
theorem rD2_apply (k : Fin 2558) : rD2 (F := Ideal) x (ix2 r k) = R.d2 (fun k => x (ix2 r k)) k := by
  simp only [rD2, R.d2, diff, subf_at, slice2558_up, slice2558_dn, rD1_apply]

/-- The guarded variance of the array at row `r` is the reference variance of row `r`. -/
theorem rVar_apply : rVar (F := Ideal) x (ix1 r) = R.var (fun k : Fin 2560 => x (ix2 r k)) := by
  simp only [rVar, R.var, R.varOf, select_at, cmpf_at, subf_at, mulf_at, hostDivf_at, const_at, sitofp_one_apply,
    bcast_S_apply, bcast_S16384_S16384x1_apply, bcast_S16384x1_S16384x2560_apply, hsum2560, id_eq,
    c0, c2560, cNaN, w32]

/-- The guarded variance of the first difference at row `r` is the reference variance of the row's first difference. -/
theorem rVarD1_apply : rVarD1 (F := Ideal) x (ix1 r) = R.varD1 (fun k : Fin 2560 => x (ix2 r k)) := by
  simp only [rVarD1, R.varD1, R.varOf, select_at, cmpf_at, subf_at, mulf_at, hostDivf_at, const_at, sitofp_one_apply,
    bcast_S_apply, bcast_S16384_S16384x1_apply, bcast_S16384x1_S16384x2559_apply, hsum2559, id_eq, rD1_apply,
    c0, c2559, cNaN, w32]

/-- The guarded variance of the second difference at row `r` is the reference variance of the row's second
    difference. -/
theorem rVarD2_apply : rVarD2 (F := Ideal) x (ix1 r) = R.varD2 (fun k : Fin 2560 => x (ix2 r k)) := by
  simp only [rVarD2, R.varD2, R.varOf, select_at, cmpf_at, subf_at, mulf_at, hostDivf_at, const_at, sitofp_one_apply,
    bcast_S_apply, bcast_S16384_S16384x1_apply, bcast_S16384x1_S16384x2558_apply, hsum2558, id_eq, rD2_apply,
    c0, c2558, cNaN, w32]

/-- The zero-crossing rate of the array at row `r` is the reference zero-crossing rate of row `r`. -/
theorem rZcr_apply : rZcr (F := Ideal) x (ix1 r) = R.zcr (fun k : Fin 2560 => x (ix2 r k)) := by
  simp only [rZcr, R.zcr, flagU, cmpf_at, subf_at, hostDivf_at, hostSign_at, uitofp_at, const_at,
    bcast_S_apply, slice2559_up, slice2559_dn, hsum2559, c0, c5120, w32]

end Cert.ReferenceIdeal.RRead

end
-- ==== Proof.RefReadMom.lean ====
/-
  The reference's moment-type stages, its outlier count and its Hjorth parameters, read at a row.

  At row `r` the standard deviation is the root of the row's variance, the centred array is the row less its mean,
  the skewness and kurtosis are the sums of the centred row's third and fourth powers over the count and over the
  powers of the standard deviation, the outlier count is the 32-bit sum over the row of the flags of the centred
  sample's absolute value exceeding three standard deviations, and the mobility and complexity are roots of
  quotients of the variances of the row and of its differences.
-/
import proofs.«118352_j60224031425109_2_alg».proof.Proof.RefReadVar

noncomputable section

namespace Cert.ReferenceIdeal.RRead

open Cert.ReferenceIdeal Cert.ReferenceIdeal.Gen Cert.ReferenceIdeal.RefRun Idealize.ShloMosaic Idealize.ShloMosaic.ValueIdx
open Cert.RowStats

/-! Pointwise operations read at an index. -/
private theorem cmpf_at {s : Shape} (p : CmpFPredicate) (a b : FVec Ideal s .f32) (i : s.Idx) :
    cmpf p a b i = Ideal.cmp p (a i) (b i) := rfl
private theorem subf_at {s : Shape} (a b : FVec Ideal s .f32) (i : s.Idx) : subf a b i = a i - b i := rfl
private theorem mulf_at {s : Shape} (a b : FVec Ideal s .f32) (i : s.Idx) : mulf a b i = a i * b i := rfl
private theorem hostDivf_at {s : Shape} (a b : FVec Ideal s .f32) (i : s.Idx) :
    Host.divf a b i = Ideal.div (a i) (b i) := rfl
private theorem hostSqrt_at {s : Shape} (a : FVec Ideal s .f32) (i : s.Idx) : Host.sqrt a i = Ideal.sqrt (a i) := rfl
private theorem hostAbsf_at {s : Shape} (a : FVec Ideal s .f32) (i : s.Idx) : Host.absf a i = max (a i) (-(a i)) := rfl
private theorem sitofp_at {s : Shape} (v : IVec s 32) (i : s.Idx) :
    (sitofp (F := Ideal) .f32 v) i = (((v i).toInt : ℝ) : EReal) := rfl
private theorem extui_at {s : Shape} (v : IVec s 1) (h : 1 < 32) (i : s.Idx) : extui 32 v h i = (v i).setWidth 32 := rfl
private theorem const_at (w : BitVec 32) (i : S_.Idx) : constant (F := Ideal) S_ .f32 w i = Ideal.ofBits .f32 w := rfl

variable (r : Fin 16384) (x : FVec Ideal S16384x2560 .f32)

/-- The row means at row `r`: the reference mean of row `r`. -/
private theorem rMean_at : rMean (F := Ideal) x (ix1 r) = R.mean (fun k : Fin 2560 => x (ix2 r k)) := by
  simp only [rMean, R.mean, hostDivf_at, hsum2560, bcast_S_apply, const_at, c0, c2560, w32]

/-- The standard deviation at row `r`: the root of the row's variance. -/
theorem rStd_apply : rStd (F := Ideal) x (ix1 r) = R.std (fun k : Fin 2560 => x (ix2 r k)) := by
  simp only [rStd, R.std, hostSqrt_at, rVar_apply]

/-- The centred array at (r, k): sample `k` of row `r` less the row's mean. -/
theorem rCentered_apply (k : Fin 2560) :
    rCentered (F := Ideal) x (ix2 r k) = R.cen (fun k : Fin 2560 => x (ix2 r k)) k := by
  simp only [rCentered, R.cen, subf_at, bcast_S16384x1_S16384x2560_apply, bcast_S16384_S16384x1_apply, rMean_at]

/-- The skewness at row `r`. -/
theorem rSkew_apply : rSkew (F := Ideal) x (ix1 r) = R.skew (fun k : Fin 2560 => x (ix2 r k)) := by
  simp only [rSkew, R.skew, hostDivf_at, mulf_at, hsum2560, bcast_S_apply, const_at, rCentered_apply, rStd_apply,
    c0, c2560, w32]

/-- The kurtosis at row `r`. -/
theorem rKurt_apply : rKurt (F := Ideal) x (ix1 r) = R.kurt (fun k : Fin 2560 => x (ix2 r k)) := by
  simp only [rKurt, R.kurt, hostDivf_at, mulf_at, hsum2560, bcast_S_apply, const_at, rCentered_apply, rStd_apply,
    c0, c2560, w32]

/-- The outlier count at row `r`: the 32-bit sum over the row of the flags, converted. -/
theorem rOutliers_apply : rOutliers (F := Ideal) x (ix1 r) = R.outliers (fun k : Fin 2560 => x (ix2 r k)) := by
  simp only [rOutliers, R.outliers, sitofp_at, haddi2560, extui_at, cmpf_at, hostAbsf_at, mulf_at,
    bcast_S16384x1_S16384x2560_apply, bcast_S_apply, bcast_S16384_S16384x1_apply, const_at, rCentered_apply,
    rStd_apply, eabs, c3, w32]

/-- The mobility at row `r`. -/
theorem rMob_apply : rMob (F := Ideal) x (ix1 r) = R.mobility (fun k : Fin 2560 => x (ix2 r k)) := by
  simp only [rMob, R.mobility, hostSqrt_at, hostDivf_at, rVarD1_apply, rVar_apply]

/-- The complexity at row `r`. -/
theorem rCompl_apply : rCompl (F := Ideal) x (ix1 r) = R.complexity (fun k : Fin 2560 => x (ix2 r k)) := by
  simp only [rCompl, R.complexity, hostSqrt_at, hostDivf_at, rVarD2_apply, rVarD1_apply]

end Cert.ReferenceIdeal.RRead

end
-- ==== Proof.RefReadBase.lean ====
/-
  Nine of the reference's row statistics read at a row.

  For the reshaped input x (16384 rows of 2560 samples) and a row r, each statistic's value at r is the row
  statistic of the samples x (r, ·): the mean, maximum, minimum, peak to peak, root mean square, sum and maximum
  of absolute values, shape factor and impulse factor. A row sum reads as the zero word plus the sum of the row,
  a row maximum or minimum as the fold over the row from the infinite word, a broadcast scalar as the scalar, a
  pointwise operation as itself on the entries; the folds are the row statistics' own folds.
-/
import proofs.«118352_j60224031425109_2_alg».proof.Proof.RefRun
import proofs.«118352_j60224031425109_2_alg».proof.Proof.RefRows

noncomputable section

namespace Cert.ReferenceIdeal.RRead

open Cert.ReferenceIdeal Cert.ReferenceIdeal.Gen Cert.ReferenceIdeal.RefRun Idealize.ShloMosaic Idealize.ShloMosaic.ValueIdx Cert.RowStats

/-! ### Pointwise operations read at an index (the operands are variables: nothing unfolds) -/

private theorem subf_apply' {s : Shape} (a b : FVec Ideal s .f32) (i : s.Idx) : subf a b i = a i - b i := rfl
private theorem mulf_apply' {s : Shape} (a b : FVec Ideal s .f32) (i : s.Idx) : mulf a b i = a i * b i := rfl
private theorem hostDivf_apply' {s : Shape} (a b : FVec Ideal s .f32) (i : s.Idx) :
    Host.divf a b i = Ideal.div (a i) (b i) := rfl
private theorem hostSqrt_apply' {s : Shape} (a : FVec Ideal s .f32) (i : s.Idx) : Host.sqrt a i = Ideal.sqrt (a i) := rfl
private theorem hostAbsf_apply' {s : Shape} (a : FVec Ideal s .f32) (i : s.Idx) : Host.absf a i = eabs (a i) := rfl

/-! ### The folds of a row in the row statistics' own names -/

/-- Folding with two names of one operation gives one value. -/
private theorem fold_op_congr' {ι β : Type*} (op₁ op₂ : β → β → β) [Std.Commutative op₁] [Std.Associative op₁]
    [Std.Commutative op₂] [Std.Associative op₂] (h : op₁ = op₂) (b : β) (g : ι → β) (s : Finset ι) :
    s.fold op₁ b g = s.fold op₂ b g := by
  subst h; rfl

private theorem rmx (g : Fin 2560 → EReal) : (Finset.univ : Finset (Fin 2560)).fold max cNegInf g = R.mx g := by
  unfold R.mx
  exact fold_op_congr' _ _ (funext fun u => funext fun v => rfl) _ _ _
private theorem rmn (g : Fin 2560 → EReal) : (Finset.univ : Finset (Fin 2560)).fold min cPosInf g = R.mn g := by
  unfold R.mn
  exact fold_op_congr' _ _ (funext fun u => funext fun v => rfl) _ _ _
private theorem rabsmax (g : Fin 2560 → EReal) :
    (Finset.univ : Finset (Fin 2560)).fold max cNegInf (fun k => eabs (g k)) = R.absMax g := by
  unfold R.absMax
  exact fold_op_congr' _ _ (funext fun u => funext fun v => rfl) _ _ _

/-! ### The statistics -/

variable (r : Fin 16384)

/-- The mean of row r: the zero word plus the row's sum, over the word of 2560. -/
theorem rMean_apply (x : FVec Ideal S16384x2560 .f32) :
    rMean (F := Ideal) x (ix1 r) = R.mean (fun k : Fin 2560 => x (ix2 r k)) := by
  simp only [rMean, Host.divf, R.mean, hsum2560, bcast_S_S16384_apply, const_S_apply, Ideal.hostDivf_def]

/-- The maximum of row r. -/
theorem rMax_apply (x : FVec Ideal S16384x2560 .f32) :
    rMax (F := Ideal) x (ix1 r) = R.mx (fun k : Fin 2560 => x (ix2 r k)) := by
  unfold rMax
  rw [hmax2560, rmx]

/-- The minimum of row r. -/
theorem rMin_apply (x : FVec Ideal S16384x2560 .f32) :
    rMin (F := Ideal) x (ix1 r) = R.mn (fun k : Fin 2560 => x (ix2 r k)) := by
  unfold rMin
  rw [hmin2560, rmn]

section P2p
attribute [local irreducible] rMax rMin R.mx R.mn
/-- Peak to peak of row r: its maximum less its minimum. -/
theorem rP2p_apply (x : FVec Ideal S16384x2560 .f32) :
    rP2p (F := Ideal) x (ix1 r) = R.p2p (fun k : Fin 2560 => x (ix2 r k)) := by
  unfold rP2p R.p2p
  rw [subf_apply', rMax_apply, rMin_apply]
end P2p

/-- The root mean square of row r. -/
theorem rRms_apply (x : FVec Ideal S16384x2560 .f32) :
    rRms (F := Ideal) x (ix1 r) = R.rms (fun k : Fin 2560 => x (ix2 r k)) := by
  unfold rRms R.rms
  rw [hostSqrt_apply', hostDivf_apply', hsum2560, bcast_S_S16384_apply, const_S_apply]
  simp only [mulf_apply']

/-- The sum of absolute values of row r. -/
theorem rAbsSum_apply (x : FVec Ideal S16384x2560 .f32) :
    rAbsSum (F := Ideal) x (ix1 r) = R.absSum (fun k : Fin 2560 => x (ix2 r k)) := by
  unfold rAbsSum R.absSum
  rw [hsum2560]
  simp only [hostAbsf_apply']

/-- The maximum of absolute values of row r: the fold's entries read pointwise, then the fold renamed. -/
theorem rAbsMax_apply (x : FVec Ideal S16384x2560 .f32) :
    rAbsMax (F := Ideal) x (ix1 r) = R.absMax (fun k : Fin 2560 => x (ix2 r k)) := by
  unfold rAbsMax
  rw [hmax2560]
  exact (congrArg (fun f : Fin 2560 → EReal => Finset.fold max cNegInf f Finset.univ)
    (funext fun k => hostAbsf_apply' x (ix2 r k))).trans (rabsmax _)

section ShapeImpulse
attribute [local irreducible] rRms rAbsSum rAbsMax R.rms R.absSum R.absMax
/-- The shape factor of row r: root mean square times the word of 2560, over the sum of absolute values. -/
theorem rShape_apply (x : FVec Ideal S16384x2560 .f32) :
    rShape (F := Ideal) x (ix1 r) = R.shape (fun k : Fin 2560 => x (ix2 r k)) := by
  unfold rShape R.shape
  rw [hostDivf_apply', mulf_apply', rRms_apply, bcast_S_S16384_apply, const_S_apply, rAbsSum_apply]

/-- The impulse factor of row r: maximum of absolute values times the word of 2560, over their sum. -/
theorem rImpulse_apply (x : FVec Ideal S16384x2560 .f32) :
    rImpulse (F := Ideal) x (ix1 r) = R.impulse (fun k : Fin 2560 => x (ix2 r k)) := by
  unfold rImpulse R.impulse
  rw [hostDivf_apply', mulf_apply', rAbsMax_apply, bcast_S_S16384_apply, const_S_apply, rAbsSum_apply]
end ShapeImpulse

end Cert.ReferenceIdeal.RRead

end
-- ==== Proof.RefRead.lean ====
/-
  The reference's result read at an entry.

  The result lays the fifteen per-row statistics side by side, one column each, over the argument with its unit
  axis dropped. So its entry (r, j) is statistic `j` of row `r` of the argument.
-/
import proofs.«118352_j60224031425109_2_alg».proof.Proof.RefReadMom
import proofs.«118352_j60224031425109_2_alg».proof.Proof.RefReadBase

noncomputable section

namespace Cert.ReferenceIdeal.RRead

open Cert.ReferenceIdeal Cert.ReferenceIdeal.Gen Cert.ReferenceIdeal.RefRun Idealize.ShloMosaic Idealize.ShloMosaic.ValueIdx
open Cert.RowStats
/-- The argument with its unit axis dropped, at (r, k): the argument at (r, k, 0). -/
theorem x0_apply (a : (⟨S16384x2560x1, .f32⟩ : BufTy).Contents (Elt Ideal)) (r : Fin 16384) (k : Fin 2560) :
    x0 (F := Ideal) a (ix2 r k) = a (ix3 r k (0 : Fin 1)) := by
  unfold x0
  exact reshape_apply r a _ k

/-- Row `r` of the argument with its unit axis dropped. -/
theorem x0_row (a : (⟨S16384x2560x1, .f32⟩ : BufTy).Contents (Elt Ideal)) (r : Fin 16384) :
    (fun k : Fin 2560 => x0 (F := Ideal) a (ix2 r k)) = fun k : Fin 2560 => a (ix3 r k (0 : Fin 1)) :=
  funext (x0_apply a r)

/-- A per-row value kept as a one-column array, at (r, 0): the value of row `r`. -/
private theorem col_read (r : Fin 16384) (h : S16384.BroadcastsInDim S16384x1 (![0] : Fin 1 → Fin 2))
    (v : S16384.Idx → EReal) (s : EReal) (hv : v (ix1 r) = s) :
    broadcastInDim S16384x1 (![0] : Fin 1 → Fin 2) h v (ix2 r (0 : Fin 1)) = s :=
  (bcast_S16384_S16384x1_apply r h v 0).trans hv

/-- Entry (r, j) of the reference's result: statistic `j` of row `r` of the argument. -/
theorem out_apply (a : (⟨S16384x2560x1, .f32⟩ : BufTy).Contents (Elt Ideal)) (r : Fin 16384) (j : Fin 15) :
    RefRun.out (F := Ideal) a (ix2 r j) = Cert.RowStats.R.col (fun k : Fin 2560 => a (ix3 r k (0 : Fin 1))) j := by
  unfold RefRun.out
  rw [concat15_apply, ← x0_row a r]
  match j with
  | ⟨0, _⟩ => exact col_read r _ _ _ (rMean_apply r (x0 a))
  | ⟨1, _⟩ => exact col_read r _ _ _ (rMax_apply r (x0 a))
  | ⟨2, _⟩ => exact col_read r _ _ _ (rMin_apply r (x0 a))
  | ⟨3, _⟩ => exact col_read r _ _ _ (rP2p_apply r (x0 a))
  | ⟨4, _⟩ => exact col_read r _ _ _ (rVar_apply r (x0 a))
  | ⟨5, _⟩ => exact col_read r _ _ _ (rRms_apply r (x0 a))
  | ⟨6, _⟩ => exact col_read r _ _ _ (rSkew_apply r (x0 a))
  | ⟨7, _⟩ => exact col_read r _ _ _ (rKurt_apply r (x0 a))
  | ⟨8, _⟩ => exact col_read r _ _ _ (rShape_apply r (x0 a))
  | ⟨9, _⟩ => exact col_read r _ _ _ (rImpulse_apply r (x0 a))
  | ⟨10, _⟩ => exact col_read r _ _ _ (rOutliers_apply r (x0 a))
  | ⟨11, _⟩ => exact col_read r _ _ _ (rZcr_apply r (x0 a))
  | ⟨12, _⟩ => exact col_read r _ _ _ (rVar_apply r (x0 a))
  | ⟨13, _⟩ => exact col_read r _ _ _ (rMob_apply r (x0 a))
  | ⟨14, _⟩ => exact col_read r _ _ _ (rCompl_apply r (x0 a))

end Cert.ReferenceIdeal.RRead

end
-- ==== Proof.Consts.lean ====
/-
  The f32 words the two arrangements of the row statistics carry, as the extended reals they denote:
  the sample counts 2560, 2559, 2558, 2557, the small integers 3, 4, 6, the products 2·2560 and 3·2560,
  zero, the two infinities and ±1.
-/
import proofs.«118352_j60224031425109_2_alg».proof.Proof.RowStats

noncomputable section

namespace Cert.RowStats

open Idealize.ShloMosaic

theorem c0_eq : c0 = 0 := by simp [Ideal.ofBits, Ideal.ieee]
theorem c2560_eq : c2560 = ((2560 : ℝ) : EReal) := by simp [Ideal.ofBits, Ideal.ieee, -EReal.coe_mul]; norm_num
theorem c2559_eq : c2559 = ((2559 : ℝ) : EReal) := by simp [Ideal.ofBits, Ideal.ieee, -EReal.coe_mul]; norm_num
theorem c2558_eq : c2558 = ((2558 : ℝ) : EReal) := by simp [Ideal.ofBits, Ideal.ieee, -EReal.coe_mul]; norm_num
theorem c2557_eq : c2557 = ((2557 : ℝ) : EReal) := by simp [Ideal.ofBits, Ideal.ieee, -EReal.coe_mul]; norm_num
theorem c3_eq : c3 = ((3 : ℝ) : EReal) := by simp [Ideal.ofBits, Ideal.ieee, -EReal.coe_mul]; norm_num
theorem c4_eq : c4 = ((4 : ℝ) : EReal) := by simp [Ideal.ofBits, Ideal.ieee, -EReal.coe_mul]; norm_num
theorem c6_eq : c6 = ((6 : ℝ) : EReal) := by simp [Ideal.ofBits, Ideal.ieee, -EReal.coe_mul]; norm_num
theorem c5120_eq : c5120 = ((5120 : ℝ) : EReal) := by simp [Ideal.ofBits, Ideal.ieee, -EReal.coe_mul]; norm_num
theorem c7680_eq : c7680 = ((7680 : ℝ) : EReal) := by simp [Ideal.ofBits, Ideal.ieee, -EReal.coe_mul]; norm_num
theorem cNegInf_eq : cNegInf = ⊥ := by simp [Ideal.ofBits, Ideal.ieee]
theorem cPosInf_eq : cPosInf = ⊤ := by simp [Ideal.ofBits, Ideal.ieee]
theorem cNegOne_eq : cNegOne = ((-1 : ℝ) : EReal) := by simp [Ideal.ofBits, Ideal.ieee, -EReal.coe_mul]; norm_num
theorem cOne_eq : cOne = ((1 : ℝ) : EReal) := by simp [Ideal.ofBits, Ideal.ieee, -EReal.coe_mul]; norm_num
theorem one_i32 : (((1#32 : BitVec 32).toInt : ℝ) : EReal) = ((1 : ℝ) : EReal) := by norm_num

end Cert.RowStats

end
-- ==== Proof.LibMoments.lean ====
/- General lemmas on power sums and centred sums of a finite real family, and on carrying real
   arithmetic into the extended reals. Pure mathematics: no program is imported. -/
import Mathlib
import Idealize.ShloMosaic.PureOps.Ideal
import Idealize.ShloMosaic.PureOps.Ideal.Laws

noncomputable section

namespace Cert.LibMoments

open scoped BigOperators

/-- The coercion from the reals to the extended reals commutes with a finite sum. -/
theorem coe_sum {ι : Type*} (s : Finset ι) (a : ι → ℝ) :
    ((∑ i ∈ s, a i : ℝ) : EReal) = ∑ i ∈ s, (a i : EReal) := by
  induction s using Finset.cons_induction with
  | empty => simp
  | cons i s hi ih => rw [Finset.sum_cons, Finset.sum_cons, EReal.coe_add, ih]

/-- The quotient of two finite extended reals with a nonzero divisor is the real quotient. -/
theorem div_coe_coe (a b : ℝ) (hb : b ≠ 0) :
    Idealize.ShloMosaic.Ideal.div (a : EReal) (b : EReal) = ((a / b : ℝ) : EReal) := by
  rw [Idealize.ShloMosaic.Ideal.div_coe hb, ← EReal.coe_mul, mul_one_div]

/-- The square root of a nonnegative finite extended real is the real square root. -/
theorem sqrt_coe_of_nonneg (r : ℝ) (h : 0 ≤ r) :
    Idealize.ShloMosaic.Ideal.sqrt (r : EReal) = ((Real.sqrt r : ℝ) : EReal) := by
  rw [Idealize.ShloMosaic.Ideal.sqrt_coe, if_neg (not_lt.mpr h)]

/-- Second centred sum from raw power sums: with `N` the number of terms and `N μ = ∑ a`,
    `∑ (a - μ)² = ∑ a² - N μ²`. -/
theorem sum_sq_centered {n : ℕ} (a : Fin n → ℝ) (N μ : ℝ) (hN : (n : ℝ) = N)
    (hμ : N * μ = ∑ k, a k) :
    ∑ k, (a k - μ) * (a k - μ) = (∑ k, a k * a k) - N * μ * μ := by
  have h1 : ∀ k, (a k - μ) * (a k - μ) = a k * a k - 2 * μ * a k + μ * μ := fun k => by ring
  simp only [h1, Finset.sum_add_distrib, Finset.sum_sub_distrib, ← Finset.mul_sum,
    Finset.sum_const, Finset.card_univ, Fintype.card_fin, nsmul_eq_mul, hN, ← hμ]
  ring

/-- Third centred sum from raw power sums: with `N μ = ∑ a`,
    `∑ (a - μ)³ = ∑ a³ - 3 μ ∑ a² + 2 N μ³`. -/
theorem sum_cube_centered {n : ℕ} (a : Fin n → ℝ) (N μ : ℝ) (hN : (n : ℝ) = N)
    (hμ : N * μ = ∑ k, a k) :
    ∑ k, (a k - μ) * (a k - μ) * (a k - μ)
      = (∑ k, a k * a k * a k) - 3 * μ * (∑ k, a k * a k) + 2 * N * (μ * μ * μ) := by
  have h1 : ∀ k, (a k - μ) * (a k - μ) * (a k - μ)
      = a k * a k * a k - 3 * μ * (a k * a k) + 3 * (μ * μ) * a k - μ * μ * μ := fun k => by ring
  simp only [h1, Finset.sum_add_distrib, Finset.sum_sub_distrib, ← Finset.mul_sum,
    Finset.sum_const, Finset.card_univ, Fintype.card_fin, nsmul_eq_mul, hN, ← hμ]
  ring

/-- Fourth centred sum from raw power sums: with `N μ = ∑ a`,
    `∑ (a - μ)⁴ = ∑ a⁴ - 4 μ ∑ a³ + 6 μ² ∑ a² - 3 N μ⁴`. -/
theorem sum_fourth_centered {n : ℕ} (a : Fin n → ℝ) (N μ : ℝ) (hN : (n : ℝ) = N)
    (hμ : N * μ = ∑ k, a k) :
    ∑ k, (a k - μ) * (a k - μ) * ((a k - μ) * (a k - μ))
      = (∑ k, a k * a k * (a k * a k)) - 4 * μ * (∑ k, a k * a k * a k)
        + 6 * (μ * μ) * (∑ k, a k * a k) - 3 * N * (μ * μ * μ * μ) := by
  have h1 : ∀ k, (a k - μ) * (a k - μ) * ((a k - μ) * (a k - μ))
      = a k * a k * (a k * a k) - 4 * μ * (a k * a k * a k) + 6 * (μ * μ) * (a k * a k)
        - 4 * (μ * μ * μ) * a k + μ * μ * μ * μ := fun k => by ring
  simp only [h1, Finset.sum_add_distrib, Finset.sum_sub_distrib, ← Finset.mul_sum,
    Finset.sum_const, Finset.card_univ, Fintype.card_fin, nsmul_eq_mul, hN, ← hμ]
  ring

/-- A sum of successive differences telescopes: `∑_{k<n} (b (k+1) - b k) = b n - b 0`. -/
theorem sum_fin_diff (n : ℕ) (b : ℕ → ℝ) :
    ∑ k : Fin n, (b (k.val + 1) - b k.val) = b n - b 0 := by
  rw [Fin.sum_univ_eq_sum_range (fun k => b (k + 1) - b k) n, Finset.sum_range_sub]

/-- `|x - μ| > t`, the absolute value written as a maximum, says `x` lies outside `[μ - t, μ + t]`. -/
theorem abs_gt_iff (x μ t : ℝ) :
    t < max (x - μ) (-(x - μ)) ↔ (μ + t < x ∨ x < μ - t) := by
  rw [lt_max_iff]
  constructor
  · rintro (h | h)
    · left; linarith
    · right; linarith
  · rintro (h | h)
    · left; linarith
    · right; linarith

/-- A sum of squares of real numbers is nonnegative. -/
theorem sum_mul_self_nonneg {ι : Type*} (s : Finset ι) (f : ι → ℝ) :
    0 ≤ ∑ i ∈ s, f i * f i :=
  Finset.sum_nonneg fun i _ => mul_self_nonneg (f i)

/-- The second centred sum is nonnegative. -/
theorem sum_sq_centered_nonneg {n : ℕ} (a : Fin n → ℝ) (μ : ℝ) :
    0 ≤ ∑ k, (a k - μ) * (a k - μ) :=
  sum_mul_self_nonneg _ _

/-- The fourth centred sum is nonnegative. -/
theorem sum_fourth_centered_nonneg {n : ℕ} (a : Fin n → ℝ) (μ : ℝ) :
    0 ≤ ∑ k, (a k - μ) * (a k - μ) * ((a k - μ) * (a k - μ)) :=
  sum_mul_self_nonneg _ _

/-- From raw power sums: `∑ a² - N μ²` is nonnegative when `N μ = ∑ a`. -/
theorem raw_sq_sub_nonneg {n : ℕ} (a : Fin n → ℝ) (N μ : ℝ) (hN : (n : ℝ) = N)
    (hμ : N * μ = ∑ k, a k) : 0 ≤ (∑ k, a k * a k) - N * μ * μ := by
  rw [← sum_sq_centered a N μ hN hμ]
  exact sum_sq_centered_nonneg a μ

/-- The second centred sum vanishes exactly when every term equals `μ`. -/
theorem sum_sq_centered_eq_zero_iff {n : ℕ} (a : Fin n → ℝ) (μ : ℝ) :
    ∑ k, (a k - μ) * (a k - μ) = 0 ↔ ∀ k, a k = μ := by
  rw [Finset.sum_eq_zero_iff_of_nonneg (fun k _ => mul_self_nonneg (a k - μ))]
  constructor
  · intro h k
    have := h k (Finset.mem_univ k)
    exact sub_eq_zero.mp (mul_self_eq_zero.mp this)
  · intro h k _
    rw [h k, sub_self, mul_zero]

end Cert.LibMoments
-- ==== Proof.LibCount.lean ====
/- Counting the members of a finite family that satisfy a predicate by an integer sum of one-bit
   flags, and the same count read as a real number. Pure mathematics: no program is imported. -/
import Mathlib
import Idealize.ShloMosaic.PureOps.Ideal
import Idealize.ShloMosaic.PureOps.Ideal.Laws
import Idealize.ShloMosaic.PureOps.Reduce

noncomputable section

namespace Cert.LibCount

open scoped BigOperators
open Idealize.ShloMosaic

/-- A one-bit word is `0` or `1` as a natural number. -/
theorem toNat_le_one (w : BitVec 1) : w.toNat ≤ 1 := by
  have := w.isLt
  omega

/-- The flag of a Boolean, as a natural number: `1` if it holds, `0` otherwise. -/
theorem toNat_ofBool (b : Bool) : (BitVec.ofBool b).toNat = if b then 1 else 0 := by
  cases b <;> rfl

/-- The flag of a decidable proposition, as a real number. -/
theorem toNat_ofBool_decide_real (P : Prop) [Decidable P] :
    (((BitVec.ofBool (decide P)).toNat : ℕ) : ℝ) = if P then 1 else 0 := by
  by_cases h : P <;> simp [h]

/-- The zero-extension of a one-bit word to 32 bits has the same natural-number value. -/
theorem toNat_setWidth (w : BitVec 1) : (w.setWidth 32).toNat = w.toNat := by
  rw [BitVec.toNat_setWidth]
  have := w.isLt
  omega

/-- The zero-extension of a one-bit word to 32 bits, read as a signed integer, is the bit. -/
theorem toInt_setWidth (w : BitVec 1) : (w.setWidth 32).toInt = (w.toNat : ℤ) := by
  have h := toNat_setWidth w
  have := w.isLt
  rw [BitVec.toInt_eq_toNat_cond, h, if_pos (by omega)]

/-- The zero-extension of one flag to 32 bits, read signed and cast to the reals, is the flag as
    `0` or `1`. -/
theorem toInt_setWidth_real (w : BitVec 1) : (((w.setWidth 32).toInt : ℤ) : ℝ) = ((w.toNat : ℕ) : ℝ) := by
  rw [toInt_setWidth, Int.cast_natCast]

/-- The same in the extended reals. -/
theorem toInt_setWidth_ereal (w : BitVec 1) :
    (((((w.setWidth 32).toInt : ℤ) : ℝ)) : EReal) = (((w.toNat : ℕ) : ℝ) : EReal) := by
  rw [toInt_setWidth_real]

/-- The 32-bit sum of zero-extended flags over a finite set is the number of set flags modulo `2^32`. -/
theorem toNat_fold_addi {ι : Type*} (s : Finset ι) (p : ι → BitVec 1) :
    (s.fold IntOp.addi (0#32) (fun i => (p i).setWidth 32)).toNat
      = (∑ i ∈ s, (p i).toNat) % 2 ^ 32 := by
  induction s using Finset.cons_induction with
  | empty => simp
  | cons a s ha ih =>
    rw [Finset.fold_cons, Finset.sum_cons, IntOp.addi, BitVec.toNat_add, ih, toNat_setWidth]
    omega

/-- A sum of one-bit flags is at most the number of terms. -/
theorem sum_toNat_le_card {ι : Type*} (s : Finset ι) (p : ι → BitVec 1) :
    ∑ i ∈ s, (p i).toNat ≤ s.card := by
  calc ∑ i ∈ s, (p i).toNat ≤ ∑ _i ∈ s, 1 := Finset.sum_le_sum fun i _ => toNat_le_one (p i)
    _ = s.card := by simp

/-- Over fewer than `2^31` indices the 32-bit sum of zero-extended flags does not wrap: as a natural
    number it is the number of set flags. -/
theorem toNat_fold_addi_of_card_lt {ι : Type*} (s : Finset ι) (p : ι → BitVec 1)
    (hs : s.card < 2 ^ 31) :
    (s.fold IntOp.addi (0#32) (fun i => (p i).setWidth 32)).toNat = ∑ i ∈ s, (p i).toNat := by
  rw [toNat_fold_addi]
  have := sum_toNat_le_card s p
  exact Nat.mod_eq_of_lt (by omega)

/-- Over fewer than `2^31` indices the 32-bit sum of zero-extended flags, read as a signed integer, is
    the number of set flags. -/
theorem toInt_fold_addi {ι : Type*} (s : Finset ι) (p : ι → BitVec 1) (hs : s.card < 2 ^ 31) :
    (s.fold IntOp.addi (0#32) (fun i => (p i).setWidth 32)).toInt
      = ((∑ i ∈ s, (p i).toNat : ℕ) : ℤ) := by
  have h := toNat_fold_addi_of_card_lt s p hs
  have := sum_toNat_le_card s p
  rw [BitVec.toInt_eq_toNat_cond, h, if_pos (by omega)]

/-- Counting by an integer sum: over fewer than `2^31` indices, the 32-bit sum of the zero-extended
    flags, read signed and cast to the reals, is the real sum of the flags as `0` or `1`. -/
theorem toInt_fold_addi_real {ι : Type*} (s : Finset ι) (p : ι → BitVec 1) (hs : s.card < 2 ^ 31) :
    (((s.fold IntOp.addi (0#32) (fun i => (p i).setWidth 32)).toInt : ℤ) : ℝ)
      = ∑ i ∈ s, (((p i).toNat : ℕ) : ℝ) := by
  rw [toInt_fold_addi s p hs, Int.cast_natCast, Nat.cast_sum]

/-- The same with the sum started from the numeral zero of the 32-bit words. -/
theorem toInt_fold_addi_real' {ι : Type*} (s : Finset ι) (p : ι → BitVec 1) (hs : s.card < 2 ^ 31) :
    (((s.fold IntOp.addi (0 : BitVec 32) (fun i => (p i).setWidth 32)).toInt : ℤ) : ℝ)
      = ∑ i ∈ s, (((p i).toNat : ℕ) : ℝ) :=
  toInt_fold_addi_real s p hs

/-- Counting over `Fin n` with `n < 2^31`: the signed reading of the 32-bit sum of zero-extended
    flags is the real sum of the flags. -/
theorem toInt_fold_addi_fin_real {n : ℕ} (p : Fin n → BitVec 1) (hn : n < 2 ^ 31) :
    ((((Finset.univ : Finset (Fin n)).fold IntOp.addi (0#32) (fun k => (p k).setWidth 32)).toInt : ℤ) : ℝ)
      = ∑ k, (((p k).toNat : ℕ) : ℝ) :=
  toInt_fold_addi_real Finset.univ p (by rw [Finset.card_univ, Fintype.card_fin]; exact hn)

/-- The same in the extended reals: the total converted to a float value is the sum of the flags'
    values. -/
theorem toInt_fold_addi_fin_ereal {n : ℕ} (p : Fin n → BitVec 1) (hn : n < 2 ^ 31) :
    ((((((Finset.univ : Finset (Fin n)).fold IntOp.addi (0#32) (fun k => (p k).setWidth 32)).toInt : ℤ) : ℝ)) : EReal)
      = ∑ k, ((((p k).toNat : ℕ) : ℝ) : EReal) := by
  rw [toInt_fold_addi_fin_real p hn]
  induction (Finset.univ : Finset (Fin n)) using Finset.cons_induction with
  | empty => simp
  | cons i s hi ih => rw [Finset.sum_cons, Finset.sum_cons, EReal.coe_add, ih]

/-- The same with the flags composed after a map into the index type, the form a fold over one
    reduced axis takes. -/
theorem toInt_fold_addi_comp_fin_ereal {n : ℕ} {κ : Type*} (x : κ → BitVec 1) (g : Fin n → κ)
    (hn : n < 2 ^ 31) :
    ((((((Finset.univ : Finset (Fin n)).fold IntOp.addi (0#32)
        ((fun i => (x i).setWidth 32) ∘ g)).toInt : ℤ) : ℝ)) : EReal)
      = ∑ k, ((((x (g k)).toNat : ℕ) : ℝ) : EReal) :=
  toInt_fold_addi_fin_ereal (fun k => x (g k)) hn

/-- The flag of a Boolean as an extended real: `1` if it holds, `0` otherwise. -/
theorem toNat_ofBool_ereal (b : Bool) :
    ((((BitVec.ofBool b).toNat : ℕ) : ℝ) : EReal) = if b then 1 else 0 := by
  cases b <;> simp

/-- The flag of a decidable proposition as an extended real. -/
theorem toNat_ofBool_decide_ereal (P : Prop) [Decidable P] :
    ((((BitVec.ofBool (decide P)).toNat : ℕ) : ℝ) : EReal) = if P then 1 else 0 := by
  by_cases h : P <;> simp [h]

/-- The flag of the strict comparison `y < x` of two extended reals, as a natural number. -/
theorem toNat_cmp_ogt (x y : EReal) :
    (Ideal.cmp .ogt x y).toNat = if y < x then 1 else 0 := by
  unfold Ideal.cmp
  by_cases h : y < x <;> simp [h]

/-- The flag of the comparison `x ≠ y` of two extended reals, as a natural number. -/
theorem toNat_cmp_one (x y : EReal) :
    (Ideal.cmp .one x y).toNat = if x ≠ y then 1 else 0 := by
  unfold Ideal.cmp
  by_cases h : x = y <;> simp [h]

/-- The flag of the strict comparison `x < y` of two extended reals, as a natural number. -/
theorem toNat_cmp_olt (x y : EReal) :
    (Ideal.cmp .olt x y).toNat = if x < y then 1 else 0 := by
  unfold Ideal.cmp
  by_cases h : x < y <;> simp [h]

/-- A one-bit word is the flag of its being `1`. -/
theorem toNat_eq_ite (w : BitVec 1) : w.toNat = if w = 1#1 then 1 else 0 := by
  have hw := w.isLt
  by_cases h : w = 1#1
  · subst h; simp
  · rw [if_neg h]
    have : w.toNat ≠ 1 := fun e => h (BitVec.eq_of_toNat_eq (by simpa using e))
    omega

/-- Choosing `1` or `0` by a one-bit word is the word's value, in the extended reals. -/
theorem ite_eq_toNat_ereal (w : BitVec 1) :
    (if w = 1#1 then (1 : EReal) else 0) = (((w.toNat : ℕ) : ℝ) : EReal) := by
  rw [toNat_eq_ite w]
  by_cases h : w = 1#1 <;> simp [h]

end Cert.LibCount
-- ==== Proof.RowMath.lean ====
/-
  The two arrangements of the fifteen row statistics agree on every row of finite samples.

  The statistics that differ only by an added zero (mean, root mean square, absolute sum and what is built
  from them) agree at every row. For finite samples the remaining ones are carried to the reals: the raw
  power sums give the centred sums (second, third and fourth), the means of the differences telescope, the
  count by an integer sum is the sum of the flags, and a sample is further than `t` from the mean exactly
  when it is above `mean + t` or below `mean - t`.
-/
import Mathlib
import proofs.«118352_j60224031425109_2_alg».proof.Proof.RowStats
import proofs.«118352_j60224031425109_2_alg».proof.Proof.Consts
import proofs.«118352_j60224031425109_2_alg».proof.Proof.LibMoments
import proofs.«118352_j60224031425109_2_alg».proof.Proof.LibCount

noncomputable section

namespace Cert.RowStats

open scoped BigOperators
open Idealize.ShloMosaic Cert.LibMoments

/-! ### Statistics that agree at every row -/

/-- The mean: the reference adds the zero word first. -/
theorem mean_eq (x : Fin 2560 → EReal) : K.mean x = R.mean x := by
  unfold K.mean R.mean K.s1
  rw [c0_eq, zero_add]

theorem mx_eq (x : Fin 2560 → EReal) : K.mx x = R.mx x := rfl
theorem mn_eq (x : Fin 2560 → EReal) : K.mn x = R.mn x := rfl
theorem p2p_eq (x : Fin 2560 → EReal) : K.p2p x = R.p2p x := rfl

/-- The root mean square: the reference adds the zero word first. -/
theorem rms_eq (x : Fin 2560 → EReal) : K.rms x = R.rms x := by
  unfold K.rms R.rms K.s2
  rw [c0_eq, zero_add]

/-- The sum of absolute values: the reference adds the zero word first. -/
theorem absSum_eq (x : Fin 2560 → EReal) : K.absSum x = R.absSum x := by
  unfold K.absSum R.absSum
  rw [c0_eq, zero_add]

theorem absMax_eq (x : Fin 2560 → EReal) : K.absMax x = R.absMax x := rfl

/-- The shape factor: equal numerators and equal denominators. -/
theorem shape_eq (x : Fin 2560 → EReal) : K.shape x = R.shape x := by
  unfold K.shape R.shape
  rw [rms_eq, absSum_eq]

/-- The impulse factor: equal numerators and equal denominators. -/
theorem impulse_eq (x : Fin 2560 → EReal) : K.impulse x = R.impulse x := by
  unfold K.impulse R.impulse
  rw [absMax_eq, absSum_eq]

/-! ### The unbiased variance of finite samples, as the reference takes it -/

/-- For `N > 1` and finite samples the guard `N - 1 > 0` holds and the reference's variance is the real
    number `∑ (y - ȳ)² / (N - 1)` with `ȳ = ∑ y / N`. -/
theorem varOf_coe {n : ℕ} (N : ℝ) (hN : 1 < N) (y : Fin n → ℝ) :
    R.varOf (N : EReal) (fun k => (y k : EReal))
      = (((∑ k, (y k - (∑ k, y k) / N) * (y k - (∑ k, y k) / N)) / (N - 1) : ℝ) : EReal) := by
  have hN0 : N ≠ 0 := by positivity
  have hN1 : N - 1 ≠ 0 := (sub_pos.mpr hN).ne'
  have hcmp : Ideal.cmp .ogt ((N - 1 : ℝ) : EReal) 0 = 1#1 := by
    have h0 : (0 : EReal) < ((N - 1 : ℝ) : EReal) := by exact_mod_cast sub_pos.mpr hN
    show BitVec.ofBool (decide ((0 : EReal) < ((N - 1 : ℝ) : EReal))) = 1#1
    rw [decide_eq_true h0]
    rfl
  unfold R.varOf
  rw [one_i32, c0_eq]
  simp only [zero_add]
  rw [← EReal.coe_sub, hcmp]
  unfold Scalar.select
  rw [if_pos (show (1#1 : BitVec 1) = 1 from rfl), ← coe_sum, div_coe_coe _ _ hN0]
  simp only [← EReal.coe_sub, ← EReal.coe_mul]
  rw [← coe_sum, div_coe_coe _ _ hN1]

/-! ### The raw power sums and the mean of a finite row -/

variable (a : Fin 2560 → ℝ)

/-- The mean of 2560 real samples. -/
def mu : ℝ := (∑ k, a k) / 2560

theorem mul_mu : (2560 : ℝ) * mu a = ∑ k, a k := by
  unfold mu
  field_simp

theorem K_s1_coe : K.s1 (fun k => (a k : EReal)) = ((∑ k, a k : ℝ) : EReal) := by
  unfold K.s1
  rw [← coe_sum]

theorem K_s2_coe : K.s2 (fun k => (a k : EReal)) = ((∑ k, a k * a k : ℝ) : EReal) := by
  unfold K.s2
  simp only [← EReal.coe_mul]
  rw [← coe_sum]

theorem K_s3_coe : K.s3 (fun k => (a k : EReal)) = ((∑ k, a k * a k * a k : ℝ) : EReal) := by
  unfold K.s3
  simp only [← EReal.coe_mul]
  rw [← coe_sum]

theorem K_s4_coe : K.s4 (fun k => (a k : EReal)) = ((∑ k, a k * a k * (a k * a k) : ℝ) : EReal) := by
  unfold K.s4
  simp only [← EReal.coe_mul]
  rw [← coe_sum]

theorem K_mean_coe : K.mean (fun k => (a k : EReal)) = ((mu a : ℝ) : EReal) := by
  unfold K.mean mu
  rw [K_s1_coe, c2560_eq, div_coe_coe _ _ (by norm_num)]

theorem R_mean_coe : R.mean (fun k => (a k : EReal)) = ((mu a : ℝ) : EReal) := by
  rw [← mean_eq, K_mean_coe]

theorem R_cen_coe (k : Fin 2560) : R.cen (fun k => (a k : EReal)) k = ((a k - mu a : ℝ) : EReal) := by
  unfold R.cen
  rw [R_mean_coe, ← EReal.coe_sub]

/-! ### Variance and standard deviation -/

theorem K_var_coe :
    K.var (fun k => (a k : EReal)) = ((((∑ k, a k * a k) - 2560 * mu a * mu a) / 2559 : ℝ) : EReal) := by
  unfold K.var
  rw [K_s2_coe, K_mean_coe, c2560_eq, c2559_eq, ← EReal.coe_mul, ← EReal.coe_mul, ← EReal.coe_sub,
    div_coe_coe _ _ (by norm_num)]

theorem R_var_coe :
    R.var (fun k => (a k : EReal)) = (((∑ k, (a k - mu a) * (a k - mu a)) / 2559 : ℝ) : EReal) := by
  unfold R.var
  rw [c2560_eq, varOf_coe 2560 (by norm_num) a]
  unfold mu
  norm_num

/-- The variance from raw power sums is the variance from centred samples. -/
theorem var_eq_coe : K.var (fun k => (a k : EReal)) = R.var (fun k => (a k : EReal)) := by
  rw [K_var_coe, R_var_coe, sum_sq_centered a 2560 (mu a) (by norm_num) (mul_mu a)]

theorem std_eq_coe : K.std (fun k => (a k : EReal)) = R.std (fun k => (a k : EReal)) := by
  unfold K.std R.std
  rw [var_eq_coe]

/-- The real variance of the row. -/
def vr : ℝ := (∑ k, (a k - mu a) * (a k - mu a)) / 2559

theorem vr_nonneg : 0 ≤ vr a := div_nonneg (sum_sq_centered_nonneg a (mu a)) (by norm_num)

/-- The standard deviation of a finite row is a finite nonnegative real. -/
theorem R_std_coe : R.std (fun k => (a k : EReal)) = ((Real.sqrt (vr a) : ℝ) : EReal) := by
  unfold R.std
  rw [R_var_coe]
  exact sqrt_coe_of_nonneg _ (vr_nonneg a)

theorem K_std_coe : K.std (fun k => (a k : EReal)) = ((Real.sqrt (vr a) : ℝ) : EReal) := by
  rw [std_eq_coe, R_std_coe]

/-! ### Skewness and kurtosis -/

/-- The third centred sum from the raw power sums. -/
theorem sumC3_eq_coe :
    K.sumC3 (fun k => (a k : EReal))
      = c0 + ∑ k, R.cen (fun k => (a k : EReal)) k * R.cen (fun k => (a k : EReal)) k
          * R.cen (fun k => (a k : EReal)) k := by
  unfold K.sumC3
  rw [K_s3_coe, K_s2_coe, K_mean_coe, c3_eq, c5120_eq, c0_eq, zero_add]
  simp only [R_cen_coe, ← EReal.coe_mul, ← EReal.coe_sub, ← EReal.coe_add]
  rw [← coe_sum, sum_cube_centered a 2560 (mu a) (by norm_num) (mul_mu a)]
  congr 1
  ring

theorem skew_eq_coe : K.skew (fun k => (a k : EReal)) = R.skew (fun k => (a k : EReal)) := by
  unfold K.skew R.skew
  rw [sumC3_eq_coe, std_eq_coe]

/-- The fourth centred sum from the raw power sums. -/
theorem sumC4_eq_coe :
    K.sumC4 (fun k => (a k : EReal))
      = c0 + ∑ k, R.cen (fun k => (a k : EReal)) k * R.cen (fun k => (a k : EReal)) k
          * (R.cen (fun k => (a k : EReal)) k * R.cen (fun k => (a k : EReal)) k) := by
  unfold K.sumC4
  rw [K_s4_coe, K_s3_coe, K_s2_coe, K_mean_coe, c4_eq, c6_eq, c7680_eq, c0_eq, zero_add]
  simp only [R_cen_coe, ← EReal.coe_mul, ← EReal.coe_sub, ← EReal.coe_add]
  rw [← coe_sum, sum_fourth_centered a 2560 (mu a) (by norm_num) (mul_mu a)]
  congr 1
  ring

theorem kurt_eq_coe : K.kurt (fun k => (a k : EReal)) = R.kurt (fun k => (a k : EReal)) := by
  unfold K.kurt R.kurt
  rw [sumC4_eq_coe, std_eq_coe, mul_assoc (R.std _ * R.std _) (R.std _) (R.std _)]

/-! ### Differences of a finite row and their telescoping sum -/

/-- First differences of real samples. -/
def rd {n : ℕ} (y : Fin (n + 1) → ℝ) : Fin n → ℝ := fun k => y (up k) - y (dn k)

theorem diff_coe {n : ℕ} (y : Fin (n + 1) → ℝ) :
    diff (fun k => (y k : EReal)) = fun k => ((rd y k : ℝ) : EReal) := by
  funext k
  exact (EReal.coe_sub _ _).symm

/-- The samples continued by zero past the end, to index them by the natural numbers. -/
def ext0 {n : ℕ} (y : Fin (n + 1) → ℝ) : ℕ → ℝ := fun i => if h : i < n + 1 then y ⟨i, h⟩ else 0

theorem ext0_of_lt {n : ℕ} (y : Fin (n + 1) → ℝ) (i : ℕ) (h : i < n + 1) : ext0 y i = y ⟨i, h⟩ :=
  dif_pos h

/-- The differences sum to the last sample minus the first. -/
theorem sum_rd {n : ℕ} (y : Fin (n + 1) → ℝ) :
    ∑ k, rd y k = y ⟨n, by omega⟩ - y ⟨0, by omega⟩ := by
  have hB : ∀ k : Fin n, rd y k = ext0 y (k.val + 1) - ext0 y k.val := by
    intro k
    have hk := k.isLt
    rw [ext0_of_lt y (k.val + 1) (by omega), ext0_of_lt y k.val (by omega)]
    rfl
  rw [Finset.sum_congr rfl (fun k _ => hB k), sum_fin_diff n (ext0 y), ext0_of_lt y n (by omega),
    ext0_of_lt y 0 (by omega)]

/-- The unbiased variance of the differences of finite samples, from their raw square sum and their
    telescoped mean (last sample minus first, over the count), is their variance from centred values. -/
theorem telescoped_var_eq_varOf {n : ℕ} (N : ℝ) (hn : (n : ℝ) = N) (hN : 1 < N) (y : Fin (n + 1) → ℝ) :
    Ideal.div
        ((∑ k, diff (fun k => (y k : EReal)) k * diff (fun k => (y k : EReal)) k)
          - (N : EReal) * Ideal.div ((y ⟨n, by omega⟩ : EReal) - (y ⟨0, by omega⟩ : EReal)) (N : EReal)
              * Ideal.div ((y ⟨n, by omega⟩ : EReal) - (y ⟨0, by omega⟩ : EReal)) (N : EReal))
        ((N - 1 : ℝ) : EReal)
      = R.varOf (N : EReal) (diff (fun k => (y k : EReal))) := by
  have hN0 : N ≠ 0 := by positivity
  have hN1 : N - 1 ≠ 0 := (sub_pos.mpr hN).ne'
  have hm : N * ((y ⟨n, by omega⟩ - y ⟨0, by omega⟩) / N) = ∑ k, rd y k := by
    rw [sum_rd]
    field_simp
  rw [diff_coe, varOf_coe N hN (rd y), ← EReal.coe_sub, div_coe_coe _ _ hN0]
  simp only [← EReal.coe_mul]
  rw [← coe_sum, ← EReal.coe_sub, div_coe_coe _ _ hN1, sum_rd y,
    sum_sq_centered (rd y) N ((y ⟨n, by omega⟩ - y ⟨0, by omega⟩) / N) hn hm]

theorem varD1_eq_coe : K.varD1 (fun k => (a k : EReal)) = R.varD1 (fun k => (a k : EReal)) := by
  unfold K.varD1 K.meanD1 K.d1 R.varD1 R.d1
  rw [c2559_eq, c2558_eq, show ((2558 : ℝ) : EReal) = ((2559 - 1 : ℝ) : EReal) by norm_num]
  exact telescoped_var_eq_varOf 2559 (by norm_num) (by norm_num) a

theorem varD2_eq_coe : K.varD2 (fun k => (a k : EReal)) = R.varD2 (fun k => (a k : EReal)) := by
  unfold K.varD2 K.meanD2 K.d2 K.d1 R.varD2 R.d2 R.d1
  rw [diff_coe a, c2558_eq, c2557_eq, show ((2557 : ℝ) : EReal) = ((2558 - 1 : ℝ) : EReal) by norm_num]
  exact telescoped_var_eq_varOf 2558 (by norm_num) (by norm_num) (rd a)

/-- The mobility: equal numerators and equal denominators under the root. -/
theorem mobility_eq_coe : K.mobility (fun k => (a k : EReal)) = R.mobility (fun k => (a k : EReal)) := by
  unfold K.mobility R.mobility
  rw [varD1_eq_coe, var_eq_coe]

/-- The complexity: equal numerators and equal denominators under the root. -/
theorem complexity_eq_coe : K.complexity (fun k => (a k : EReal)) = R.complexity (fun k => (a k : EReal)) := by
  unfold K.complexity R.complexity
  rw [varD2_eq_coe, varD1_eq_coe]

/-! ### The zero-crossing rate -/

/-- The sign taken by two selections is the sign by the order. -/
theorem sgn_eq_sign (e : EReal) : K.sgn e = Ideal.sign e :=
  Ideal.jnp_sign_eq_sign_f32 e

/-- Two finite values differ exactly when their difference is not zero. -/
theorem cmp_one_eq_une_sub (p q : ℝ) :
    Ideal.cmp .one (p : EReal) (q : EReal) = Ideal.cmp .une ((p : EReal) - (q : EReal)) 0 := by
  simp only [Ideal.cmp]
  congr 1
  rw [decide_eq_decide, ← EReal.coe_sub, ← EReal.coe_zero, Ne, Ne, EReal.coe_eq_coe_iff,
    EReal.coe_eq_coe_iff, sub_eq_zero]

theorem zcr_eq_coe : K.zcr (fun k => (a k : EReal)) = R.zcr (fun k => (a k : EReal)) := by
  unfold K.zcr R.zcr
  rw [c0_eq, zero_add]
  refine congrArg (fun s => Ideal.div s c5120) (Finset.sum_congr rfl fun k _ => ?_)
  rw [sgn_eq_sign, sgn_eq_sign]
  simp only [Ideal.sign_coe]
  rw [cmp_one_eq_une_sub]
  exact LibCount.toInt_setWidth_ereal _

/-! ### The count of samples further than three standard deviations from the mean -/

theorem coe_max' (p q : ℝ) : max (p : EReal) (q : EReal) = ((max p q : ℝ) : EReal) :=
  (EReal.coe_strictMono.monotone.map_max).symm

/-- A finite sample is above `μ + t` or below `μ - t` exactly when its distance from `μ` exceeds `t`:
    the two comparisons joined by "or" are the one comparison of the absolute value. -/
theorem outlier_flag_eq (v μ t : ℝ) :
    IntOp.ori (Ideal.cmp .ogt (v : EReal) ((μ + t : ℝ) : EReal)) (Ideal.cmp .olt (v : EReal) ((μ - t : ℝ) : EReal))
      = Ideal.cmp .ogt (eabs ((v - μ : ℝ) : EReal)) ((t : ℝ) : EReal) := by
  have hor : ∀ p q : Bool, BitVec.ofBool p ||| BitVec.ofBool q = BitVec.ofBool (p || q) := by decide
  simp only [Ideal.cmp, IntOp.ori, eabs]
  rw [hor, ← Bool.decide_or]
  congr 1
  rw [decide_eq_decide, ← EReal.coe_neg, coe_max', EReal.coe_lt_coe_iff, EReal.coe_lt_coe_iff,
    EReal.coe_lt_coe_iff]
  exact (abs_gt_iff v μ t).symm

theorem outliers_eq_coe : K.outliers (fun k => (a k : EReal)) = R.outliers (fun k => (a k : EReal)) := by
  have hR := LibCount.toInt_fold_addi_fin_ereal (n := 2560)
    (fun k => Ideal.cmp .ogt (eabs (R.cen (fun k => (a k : EReal)) k)) (c3 * R.std (fun k => (a k : EReal))))
    (by norm_num)
  have hb : ∀ k, IntOp.ori (Ideal.cmp .ogt ((a k : ℝ) : EReal) (K.upper (fun k => (a k : EReal))))
        (Ideal.cmp .olt ((a k : ℝ) : EReal) (K.lower (fun k => (a k : EReal))))
      = Ideal.cmp .ogt (eabs (R.cen (fun k => (a k : EReal)) k)) (c3 * R.std (fun k => (a k : EReal))) := by
    intro k
    unfold K.upper K.lower
    rw [K_mean_coe, K_std_coe, R_cen_coe, R_std_coe, c3_eq, ← EReal.coe_mul, ← EReal.coe_add, ← EReal.coe_sub]
    exact outlier_flag_eq (a k) (mu a) (3 * Real.sqrt (vr a))
  have hK : ∀ k, flagS (IntOp.ori (Ideal.cmp .ogt ((a k : ℝ) : EReal) (K.upper (fun k => (a k : EReal))))
        (Ideal.cmp .olt ((a k : ℝ) : EReal) (K.lower (fun k => (a k : EReal)))))
      = ((((Ideal.cmp .ogt (eabs (R.cen (fun k => (a k : EReal)) k))
            (c3 * R.std (fun k => (a k : EReal)))).toNat : ℕ) : ℝ) : EReal) := by
    intro k
    rw [← hb k]
    exact LibCount.toInt_setWidth_ereal _
  unfold K.outliers R.outliers
  exact (Finset.sum_congr rfl fun k _ => hK k).trans hR.symm

/-! ### The fifteen columns -/

/-- On a row of finite samples the two arrangements give the same fifteen statistics. -/
theorem col_eq (x : Fin 2560 → EReal) (hx : ∀ k, ∃ a : ℝ, x k = (a : EReal)) (j : Fin 15) :
    K.col x j = R.col x j := by
  choose a ha using hx
  obtain rfl : x = fun k => (a k : EReal) := funext ha
  fin_cases j
  · exact mean_eq _
  · exact mx_eq _
  · exact mn_eq _
  · exact p2p_eq _
  · exact var_eq_coe a
  · exact rms_eq _
  · exact skew_eq_coe a
  · exact kurt_eq_coe a
  · exact shape_eq _
  · exact impulse_eq _
  · exact outliers_eq_coe a
  · exact zcr_eq_coe a
  · exact var_eq_coe a
  · exact mobility_eq_coe a
  · exact complexity_eq_coe a

end Cert.RowStats

end
-- ==== Proof.Finite.lean ====
/-
  From the precondition to finiteness: `jnp.all(|x| < +inf)` being true says every entry of the input array is a
  real number (neither infinity), since |x| = max x (−x) is +inf at both.
-/
import proofs.«118352_j60224031425109_2_alg».proof.Pre_finite_inputs
import proofs.«118352_j60224031425109_2_alg».proof.Proof.Consts
import Idealize.ShloMosaic.Lib.ReduceAll
import Idealize.ShloMosaic.Lib.ValueIdx

noncomputable section

namespace Cert.Finite

open Idealize.ShloMosaic Idealize.ShloMosaic.ValueIdx

instance : Subsingleton Cert.Pre_finite_inputs.S_.Idx := ⟨fun a b => funext fun d => d.elim0⟩

/-- Every entry of an array on which the precondition evaluates to true is a real number. -/
theorem finite_of_pre [Cert.Pre_finite_inputs.Facts] (a : FVec Ideal Cert.Pre_finite_inputs.S16384x2560x1 .f32)
    (h : Cert.Pre_finite_inputs.fn (F := Ideal) a = fun _ => 1#1) (i : Cert.Pre_finite_inputs.S16384x2560x1.Idx) :
    ∃ r : ℝ, a i = (r : EReal) := by
  have h0 := congrFun h ix0
  dsimp only [Cert.Pre_finite_inputs.fn] at h0
  have hi := Host.reduce_andi_all _ _ _ _ _ h0 i
  have hc : Ideal.cmp .olt (max (a i) (-(a i))) (Ideal.ofBits .f32 0x7F800000#32) = 1#1 := hi
  rw [show Ideal.ofBits .f32 0x7F800000#32 = (⊤ : EReal) from Cert.RowStats.cPosInf_eq] at hc
  have hlt : max (a i) (-(a i)) < ⊤ := by
    by_contra hn
    simp [Ideal.cmp, hn] at hc
  rcases eq_or_ne (a i) ⊤ with ht | ht
  · rw [ht] at hlt; simp at hlt
  rcases eq_or_ne (a i) ⊥ with hb | hb
  · rw [hb] at hlt; simp at hlt
  exact ⟨(a i).toReal, (EReal.coe_toReal ht hb).symm⟩

end Cert.Finite

end
-- ==== Proof.Bridge.lean ====
/-
  The two programs compute one function.

  After its run the kernel's output array holds, at (r, j), statistic j of row r of the argument computed from
  raw power sums, and the reference's holds the same statistic computed from centred samples. Every entry of
  the argument is a real number under the precondition, and on rows of reals the two arrangements agree
  statistic by statistic: the moment identities ∑(x−μ)ᵏ in terms of ∑xʲ for k = 2, 3, 4, the telescoped means of
  the differences, |x−μ| > t ⇔ x > μ+t ∨ x < μ−t for the outlier count, and sign(x) ≠ sign(y) ⇔ sign(x)−sign(y) ≠ 0
  for the zero crossings.
-/
import proofs.«118352_j60224031425109_2_alg».proof.Proof.KernelArray
import proofs.«118352_j60224031425109_2_alg».proof.Proof.RefRun
import proofs.«118352_j60224031425109_2_alg».proof.Proof.RefRead
import proofs.«118352_j60224031425109_2_alg».proof.Proof.RowMath
import proofs.«118352_j60224031425109_2_alg».proof.Proof.Finite

noncomputable section

namespace Cert.Bridge

open Idealize.ShloMosaic Idealize.ShloMosaic.ValueIdx Cert.RowStats

/-- On an argument of real entries the reference's result array is the kernel's. -/
theorem result_eq (a : Cert.KernelIdeal.S16384x2560x1.Idx → EReal) (hfin : ∀ i, ∃ r : ℝ, a i = (r : EReal)) :
    Cert.ReferenceIdeal.RefRun.out (F := Ideal) a
      = Cert.KernelIdeal.KVal.G (shapeCast Cert.KernelIdeal.S16384x2560 a Cert.KernelIdeal.Gen.shapeCasts_S16384x2560x1_S16384x2560) := by
  funext i
  obtain ⟨r, j, rfl⟩ : ∃ (r : Fin 16384) (j : Fin 15), i = ix2 r j := ⟨i 0, i 1, eq_ix2 i⟩
  refine (Cert.ReferenceIdeal.RRead.out_apply a r j).trans ?_
  refine (col_eq _ (fun k => hfin _) j).symm.trans ?_
  exact congrArg (fun f => K.col f j) (funext fun k => (Cert.KernelIdeal.KVal.reshape_apply a r k).symm)

end Cert.Bridge

end
-- ==== Proof.lean ====
/-
  Fifteen statistics per row of a 16384 × 2560 signal array — mean, maximum, minimum, peak to peak, unbiased
  variance, root mean square, skewness, kurtosis, shape and impulse factors, the count of samples beyond three
  standard deviations, the zero-crossing rate, activity, Hjorth mobility and complexity — computed by a kernel that
  walks 32 blocks of 512 rows and forms the central moments from raw power sums, against a reference that centres
  the samples first. At the ideal instance (floats are extended reals, operations exact) both leave the same
  16384 × 15 array whenever every input is finite.

  The frames of the two kernel programs are the generated ones; the reference's frame is its run with the result
  dropped. The one rewrite of the idealization — 1.0 carrying the sign bit of x read as a select on x < 0 — is
  the sign-bit rule's statement. The value claim sets the kernel's run (its blocks assembled into one array,
  KernelArray) beside the reference's run (RefRun) and joins them row by row (Bridge).
-/
import proofs.«118352_j60224031425109_2_alg».proof.Defs
import proofs.«118352_j60224031425109_2_alg».proof.Proof.Gen.Kernel
import proofs.«118352_j60224031425109_2_alg».proof.Proof.Gen.Kernel.Skeleton
import proofs.«118352_j60224031425109_2_alg».proof.Proof.Gen.Kernel.Launch
import proofs.«118352_j60224031425109_2_alg».proof.Proof.Gen.Kernel.Points
import proofs.«118352_j60224031425109_2_alg».proof.Proof.Gen.Kernel.Frame
import proofs.«118352_j60224031425109_2_alg».proof.Proof.Gen.KernelIdeal
import proofs.«118352_j60224031425109_2_alg».proof.Proof.Gen.KernelIdeal.Skeleton
import proofs.«118352_j60224031425109_2_alg».proof.Proof.Gen.KernelIdeal.Launch
import proofs.«118352_j60224031425109_2_alg».proof.Proof.Gen.KernelIdeal.Points
import proofs.«118352_j60224031425109_2_alg».proof.Proof.Gen.KernelIdeal.Frame
import proofs.«118352_j60224031425109_2_alg».proof.Proof.Gen.ReferenceIdeal
import proofs.«118352_j60224031425109_2_alg».proof.Proof.Gen.Pre_finite_inputs
import proofs.«118352_j60224031425109_2_alg».proof.Proof.Gen.KernelIdeal.Value
import proofs.«118352_j60224031425109_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization's one rewrite: ±1.0 by the sign bit of x is the select on x < 0. -/
theorem preserves : Cert.preserves_Kernel_KernelIdeal :=
  IdealRules.sign_bit.statement Cert.KernelIdeal.S512x2560 .f32

/-- From memories that agree on the finite argument both programs end with the row statistics of the argument. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.Bridge.result_eq _ (fun i => Cert.Finite.finite_of_pre _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
